-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x640000 32) (main_arg2 : FVec F S128x128 .f32) (main_arg3 : FVec F S128 .f32) (main_arg4 : FVec F S128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S50000 : Shape := ⟨1, ![50000]⟩
abbrev S640000x1 : Shape := ⟨2, ![640000, 1]⟩
abbrev S50000x1 : Shape := ⟨2, ![50000, 1]⟩
abbrev S5000x128 : Shape := ⟨2, ![5000, 128]⟩
abbrev S5000x1 : Shape := ⟨2, ![5000, 1]⟩
abbrev S640000x128 : Shape := ⟨2, ![640000, 128]⟩
abbrev S1x128 : Shape := ⟨2, ![1, 128]⟩
abbrev S80x128 : Shape := ⟨2, ![80, 128]⟩
abbrev S8x128 : Shape := ⟨2, ![8, 128]⟩

abbrev nBuf : Space → Nat
  | .hbm => 62
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .f32⟩
  | .hbm, ⟨13, _⟩ => ⟨S640000, .f32⟩
  | .hbm, ⟨14, _⟩ => ⟨S_, .f32⟩
  | .hbm, ⟨15, _⟩ => ⟨S50000, .f32⟩
  | .hbm, ⟨16, _⟩ => ⟨S640000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S50000x1, .f32⟩
  | .hbm, ⟨23, _⟩ => ⟨S50000x128, .f32⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x128, .f32⟩
  | .hbm, ⟨33, _⟩ => ⟨S_, .f32⟩
  | .hbm, ⟨34, _⟩ => ⟨S50000x128, .f32⟩
  | .hbm, ⟨35, _⟩ => ⟨S640000x1, .i32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S80x128, .f32⟩
  | .hbm, ⟨40, _⟩ => ⟨S80x128, .f32⟩
  | .hbm, ⟨41, _⟩ => ⟨S_, .f32⟩
  | .hbm, ⟨42, _⟩ => ⟨S128, .f32⟩
  | .hbm, ⟨43, _⟩ => ⟨S_, .f32⟩
  | .hbm, ⟨44, _⟩ => ⟨S128, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S128, .f32⟩
  | .hbm, ⟨52, _⟩ => ⟨S128, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S128, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x1, .f32⟩
  | .local _ .vmem, ⟨12, _⟩ => ⟨S5000x1, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S8x128, .f32⟩
  | .local _ .vmem, ⟨17, _⟩ => ⟨S8x128, .f32⟩
  | .local _ .vmem, ⟨18, _⟩ => ⟨S8x128, .f32⟩
  | .local _ .vmem, ⟨19, _⟩ => ⟨S8x128, .f32⟩
  | .local _ .vmem, ⟨20, _⟩ => ⟨S5000x128, .f32⟩
  | .local _ .vmem, ⟨21, _⟩ => ⟨S5000x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26_0 : Ref sig .tc := ⟨.hbm, 38, rfl⟩
abbrev main_v26_1 : Ref sig .tc := ⟨.hbm, 39, rfl⟩
abbrev main_v26_2 : Ref sig .tc := ⟨.hbm, 40, rfl⟩
abbrev main_cst_4 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S8x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  iota_S8x128_d0_w32 : S8x128.Iotas .tc 32 [0]
  broadcasts_S1x128_S8x128 : S1x128.Broadcasts S8x128
  inb_S8x128_S8x128_0_0 : ∀ a, (![0, 0] : Fin 2 → Nat) a + S8x128.size a ≤ S8x128.size a
  h_S8x128 : 0 < S8x128.numel
  reducesTo_S80x128_S128_d0 : S80x128.ReducesTo [0] S128
  h_S_ : 0 < S_.numel
  bcast_S_S128 : S_.BroadcastsInDim S128 (![] : Fin 0 → Fin S128.rank)
  scatter_S50000_S640000x1_S640000_n_0_0_1_wf : ScatterDims.WF S50000 S640000x1 S640000 [] [0] [0] 1
  dot_S5000x128_S128x128_S5000x128_1_0_0_1_n_n_wf : DotDims.WF S5000x128 S128x128 S5000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x128.size a ≤ S80x128.size a
  hwx1_5 : ∀ i : grid1.Coords, EltTy.bits .f32 = 32 ∨ (Rect.block (s := S80x128) S8x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8x128.size a ≤ S80x128.size a
  hwx1_6 : ∀ i : grid1.Coords, EltTy.bits .f32 = 32 ∨ (Rect.block (s := S80x128) S8x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v26_1) S8x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v26_2) S8x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v26_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S690000x128 : Shape := ⟨2, ![690000, 128]⟩
abbrev S1x128 : Shape := ⟨2, ![1, 128]⟩

abbrev nBuf : Space → Nat
  | .hbm => 120
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S50000x128, .f32⟩
  | .hbm, ⟨7, _⟩ => ⟨S50000, .i32⟩
  | .hbm, ⟨8, _⟩ => ⟨S1x640000, .i32⟩
  | .hbm, ⟨9, _⟩ => ⟨S640000, .i32⟩
  | .hbm, ⟨10, _⟩ => ⟨S690000, .i32⟩
  | .hbm, ⟨11, _⟩ => ⟨S1x640000, .i32⟩
  | .hbm, ⟨12, _⟩ => ⟨S640000, .i32⟩
  | .hbm, ⟨13, _⟩ => ⟨S690000, .i32⟩
  | .hbm, ⟨14, _⟩ => ⟨S_, .f32⟩
  | .hbm, ⟨15, _⟩ => ⟨S690000, .f32⟩
  | .hbm, ⟨16, _⟩ => ⟨S_, .f32⟩
  | .hbm, ⟨17, _⟩ => ⟨S50000, .f32⟩
  | .hbm, ⟨18, _⟩ => ⟨S690000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S690000, .i32⟩
  | .hbm, ⟨33, _⟩ => ⟨S690000, .i1⟩
  | .hbm, ⟨34, _⟩ => ⟨S_, .i32⟩
  | .hbm, ⟨35, _⟩ => ⟨S690000, .i32⟩
  | .hbm, ⟨36, _⟩ => ⟨S690000, .i32⟩
  | .hbm, ⟨37, _⟩ => ⟨S690000, .i32⟩
  | .hbm, ⟨38, _⟩ => ⟨S690000x1, .i32⟩
  | .hbm, ⟨39, _⟩ => ⟨S690000, .f32⟩
  | .hbm, ⟨40, _⟩ => ⟨S_, .i32⟩
  | .hbm, ⟨41, _⟩ => ⟨S690000, .i32⟩
  | .hbm, ⟨42, _⟩ => ⟨S690000, .i1⟩
  | .hbm, ⟨43, _⟩ => ⟨S_, .i32⟩
  | .hbm, ⟨44, _⟩ => ⟨S690000, .i32⟩
  | .hbm, ⟨45, _⟩ => ⟨S690000, .i32⟩
  | .hbm, ⟨46, _⟩ => ⟨S690000, .i32⟩
  | .hbm, ⟨47, _⟩ => ⟨S690000x1, .i32⟩
  | .hbm, ⟨48, _⟩ => ⟨S690000, .f32⟩
  | .hbm, ⟨49, _⟩ => ⟨S690000, .f32⟩
  | .hbm, ⟨50, _⟩ => ⟨S_, .i32⟩
  | .hbm, ⟨51, _⟩ => ⟨S690000, .i32⟩
  | .hbm, ⟨52, _⟩ => ⟨S690000, .i1⟩
  | .hbm, ⟨53, _⟩ => ⟨S_, .i32⟩
  | .hbm, ⟨54, _⟩ => ⟨S690000, .i32⟩
  | .hbm, ⟨55, _⟩ => ⟨S690000, .i32⟩
  | .hbm, ⟨56, _⟩ => ⟨S690000, .i32⟩
  | .hbm, ⟨57, _⟩ => ⟨S690000x1, .i32⟩
  | .hbm, ⟨58, _⟩ => ⟨S690000x128, .f32⟩
  | .hbm, ⟨59, _⟩ => ⟨S690000x1, .f32⟩
  | .hbm, ⟨60, _⟩ => ⟨S690000x128, .f32⟩
  | .hbm, ⟨61, _⟩ => ⟨S690000x128, .f32⟩
  | .hbm, ⟨62, _⟩ => ⟨S_, .f32⟩
  | .hbm, ⟨63, _⟩ => ⟨S50000x128, .f32⟩
  | .hbm, ⟨64, _⟩ => ⟨S690000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .i1⟩
  | .hbm, ⟨72, _⟩ => ⟨S_, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S_, .f32⟩
  | .hbm, ⟨77, _⟩ => ⟨S128, .f32⟩
  | .hbm, ⟨78, _⟩ => ⟨S_, .f32⟩
  | .hbm, ⟨79, _⟩ => ⟨S128, .f32⟩
  | .hbm, ⟨80, _⟩ => ⟨S128, .f32⟩
  | .hbm, ⟨81, _⟩ => ⟨S_, .i32⟩
  | .hbm, ⟨82, _⟩ => ⟨S_, .f32⟩
  | .hbm, ⟨83, _⟩ => ⟨S128, .f32⟩
  | .hbm, ⟨84, _⟩ => ⟨S1x128, .f32⟩
  | .hbm, ⟨85, _⟩ => ⟨S_, .f32⟩
  | .hbm, ⟨86, _⟩ => ⟨S1x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S50000x128, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S128, .f32⟩
  | .hbm, ⟨96, _⟩ => ⟨S128, .f32⟩
  | .hbm, ⟨97, _⟩ => ⟨S128, .f32⟩
  | .hbm, ⟨98, _⟩ => ⟨S_, .f32⟩
  | .hbm, ⟨99, _⟩ => ⟨S_, .i1⟩
  | .hbm, ⟨100, _⟩ => ⟨S_, .f32⟩
  | .hbm, ⟨101, _⟩ => ⟨S_, .f32⟩
  | .hbm, ⟨102, _⟩ => ⟨S128, .f32⟩
  | .hbm, ⟨103, _⟩ => ⟨S128, .f32⟩
  | .hbm, ⟨104, _⟩ => ⟨S1x128, .f32⟩
  | .hbm, ⟨105, _⟩ => ⟨S50000x128, .f32⟩
  | .hbm, ⟨106, _⟩ => ⟨S50000x128, .f32⟩
  | .hbm, ⟨107, _⟩ => ⟨S1x128, .f32⟩
  | .hbm, ⟨108, _⟩ => ⟨S50000x128, .f32⟩
  | .hbm, ⟨109, _⟩ => ⟨S50000x128, .f32⟩
  | .hbm, ⟨110, _⟩ => ⟨S_, .f32⟩
  | .hbm, ⟨111, _⟩ => ⟨S128, .f32⟩
  | .hbm, ⟨112, _⟩ => ⟨S128, .f32⟩
  | .hbm, ⟨113, _⟩ => ⟨S128, .f32⟩
  | .hbm, ⟨114, _⟩ => ⟨S1x128, .f32⟩
  | .hbm, ⟨115, _⟩ => ⟨S50000x128, .f32⟩
  | .hbm, ⟨116, _⟩ => ⟨S50000x128, .f32⟩
  | .hbm, ⟨117, _⟩ => ⟨S1x128, .f32⟩
  | .hbm, ⟨118, _⟩ => ⟨S50000x128, .f32⟩
  | .hbm, ⟨119, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_cst_13 : Ref sig .tc := ⟨.hbm, 78, rfl⟩
abbrev main_v55 : Ref sig .tc := ⟨.hbm, 79, rfl⟩
abbrev main_v56 : Ref sig .tc := ⟨.hbm, 80, rfl⟩
abbrev main_c_14 : Ref sig .tc := ⟨.hbm, 81, rfl⟩
abbrev main_call2_cst : Ref sig .tc := ⟨.hbm, 82, rfl⟩
abbrev main_call2_v0 : Ref sig .tc := ⟨.hbm, 83, rfl⟩
abbrev main_call2_v1 : Ref sig .tc := ⟨.hbm, 84, rfl⟩
abbrev main_call2_cst_0 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_v6 : Ref sig .tc := ⟨.hbm, 90, rfl⟩
abbrev main_call2_v7 : Ref sig .tc := ⟨.hbm, 91, rfl⟩
abbrev main_call2_cst_1 : Ref sig .tc := ⟨.hbm, 92, rfl⟩
abbrev main_call2_v8 : Ref sig .tc := ⟨.hbm, 93, rfl⟩
abbrev main_call2_cst_2 : Ref sig .tc := ⟨.hbm, 94, rfl⟩
abbrev main_call2_v9 : Ref sig .tc := ⟨.hbm, 95, rfl⟩
abbrev main_call2_v10 : Ref sig .tc := ⟨.hbm, 96, rfl⟩
abbrev main_call2_v11 : Ref sig .tc := ⟨.hbm, 97, rfl⟩
abbrev main_call2_cst_3 : Ref sig .tc := ⟨.hbm, 98, rfl⟩
abbrev main_call2_v12 : Ref sig .tc := ⟨.hbm, 99, rfl⟩
abbrev main_call2_cst_4 : Ref sig .tc := ⟨.hbm, 100, rfl⟩
abbrev main_call2_call0_v0 : Ref sig .tc := ⟨.hbm, 101, rfl⟩
abbrev main_call2_call0_v1 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_cst_15 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  dot_S50000x128_S128x128_S50000x128_1_0_0_1_n_n_wf : DotDims.WF S50000x128 S128x128 S50000x128 [1] [0] [0] [1] [] []
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf

class Facts : Prop extends Facts₀ where

variable [Facts]
-- ==== Proof.KRunW6.lean ====
/-
  The kernel program's run with its result buffer read at the last boundary's contents.

  The program is six segments: three stretches of host operations and three grid regions. The contents of every
  buffer at each boundary are a fold from the launch memory; the run ends with every unscoped buffer at the last
  boundary's contents. Reading the result buffer there, beside the six argument arrays, gives the run below.
-/
import proofs.«147240_j47321949667549_2_alg».proof.Proof.Gen.KernelIdeal.Frame

set_option maxRecDepth 16384

noncomputable section

namespace Cert.KernelIdeal.KVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from the memory `m` ends, without a fault, with the result buffer at
    the last boundary's contents and the six argument arrays as launched. -/
theorem run_W6 : θ_run defs (onTc (τ := τ) (main (F := F))) ⟨m, fun _ => 0, ρ⟩ (fun r => ∀ c : Dev nD,
      r.2.mem ((c.tc : Thread nD τ).loc main_v42) = W6 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v42 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.KVal

end
-- ==== Proof.Spec.lean ====
/-
  Both programs as formulas over the extended reals, with every array a function of literal coordinates.

  A graph convolution over N = 50000 nodes and E = 640000 edges with C = 128 channels, followed by a leaky
  rectifier and a normalisation over the nodes. An edge e carries two index WORDS, src e and dst e. A scatter-add
  lets edge e land on row r exactly when dst e, read as a signed integer, is r (`hit`); a gather reads row
  `gix w` for an index word w: w + N when w is negative, then clamped into [0, N-1].

  The kernel's side: deg r = 1 + the number of edges landing on r; dis = deg^(-1/2); xs n = dis n · (x W) n;
  agg r = dis r · (Σ_{e lands on r} xs (gix (src e)) + xs r) + b; h = lrelu agg; then the normalisation with the
  variance as the mean of squares minus the squared mean.
  The reference's side: the N self loops are N further edges (u, u); deg r = the number of those E + N edges
  landing on r; dis = deg^(-1/2) where deg > 0; each edge's message is (x W)(gix src) · (dis (gix src) · dis (gix dst));
  agg r = Σ_{u lands on r} msg u + b; the variance is the mean of the squared deviations.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-! ## Arrays and functions of coordinates -/

/-- The rank-1 array of a function of one coordinate. -/
def arr1 {α : Type} {a : ℕ} (f : Fin a → α) : (⟨1, ![a]⟩ : Shape).Idx → α := fun i => f ⟨(i 0).val, (i 0).isLt⟩
/-- The rank-2 array of a function of two coordinates. -/
def arr2 {α : Type} {a b : ℕ} (f : Fin a → Fin b → α) : (⟨2, ![a, b]⟩ : Shape).Idx → α :=
  fun i => f ⟨(i 0).val, idx2_lt0 i⟩ ⟨(i 1).val, idx2_lt1 i⟩
theorem arr1_ix1 {α : Type} {a : ℕ} (f : Fin a → α) (p : Fin a) : arr1 f (ix1 p) = f p := rfl
theorem arr2_ix2 {α : Type} {a b : ℕ} (f : Fin a → Fin b → α) (p : Fin a) (q : Fin b) : arr2 f (ix2 p q) = f p q := rfl
/-- A rank-1 array as a function of its coordinate. -/
def fn1 {α : Type} {a : ℕ} (v : (⟨1, ![a]⟩ : Shape).Idx → α) : Fin a → α := fun p => v (ix1 p)
/-- A rank-2 array as a function of its coordinates. -/
def fn2 {α : Type} {a b : ℕ} (v : (⟨2, ![a, b]⟩ : Shape).Idx → α) : Fin a → Fin b → α := fun p q => v (ix2 p q)
theorem arr1_fn1 {α : Type} {a : ℕ} (v : (⟨1, ![a]⟩ : Shape).Idx → α) : arr1 (fn1 v) = v := by
  funext i; rw [eq_ix1 i]; rfl
theorem arr2_fn2 {α : Type} {a b : ℕ} (v : (⟨2, ![a, b]⟩ : Shape).Idx → α) : arr2 (fn2 v) = v := by
  funext i; rw [eq_ix2 i]; rfl
/-- Two rank-2 arrays are equal when they agree at every pair of coordinates. -/
theorem ext2 {α : Type} {a b : ℕ} {v w : (⟨2, ![a, b]⟩ : Shape).Idx → α} (h : ∀ p q, v (ix2 p q) = w (ix2 p q)) : v = w := by
  funext i; rw [eq_ix2 i]; exact h _ _
theorem ext1 {α : Type} {a : ℕ} {v w : (⟨1, ![a]⟩ : Shape).Idx → α} (h : ∀ p, v (ix1 p) = w (ix1 p)) : v = w := by
  funext i; rw [eq_ix1 i]; exact h _

/-! ## Index words -/

/-- A scatter's index word `w` lands on row `r`: read signed, it is `r`. -/
def hit (w : BitVec 32) (r : Fin 50000) : Prop := w.toInt = (r.val : ℤ)
instance (w : BitVec 32) (r : Fin 50000) : Decidable (hit w r) := by unfold hit; infer_instance
/-- A gather's index word after the wrap of negative indices: `w + N` when `w` is negative. -/
def nrm (w : BitVec 32) : BitVec 32 := if w.slt 0#32 then w + 50000#32 else w
/-- The row a gather reads for the index word `w`: wrapped, read signed, clamped into `[0, N - 1]`. -/
def gix (w : BitVec 32) : Fin 50000 := ⟨min (nrm w).toInt.toNat 49999, by omega⟩
/-- The two edge rows of the index array. -/
def srcOf (ei : (⟨2, ![2, 640000]⟩ : Shape).Idx → BitVec 32) : Fin 640000 → BitVec 32 := fun e => ei (ix2 0 e)
def dstOf (ei : (⟨2, ![2, 640000]⟩ : Shape).Idx → BitVec 32) : Fin 640000 → BitVec 32 := fun e => ei (ix2 1 e)
/-- A list of E edge words followed by the N self loops `0, 1, …, N - 1`. -/
def withLoops (a : Fin 640000 → BitVec 32) : Fin 690000 → BitVec 32 :=
  fun u => if h : u.val < 640000 then a ⟨u.val, h⟩ else BitVec.ofNat 32 (u.val - 640000)

/-! ## The two literals no side evaluates, and the pieces both sides share -/

/-- The rectifier's slope, the f32 nearest 0.01. -/
def slope : EReal := Ideal.ofBits .f32 0x3C23D70A#32
/-- The normalisation's epsilon, the f32 nearest 1e-5. -/
def eps : EReal := Ideal.ofBits .f32 0x3727C5AC#32

/-- The dense projection `x W`. -/
def xw (X : Fin 50000 → Fin 128 → EReal) (Wt : Fin 128 → Fin 128 → EReal) (n : Fin 50000) (k : Fin 128) : EReal :=
  ∑ j : Fin 128, X n j * Wt j k
/-- The leaky rectifier. -/
def lrelu (a : EReal) : EReal := if 0 ≤ a then a else slope * a
/-- A column's mean over the nodes. -/
def mean (h : Fin 50000 → Fin 128 → EReal) (k : Fin 128) : EReal := Ideal.div (∑ n : Fin 50000, h n k) ((50000 : ℝ) : EReal)
/-- The normalisation with a given mean and variance, scaled and shifted per channel. -/
def bn (G Be : Fin 128 → EReal) (h : Fin 50000 → Fin 128 → EReal) (mu var : Fin 128 → EReal) (n : Fin 50000) (k : Fin 128) : EReal :=
  G k * (h n k - mu k) * Ideal.rsqrt (var k + eps) + Be k

/-! ## The kernel's side -/

section Kernel
variable (X : Fin 50000 → Fin 128 → EReal) (Wt : Fin 128 → Fin 128 → EReal) (src dst : Fin 640000 → BitVec 32)
  (B G Be : Fin 128 → EReal)

/-- The number of edges landing on row `r`. -/
def kdeg (r : Fin 50000) : EReal := ∑ e : Fin 640000, if hit (dst e) r then (1 : EReal) else 0
/-- `(indegree + 1)^(-1/2)`. -/
def kdis (r : Fin 50000) : EReal := Ideal.rsqrt (kdeg dst r + 1)
/-- The projection scaled per row. -/
def xs (n : Fin 50000) (k : Fin 128) : EReal := xw X Wt n k * kdis dst n
/-- The scaled rows gathered along the edges and added up at their destinations. -/
def gat (r : Fin 50000) (k : Fin 128) : EReal := ∑ e : Fin 640000, if hit (dst e) r then xs X Wt dst (gix (src e)) k else 0
def kagg (r : Fin 50000) (k : Fin 128) : EReal := kdis dst r * (gat X Wt src dst r k + xs X Wt dst r k) + B k
def kh (r : Fin 50000) (k : Fin 128) : EReal := lrelu (kagg X Wt src dst B r k)
/-- The variance as the mean of the squares minus the squared mean. -/
def kvar (h : Fin 50000 → Fin 128 → EReal) (k : Fin 128) : EReal :=
  Ideal.div (∑ n : Fin 50000, h n k * h n k) ((50000 : ℝ) : EReal) - mean h k * mean h k
def kout (n : Fin 50000) (k : Fin 128) : EReal :=
  bn G Be (kh X Wt src dst B) (mean (kh X Wt src dst B)) (kvar (kh X Wt src dst B)) n k

/-- One tile's partial column sums as the kernel leaves them: 8 rows per tile of 5000 nodes, the sum in the tile's
    first row and zero in the other seven. -/
def part (h : Fin 50000 → Fin 128 → EReal) (row : Fin 80) (k : Fin 128) : EReal :=
  if row.val % 8 = 0 then ∑ p : Fin 5000, h ⟨5000 * (row.val / 8) + p.val, by have := row.isLt; have := p.isLt; omega⟩ k else 0

end Kernel

/-! ## The reference's side -/

section Reference
variable (X : Fin 50000 → Fin 128 → EReal) (Wt : Fin 128 → Fin 128 → EReal) (src dst : Fin 640000 → BitVec 32)
  (B G Be : Fin 128 → EReal)

def rdeg (r : Fin 50000) : EReal := ∑ u : Fin 690000, if hit (withLoops dst u) r then (1 : EReal) else 0
def rdis (r : Fin 50000) : EReal := if 0 < rdeg dst r then Ideal.rsqrt (max (rdeg dst r) 1) else 0
def rmsg (u : Fin 690000) (k : Fin 128) : EReal :=
  xw X Wt (gix (withLoops src u)) k * (rdis dst (gix (withLoops src u)) * rdis dst (gix (withLoops dst u)))
def ragg (r : Fin 50000) (k : Fin 128) : EReal :=
  (∑ u : Fin 690000, if hit (withLoops dst u) r then rmsg X Wt src dst u k else 0) + B k
def rh (r : Fin 50000) (k : Fin 128) : EReal := lrelu (ragg X Wt src dst B r k)
/-- The variance as the mean of the squared deviations from the mean. -/
def rvar (h : Fin 50000 → Fin 128 → EReal) (k : Fin 128) : EReal :=
  Ideal.div (∑ n : Fin 50000, (h n k - mean h k) * (h n k - mean h k)) ((50000 : ℝ) : EReal)
def rout (n : Fin 50000) (k : Fin 128) : EReal :=
  bn G Be (rh X Wt src dst B) (mean (rh X Wt src dst B)) (rvar (rh X Wt src dst B)) n k

end Reference

/-! ## The literals that are evaluated -/

theorem ofBits_zero : Ideal.ofBits .f32 0x00000000#32 = 0 := Ideal.ofBits_zero_f32
theorem ofBits_one : Ideal.ofBits .f32 0x3F800000#32 = 1 := by
  simp [Ideal.ofBits, Ideal.ieee, -EReal.coe_mul]; norm_num
theorem ofBits_50000 : Ideal.ofBits .f32 0x47435000#32 = ((50000 : ℝ) : EReal) := by
  simp [Ideal.ofBits, Ideal.ieee, -EReal.coe_mul]; norm_num

end Cert.Spec

end
-- ==== Proof.LibScatterAdd.lean ====
/-
  The host's accumulating float scatter with ONE scattered operand axis, read at an operand index at the ideal
  values. The scatter indices are a column [U, 1] of integer words, one per update row; update row `u` is added
  into operand row `idx[u, 0]` (read as a signed integer), and is dropped when that is no row of the operand.
  So the result at row `r` is the operand's element plus the sum, over the update rows `u` whose index word is
  `r`, of the update's element (in the same column, when the rows have columns).

  Two layouts: an operand [S, C] with updates [U, C] (whole rows are scattered: the update's second axis is the
  window axis), and an operand [S] with updates [U] (single elements are scattered: no window axis).
-/
import Idealize.ShloMosaic.PureOps.Ideal
import Idealize.ShloMosaic.Lib.ValueIdx

noncomputable section

open scoped BigOperators

namespace Idealize.ShloMosaic

open ValueIdx

/-- An update index lands on the operand index `i` exactly when, on every operand axis, its window's start plus
    its window coordinate is `i`'s coordinate. -/
theorem ScatterDims.resultIdx?_eq_some_iff {s si u : Shape} (d : ScatterDims s si u) {w : ℕ} (j : u.Idx) (idx : IVec si w)
    (i : s.Idx) : d.resultIdx? j idx = some i ↔ ∀ a, d.start j idx a + (d.window j a : ℤ) = ((i a).val : ℤ) := by
  unfold ScatterDims.resultIdx?
  constructor
  · intro h a
    split at h
    · next hall =>
      have e := congrFun (Option.some.inj h) a
      have ev : (d.start j idx a + (d.window j a : ℤ)).toNat = (i a).val := congrArg Fin.val e
      have := (hall a).1
      omega
    · exact absurd h (by simp)
  · intro h
    have hall : ∀ a, 0 ≤ d.start j idx a + (d.window j a : ℤ) ∧ d.start j idx a + (d.window j a : ℤ) < s.size a := by
      intro a
      have := (i a).isLt
      rw [h a]
      exact ⟨Int.natCast_nonneg _, by exact_mod_cast this⟩
    rw [dif_pos hall]
    refine congrArg some (funext fun a => Fin.ext ?_)
    show (d.start j idx a + (d.window j a : ℤ)).toNat = (i a).val
    rw [h a, Int.toNat_natCast]

/-- A rank-1 index set is its coordinate's range … -/
def idxEquiv1 {n : ℕ} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-! ## Whole rows scattered: operand [S, C], indices [U, 1], updates [U, C] -/

section Rows
variable {S C U w : ℕ}

private theorem rows_sKept (wf) :
    (ScatterDims.mk (s := ⟨2, ![S, C]⟩) (si := ⟨2, ![U, 1]⟩) (u := ⟨2, ![U, C]⟩) [1] [0] [0] 1 wf).sKept = [1] := rfl

private theorem rows_start0 (wf) (idx : IVec ⟨2, ![U, 1]⟩ w) (u : Fin U) (c : Fin C) :
    (ScatterDims.mk (s := ⟨2, ![S, C]⟩) (si := ⟨2, ![U, 1]⟩) (u := ⟨2, ![U, C]⟩) [1] [0] [0] 1 wf).start (ix2 u c) idx 0
      = (idx (ix2 u 0)).toInt := by
  unfold ScatterDims.start
  rw [dif_pos (List.mem_singleton.mpr rfl)]
  refine congrArg (fun k => (idx k).toInt) ?_
  funext b
  refine Fin.ext ?_
  match b with
  | ⟨0, _⟩ => rfl
  | ⟨1, _⟩ => rfl

private theorem rows_start1 (wf) (idx : IVec ⟨2, ![U, 1]⟩ w) (u : Fin U) (c : Fin C) :
    (ScatterDims.mk (s := ⟨2, ![S, C]⟩) (si := ⟨2, ![U, 1]⟩) (u := ⟨2, ![U, C]⟩) [1] [0] [0] 1 wf).start (ix2 u c) idx 1 = 0 := by
  unfold ScatterDims.start
  rw [dif_neg (fun h => absurd (congrArg Fin.val (List.mem_singleton.mp h)) Nat.one_ne_zero)]

private theorem rows_window0 (wf) (u : Fin U) (c : Fin C) :
    (ScatterDims.mk (s := ⟨2, ![S, C]⟩) (si := ⟨2, ![U, 1]⟩) (u := ⟨2, ![U, C]⟩) [1] [0] [0] 1 wf).window (ix2 u c) 0 = 0 := by
  unfold ScatterDims.window
  rw [dif_neg (by rw [rows_sKept]; exact fun h => absurd (congrArg Fin.val (List.mem_singleton.mp h)) Nat.zero_ne_one)]

private theorem rows_window1 (wf) (u : Fin U) (c : Fin C) :
    (ScatterDims.mk (s := ⟨2, ![S, C]⟩) (si := ⟨2, ![U, 1]⟩) (u := ⟨2, ![U, C]⟩) [1] [0] [0] 1 wf).window (ix2 u c) 1 = c.val := by
  unfold ScatterDims.window
  rw [dif_pos (by rw [rows_sKept]; exact List.mem_singleton.mpr rfl)]
  rfl

/-- Update element `(u, c)` lands on operand element `(r, c')` exactly when row `u`'s index word is `r` and the columns agree. -/
theorem ScatterDims.rows_resultIdx?_eq_some_iff (d : ScatterDims ⟨2, ![S, C]⟩ ⟨2, ![U, 1]⟩ ⟨2, ![U, C]⟩)
    (huw : d.updateWindowDims = [1]) (hiw : d.insertedWindowDims = [0]) (hsd : d.scatterDimsToOperandDims = [0])
    (hiv : d.indexVectorDim = 1) (idx : IVec ⟨2, ![U, 1]⟩ w) (u : Fin U) (c : Fin C) (r : Fin S) (c' : Fin C) :
    d.resultIdx? (ix2 u c) idx = some (ix2 r c') ↔ (idx (ix2 u 0)).toInt = (r.val : ℤ) ∧ c = c' := by
  obtain ⟨uw, iw, sd, iv, wf⟩ := d
  dsimp only at huw hiw hsd hiv
  subst huw hiw hsd hiv
  rw [ScatterDims.resultIdx?_eq_some_iff, Fin.forall_fin_two, rows_start0, rows_start1, rows_window0, rows_window1]
  show (idx (ix2 u 0)).toInt + ((0 : ℕ) : ℤ) = (r.val : ℤ) ∧ (0 : ℤ) + (c.val : ℤ) = (c'.val : ℤ) ↔ _
  constructor
  · rintro ⟨h0, h1⟩
    exact ⟨by omega, Fin.ext (by omega)⟩
  · rintro ⟨h0, rfl⟩
    exact ⟨by omega, by omega⟩

/-- THE ROW SCATTER READ AT `(r, c)`: the operand's element plus the sum over the update rows whose index word is `r`
    of the update's element in column `c`. -/
theorem Host.scatterAdd_rows_apply {φ : FTy} (d : ScatterDims ⟨2, ![S, C]⟩ ⟨2, ![U, 1]⟩ ⟨2, ![U, C]⟩)
    (huw : d.updateWindowDims = [1]) (hiw : d.insertedWindowDims = [0]) (hsd : d.scatterDimsToOperandDims = [0])
    (hiv : d.indexVectorDim = 1) (x : FVec Ideal ⟨2, ![S, C]⟩ φ) (idx : IVec ⟨2, ![U, 1]⟩ w)
    (upd : FVec Ideal ⟨2, ![U, C]⟩ φ) (r : Fin S) (c : Fin C) :
    Host.scatterAdd d x idx upd (ix2 r c)
      = x (ix2 r c) + ∑ u : Fin U, if (idx (ix2 u 0)).toInt = (r.val : ℤ) then upd (ix2 u c) else 0 := by
  unfold Host.scatterAdd
  rw [Ideal.hostScatterAdd_def]
  unfold Ideal.hostScatterAdd
  refine congrArg (x (ix2 r c) + ·) ?_
  rw [Finset.sum_filter, sum_idx2]
  refine Finset.sum_congr rfl fun u _ => ?_
  by_cases hu : (idx (ix2 u 0)).toInt = (r.val : ℤ)
  · rw [if_pos hu]
    rw [Finset.sum_eq_single c]
    · rw [if_pos ((ScatterDims.rows_resultIdx?_eq_some_iff d huw hiw hsd hiv idx u c r c).2 ⟨hu, rfl⟩)]
    · intro c' _ hc'
      rw [if_neg fun h => hc' ((ScatterDims.rows_resultIdx?_eq_some_iff d huw hiw hsd hiv idx u c' r c).1 h).2]
    · intro h; exact absurd (Finset.mem_univ c) h
  · rw [if_neg hu]
    refine Finset.sum_eq_zero fun c' _ => ?_
    rw [if_neg fun h => hu ((ScatterDims.rows_resultIdx?_eq_some_iff d huw hiw hsd hiv idx u c' r c).1 h).1]

end Rows

/-! ## Single elements scattered: operand [S], indices [U, 1], updates [U] -/

section Elements
variable {S U w : ℕ}

private theorem elts_sKept (wf) :
    (ScatterDims.mk (s := ⟨1, ![S]⟩) (si := ⟨2, ![U, 1]⟩) (u := ⟨1, ![U]⟩) [] [0] [0] 1 wf).sKept = [] := rfl

private theorem elts_start0 (wf) (idx : IVec ⟨2, ![U, 1]⟩ w) (u : Fin U) :
    (ScatterDims.mk (s := ⟨1, ![S]⟩) (si := ⟨2, ![U, 1]⟩) (u := ⟨1, ![U]⟩) [] [0] [0] 1 wf).start (ix1 u) idx 0
      = (idx (ix2 u 0)).toInt := by
  unfold ScatterDims.start
  rw [dif_pos (List.mem_singleton.mpr rfl)]
  refine congrArg (fun k => (idx k).toInt) ?_
  funext b
  refine Fin.ext ?_
  match b with
  | ⟨0, _⟩ => rfl
  | ⟨1, _⟩ => rfl

private theorem elts_window0 (wf) (u : Fin U) :
    (ScatterDims.mk (s := ⟨1, ![S]⟩) (si := ⟨2, ![U, 1]⟩) (u := ⟨1, ![U]⟩) [] [0] [0] 1 wf).window (ix1 u) 0 = 0 := by
  unfold ScatterDims.window
  rw [dif_neg (by rw [elts_sKept]; exact List.not_mem_nil)]

/-- Update element `u` lands on operand element `r` exactly when its index word is `r`. -/
theorem ScatterDims.elts_resultIdx?_eq_some_iff (d : ScatterDims ⟨1, ![S]⟩ ⟨2, ![U, 1]⟩ ⟨1, ![U]⟩)
    (huw : d.updateWindowDims = []) (hiw : d.insertedWindowDims = [0]) (hsd : d.scatterDimsToOperandDims = [0])
    (hiv : d.indexVectorDim = 1) (idx : IVec ⟨2, ![U, 1]⟩ w) (u : Fin U) (r : Fin S) :
    d.resultIdx? (ix1 u) idx = some (ix1 r) ↔ (idx (ix2 u 0)).toInt = (r.val : ℤ) := by
  obtain ⟨uw, iw, sd, iv, wf⟩ := d
  dsimp only at huw hiw hsd hiv
  subst huw hiw hsd hiv
  rw [ScatterDims.resultIdx?_eq_some_iff]
  constructor
  · intro h
    have h0 := h 0
    rw [elts_start0, elts_window0] at h0
    have : ((ix1 r : (⟨1, ![S]⟩ : Shape).Idx) 0).val = r.val := rfl
    omega
  · intro h a
    obtain rfl : a = 0 := Subsingleton.elim _ _
    rw [elts_start0, elts_window0]
    have : ((ix1 r : (⟨1, ![S]⟩ : Shape).Idx) 0).val = r.val := rfl
    omega

/-- THE ELEMENT SCATTER READ AT `r`: the operand's element plus the sum of the updates whose index word is `r`. -/
theorem Host.scatterAdd_elts_apply {φ : FTy} (d : ScatterDims ⟨1, ![S]⟩ ⟨2, ![U, 1]⟩ ⟨1, ![U]⟩)
    (huw : d.updateWindowDims = []) (hiw : d.insertedWindowDims = [0]) (hsd : d.scatterDimsToOperandDims = [0])
    (hiv : d.indexVectorDim = 1) (x : FVec Ideal ⟨1, ![S]⟩ φ) (idx : IVec ⟨2, ![U, 1]⟩ w)
    (upd : FVec Ideal ⟨1, ![U]⟩ φ) (r : Fin S) :
    Host.scatterAdd d x idx upd (ix1 r)
      = x (ix1 r) + ∑ u : Fin U, if (idx (ix2 u 0)).toInt = (r.val : ℤ) then upd (ix1 u) else 0 := by
  unfold Host.scatterAdd
  rw [Ideal.hostScatterAdd_def]
  unfold Ideal.hostScatterAdd
  refine congrArg (x (ix1 r) + ·) ?_
  rw [Finset.sum_filter, sum_idx1]
  refine Finset.sum_congr rfl fun u _ => ?_
  by_cases hu : (idx (ix2 u 0)).toInt = (r.val : ℤ)
  · rw [if_pos hu, if_pos ((ScatterDims.elts_resultIdx?_eq_some_iff d huw hiw hsd hiv idx u r).2 hu)]
  · rw [if_neg hu, if_neg fun h => hu ((ScatterDims.elts_resultIdx?_eq_some_iff d huw hiw hsd hiv idx u r).1 h)]

end Elements

end Idealize.ShloMosaic

end
-- ==== Proof.KHost0.lean ====
/-
  The kernel's first stretch of host operations, read at an index.

  The edge array has shape [2, E]: row 0 holds the source words, row 1 the destination words. The stretch cuts each
  row out as a [1, E] slice and flattens it to [E] (so entry e of the flattened row is the array's entry (row, e));
  it then scatters a vector of E ones onto a vector of N zeros along the destination words, laid out as a column
  [E, 1] — row n of the result is 0 plus one for every edge whose destination word, read signed, is n, that is the
  indegree of n —, adds one, takes the reciprocal square root, and recasts the [N] vector as a column [N, 1].
  So the column's row n holds (indegree n + 1)^(-1/2).
-/
import proofs.«147240_j47321949667549_2_alg».proof.Proof.Gen.KernelIdeal.Launch
import proofs.«147240_j47321949667549_2_alg».proof.Proof.Spec
import proofs.«147240_j47321949667549_2_alg».proof.Proof.LibScatterAdd
import Idealize.ShloMosaic.Lib.StableHlo.Run
import Idealize.ShloMosaic.Lib.Pipeline.Value
import Idealize.ShloMosaic.Lib.ValueLayout
import Idealize.ShloMosaic.Lib.IdealHost

noncomputable section
namespace Cert.KernelIdeal.KVal
open Cert.KernelIdeal Cert.KernelIdeal.Gen Cert.Spec Idealize.ShloMosaic Idealize.ShloMosaic.TcCoe Idealize.SL.Sem Idealize.ShloMosaic.ValueIdx

section Host
variable (W : Valuation τ sig (Elt Ideal))

/-- One row of the [2, E] index array, cut out as a [1, E] slice and flattened to [E], reads the array's entry of that row. -/
theorem host0_row_words_apply (o : ℕ) (ei : (⟨2, ![2, 640000]⟩ : Shape).Idx → BitVec 32)
    (hs : (⟨2, ![2, 640000]⟩ : Shape).Slices ![o, 0] ⟨2, ![1, 640000]⟩)
    (hc : (⟨2, ![1, 640000]⟩ : Shape).ShapeCasts ⟨1, ![640000]⟩) (k : Fin 2) (hk : k.val = o) (p : Fin 640000) :
    shapeCast ⟨1, ![640000]⟩ (extractStridedSlice ⟨2, ![1, 640000]⟩ ![o, 0] ei hs) hc (ix1 p) = ei (ix2 k p) :=
  (shapeCast_1a_a_apply _ hc p).trans (slice2_axis0_apply o ei hs (0 : Fin 1) p k (by rw [hk]; rfl))

theorem host0_src (ei : (⟨2, ![2, 640000]⟩ : Shape).Idx → BitVec 32) (h : W (main_arg1 : DevRef τ sig) = ei) :
    StableHlo.after (hostOps0 (F := Ideal)) W (main_v1 : DevRef τ sig) = arr1 (srcOf ei) := by
  dsimp only [hostOps0]
  after_results
  rw [h]
  refine ext1 fun p => ?_
  exact host0_row_words_apply 0 ei _ _ 0 rfl p

theorem host0_dst (ei : (⟨2, ![2, 640000]⟩ : Shape).Idx → BitVec 32) (h : W (main_arg1 : DevRef τ sig) = ei) :
    StableHlo.after (hostOps0 (F := Ideal)) W (main_v3 : DevRef τ sig) = arr1 (dstOf ei) := by
  dsimp only [hostOps0]
  after_results
  rw [h]
  refine ext1 fun p => ?_
  exact host0_row_words_apply 1 ei _ _ 1 rfl p

/-- A scalar literal broadcast to any shape reads the literal's value everywhere. -/
theorem host0_splat_apply {T : Shape} (hb : (⟨0, ![]⟩ : Shape).BroadcastsInDim T ![]) (b : BitVec 32) (j : T.Idx) :
    broadcastInDim T ![] hb (constant (F := Ideal) ⟨0, ![]⟩ .f32 b) j = Ideal.ofBits .f32 b :=
  (broadcastInDim_scalar_apply hb _ j).trans rfl

/-- A vector [E] laid out as a column [E, 1] reads, in row u, the vector's entry u. -/
theorem host0_column_apply {α : Type} (hb : (⟨1, ![640000]⟩ : Shape).BroadcastsInDim ⟨2, ![640000, 1]⟩ ![0])
    (v : (⟨1, ![640000]⟩ : Shape).Idx → α) (u : Fin 640000) :
    broadcastInDim ⟨2, ![640000, 1]⟩ ![0] hb v (ix2 u (0 : Fin 1)) = v (ix1 u) :=
  broadcastInDim_apply _ hb v _ (ix1 u) fun a => by
    match a with
    | ⟨0, _⟩ =>
      show u.val = if (640000 : ℕ) = 1 then 0 else u.val
      rw [if_neg (by decide)]

/-- A vector [N] recast as a column [N, 1] reads, in row n, the vector's entry n. -/
theorem host0_recast_column_apply {α : Type} (hc : (⟨1, ![50000]⟩ : Shape).ShapeCasts ⟨2, ![50000, 1]⟩)
    (v : (⟨1, ![50000]⟩ : Shape).Idx → α) (n : Fin 50000) (q : Fin 1) :
    shapeCast ⟨2, ![50000, 1]⟩ v hc (ix2 n q) = v (ix1 n) :=
  shapeCast_apply v hc _ _ (by
    rw [Shape.rowMajor_val_one, Shape.rowMajor_val_two]
    show n.val = n.val * 1 + q.val
    have := q.isLt; omega)

/-- The scatter of ones onto zeros along a vector of destination words counts, at row n, the words landing on n. -/
theorem host0_indegree_apply (dst : Fin 640000 → BitVec 32) (wv : IVec S640000 32) (hw : ∀ u, wv (ix1 u) = dst u) (n : Fin 50000) :
    Host.scatterAdd scatter_S50000_S640000x1_S640000_n_0_0_1
      (broadcastInDim S50000 ![] bcast_S_S50000 (constant (F := Ideal) S_ .f32 0x00000000#32))
      (broadcastInDim S640000x1 ![0] bcast_S640000_S640000x1_0 wv)
      (broadcastInDim S640000 ![] bcast_S_S640000 (constant (F := Ideal) S_ .f32 0x3F800000#32)) (ix1 n)
    = kdeg dst n := by
  rw [Host.scatterAdd_elts_apply scatter_S50000_S640000x1_S640000_n_0_0_1 rfl rfl rfl rfl, host0_splat_apply, ofBits_zero, zero_add]
  unfold kdeg
  refine Finset.sum_congr rfl fun u _ => ?_
  rw [host0_column_apply, hw u, host0_splat_apply, ofBits_one]
  exact if_congr Iff.rfl rfl rfl

theorem host0_dis (ei : (⟨2, ![2, 640000]⟩ : Shape).Idx → BitVec 32) (h : W (main_arg1 : DevRef τ sig) = ei) :
    StableHlo.after (hostOps0 (F := Ideal)) W (main_v13 : DevRef τ sig) = arr2 (fun n (_ : Fin 1) => kdis (dstOf ei) n) := by
  dsimp only [hostOps0]
  after_results
  rw [h]
  refine ext2 fun n q => ?_
  refine ((host0_recast_column_apply _ _ n q).trans ?_).trans (arr2_ix2 (fun n (_ : Fin 1) => kdis (dstOf ei) n) n q).symm
  show _ = kdis (dstOf ei) n
  unfold kdis
  have e1 : ∀ v : FVec Ideal S50000 .f32, Host.rsqrt v (ix1 n) = Ideal.rsqrt (v (ix1 n)) := fun _ => rfl
  rw [e1, addf_apply, host0_splat_apply, ofBits_one]
  exact congrArg (fun x => Ideal.rsqrt (x + 1))
    (host0_indegree_apply (dstOf ei) _ (fun u => host0_row_words_apply 1 ei _ _ 1 rfl u) n)

end Host
end Cert.KernelIdeal.KVal
end
-- ==== Proof.LibLayout.lean ====
/-
  Two reads of a broadcast at an index, over literal two-axis shapes.
  A column of shape [a, 1] broadcast along the second axis to [a, b] holds, at (p, c), the column's entry of row p: the
  second coordinate is forgotten. This is the companion of the row case (a [1, b] row broadcast to [a, b] holds at (p, c)
  the row's entry c), which the library states.
-/
import Idealize.ShloMosaic.Lib.ValueIdx
import Idealize.ShloMosaic.Lib.ValueLayout
import Idealize.ShloMosaic.Lib.Pipeline.Value

namespace Cert.LibLayout

open Idealize.ShloMosaic Idealize.ShloMosaic.ValueIdx

variable {α : Type}

/-- A column [a, 1] broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibLayout
-- ==== Proof.KReg0.lean ====
/-
  The first region: the dense projection, scaled row by row.

  The region runs over 10 grid points. At point t the body loads rows 5000 t … 5000 t + 4999 of x (a [5000, 128]
  block), the whole [128, 128] weight, and the same rows of the scaling column (a [5000, 1] block); it multiplies
  the x block by the weight (a block product into a zero accumulator, the change of float format in front of it
  being the identity on the extended reals), broadcasts the column block along the 128 channels, multiplies
  entry by entry, and stores the [5000, 128] result, which the point writes back to rows 5000 t … of the output.

  So entry (p, k) of what point t writes is (Σ_j x(5000 t + p, j) · W(j, k)) · dis(5000 t + p): block t of the array
  n, k ↦ (x W)(n, k) · dis n. Row r of the output lies in the block of point r / 5000, so the ten blocks cover the
  array, and after the ten write-backs the array is that function.
-/
import proofs.«147240_j47321949667549_2_alg».proof.Proof.Gen.KernelIdeal.Frame
import proofs.«147240_j47321949667549_2_alg».proof.Proof.Spec
import proofs.«147240_j47321949667549_2_alg».proof.Proof.LibLayout
import Idealize.ShloMosaic.Lib.Pipeline.Value
import Idealize.ShloMosaic.PureOps.Ideal.Laws
import Idealize.ShloMosaic.Lib.ValueIdx

noncomputable section
namespace Cert.KernelIdeal.KVal
open Cert.KernelIdeal Cert.KernelIdeal.Gen Cert.Spec Idealize.ShloMosaic Idealize.ShloMosaic.TcCoe Idealize.SL.Sem Idealize.ShloMosaic.ValueIdx
open Idealize.ShloMosaic.Pipeline (Dat)

/-! ## The block product at an index -/

theorem reg0_hz : (![0, 0] : Fin 2 → Nat) = fun _ => 0 := funext fun a => by fin_cases a <;> rfl

theorem reg0_lhs0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem reg0_lhs1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem reg0_rhs0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem reg0_rhs1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The block product into a zero accumulator, at (p, k): the sum over the 128 contracted columns. -/
theorem reg0_mm_apply {φ₁ φ₂ : FTy} (a : FVec Ideal S5000x128 φ₁) (b : FVec Ideal S128x128 φ₂) (p : Fin 5000) (k : Fin 128) :
    matmul dot_S5000x128_S128x128_S5000x128_1_0_0_1_n_n none a b (constant (F := Ideal) S5000x128 .f32 0x00000000#32) (ix2 p k)
      = ∑ j : Fin 128, a (ix2 p j) * b (ix2 j k) := by
  simp only [matmul]
  rw [Ideal.matmul_constant_zero_apply, ← Equiv.sum_comp (contrEquiv1 dot_S5000x128_S128x128_S5000x128_1_0_0_1_n_n 128 rfl rfl).symm]
  refine Finset.sum_congr rfl fun j _ => ?_
  have hk := contrEquiv1_symm_val dot_S5000x128_S128x128_S5000x128_1_0_0_1_n_n 128 rfl rfl j
  have el : dot_S5000x128_S128x128_S5000x128_1_0_0_1_n_n.lhsIdx (ix2 p k)
      ((contrEquiv1 dot_S5000x128_S128x128_S5000x128_1_0_0_1_n_n 128 rfl rfl).symm j) = ix2 p j := funext fun ax => Fin.ext (by
    match ax with
    | ⟨0, _⟩ => exact reg0_lhs0 _ _
    | ⟨1, _⟩ => exact (reg0_lhs1 _ _).trans hk)
  have er : dot_S5000x128_S128x128_S5000x128_1_0_0_1_n_n.rhsIdx (ix2 p k)
      ((contrEquiv1 dot_S5000x128_S128x128_S5000x128_1_0_0_1_n_n 128 rfl rfl).symm j) = ix2 j k := funext fun ax => Fin.ext (by
    match ax with
    | ⟨0, _⟩ => exact (reg0_rhs0 _ _).trans hk
    | ⟨1, _⟩ => exact reg0_rhs1 _ _)
  rw [el, er]

/-- The body's one stored value at (p, k): the block product's entry scaled by the column's entry of row p. -/
theorem reg0_pay_apply (x0 : Vec Ideal S5000x128 .f32) (x1 : Vec Ideal S128x128 .f32) (x2 : Vec Ideal S5000x1 .f32)
    (p : Fin 5000) (k : Fin 128) :
    k0_pay1 x0 x1 x2 (ix2 p k) = (∑ j : Fin 128, x0 (ix2 p j) * x1 (ix2 j k)) * x2 (ix2 p (0 : Fin 1)) := by
  unfold k0_pay1
  refine congrArg₂ (· * ·) ?_ ?_
  · exact reg0_mm_apply _ _ p k
  · exact (Cert.LibLayout.broadcastTo_a1_ab_apply _ _ p k).trans (congrFun (shapeCast_self x2 _) _)

/-! ## The blocks at a grid point, and what the point writes back -/

section Regions
variable (V : (c : Dev nD) → (b : Ref sig .tc) → Buf (Elt Ideal) ((c : Thread nD τ).loc b))

/-- The printed index maps over the 10 grid points: the row blocks of x, of the scaling column and of the output move
    together with the point; the weight's one block stays. -/
theorem reg0_idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem reg0_lt (t : Fin cfg0.N) : t.val < 10 := lt_of_lt_of_eq t.isLt N_0

/-- Point t's block of x is rows 5000 t … 5000 t + 4999 of x. -/
theorem reg0_iblk0_apply (c : Dev nD) (X : Fin 50000 → Fin 128 → EReal) (hX : V c main_arg0 = arr2 X) (t : Fin cfg0.N)
    (p : Fin 5000) (j : Fin 128) :
    (iblk0 V c 0 t : Vec Ideal S5000x128 .f32) (ix2 p j) = X ⟨5000 * t.val + p.val, by have := reg0_lt t; have := p.isLt; omega⟩ j := by
  obtain ⟨e0, e1, -⟩ := reg0_idx_facts t
  unfold iblk0
  rw [View.read_apply]
  show V c main_arg0 _ = _
  rw [hX]
  refine (congrArg (arr2 X) (?_ : _ = ix2 ⟨5000 * t.val + p.val, by have := reg0_lt t; have := p.isLt; omega⟩ j)).trans rfl
  funext a
  apply Fin.ext
  match a with
  | ⟨0, _⟩ => show win0_0.index t (0 : Fin 2) * 5000 + 1 * p.val = 5000 * t.val + p.val; rw [e0]; omega
  | ⟨1, _⟩ => show win0_0.index t (1 : Fin 2) * 128 + 1 * j.val = j.val; rw [e1]; omega

/-- The weight's one block is the weight. -/
theorem reg0_iblk1_apply (c : Dev nD) (Wt : Fin 128 → Fin 128 → EReal) (hW : V c main_arg2 = arr2 Wt) (t : Fin cfg0.N)
    (j k : Fin 128) :
    (iblk0 V c 1 t : Vec Ideal S128x128 .f32) (ix2 j k) = Wt j k := by
  obtain ⟨-, -, e0, e1, -⟩ := reg0_idx_facts t
  unfold iblk0
  rw [View.read_apply]
  show V c main_arg2 _ = _
  rw [hW]
  refine (congrArg (arr2 Wt) (?_ : _ = ix2 j k)).trans rfl
  funext a
  apply Fin.ext
  match a with
  | ⟨0, _⟩ => show win0_1.index t (0 : Fin 2) * 128 + 1 * j.val = j.val; rw [e0]; omega
  | ⟨1, _⟩ => show win0_1.index t (1 : Fin 2) * 128 + 1 * k.val = k.val; rw [e1]; omega

/-- Point t's block of the scaling column is its rows 5000 t … 5000 t + 4999. -/
theorem reg0_iblk2_apply (c : Dev nD) (dis : Fin 50000 → EReal) (hd : V c main_v13 = arr2 (fun n (_ : Fin 1) => dis n))
    (t : Fin cfg0.N) (p : Fin 5000) :
    (iblk0 V c 2 t : Vec Ideal S5000x1 .f32) (ix2 p (0 : Fin 1)) = dis ⟨5000 * t.val + p.val, by have := reg0_lt t; have := p.isLt; omega⟩ := by
  obtain ⟨-, -, -, -, e0, e1, -⟩ := reg0_idx_facts t
  unfold iblk0
  rw [View.read_apply]
  show V c main_v13 _ = _
  rw [hd]
  refine (congrArg (arr2 (fun n (_ : Fin 1) => dis n))
    (?_ : _ = ix2 ⟨5000 * t.val + p.val, by have := reg0_lt t; have := p.isLt; omega⟩ (0 : Fin 1))).trans rfl
  funext a
  apply Fin.ext
  match a with
  | ⟨0, _⟩ => show win0_2.index t (0 : Fin 2) * 5000 + 1 * p.val = 5000 * t.val + p.val; rw [e0]; omega
  | ⟨1, _⟩ => show win0_2.index t (1 : Fin 2) * 1 + 1 * 0 = 0; rw [e1]

/-- What the body stores at (p, k) when its three loaded blocks are rows 5000 b … of x, the weight, and rows 5000 b … of
    the scaling column: entry (5000 b + p, k) of the scaled projection. -/
theorem reg0_block_apply (X : Fin 50000 → Fin 128 → EReal) (Wt : Fin 128 → Fin 128 → EReal) (dis : Fin 50000 → EReal)
    (b : ℕ) (hb : b < 10) (x0 : Vec Ideal S5000x128 .f32) (x1 : Vec Ideal S128x128 .f32) (x2 : Vec Ideal S5000x1 .f32)
    (h0 : ∀ (p : Fin 5000) (j : Fin 128), x0 (ix2 p j) = X ⟨5000 * b + p.val, by have := p.isLt; omega⟩ j)
    (h1 : ∀ j k : Fin 128, x1 (ix2 j k) = Wt j k)
    (h2 : ∀ p : Fin 5000, x2 (ix2 p (0 : Fin 1)) = dis ⟨5000 * b + p.val, by have := p.isLt; omega⟩)
    (p : Fin 5000) (k : Fin 128) :
    k0_pay1 x0 x1 x2 (ix2 p k)
      = xw X Wt ⟨5000 * b + p.val, by have := p.isLt; omega⟩ k * dis ⟨5000 * b + p.val, by have := p.isLt; omega⟩ := by
  rw [reg0_pay_apply, h2]
  unfold xw
  exact congrArg (· * _) (Finset.sum_congr rfl fun j _ => by rw [h0, h1])

/-- WHAT POINT t WRITES BACK is block t of the scaled projection. -/
theorem reg0_flushed_eq (c : Dev nD) (X : Fin 50000 → Fin 128 → EReal) (Wt : Fin 128 → Fin 128 → EReal) (dis : Fin 50000 → EReal)
    (hX : V c main_arg0 = arr2 X) (hW : V c main_arg2 = arr2 Wt) (hd : V c main_v13 = arr2 (fun n (_ : Fin 1) => dis n))
    (t : Fin cfg0.N) :
    (dat0 (F := Ideal) V c).flushed 3 t
      = ((cfg0.win 3).blk t).view.read (Elt Ideal) (arr2 (fun n k => xw X Wt n k * dis n)) := by
  show (cfg0.win 3).cut (grid0.coords t) ((dat0 (F := Ideal) V c).after 3 t) = _
  rw [after0_3]
  unfold out0_3
  rw [View.canon_unit_zero reg0_hz]
  simp only [View.ld_unit_zero (S := S5000x128) reg0_hz, View.ld_unit_zero (S := S128x128) reg0_hz,
    View.ld_unit_zero (S := S5000x1) reg0_hz]
  obtain ⟨-, -, -, -, -, -, e0, e1⟩ := reg0_idx_facts t
  have key : ∀ y : S5000x128.Idx, k0_pay1 (iblk0 V c 0 t) (iblk0 V c 1 t) (iblk0 V c 2 t) y
      = arr2 (fun n k => xw X Wt n k * dis n) (((cfg0.win 3).blk t).view.emb y) := by
    intro y
    obtain ⟨p, k, rfl⟩ : ∃ (p : Fin 5000) (k : Fin 128), y = ix2 p k := ⟨y 0, y 1, eq_ix2 y⟩
    refine (reg0_block_apply X Wt dis t.val (reg0_lt t) (iblk0 V c 0 t) (iblk0 V c 1 t) (iblk0 V c 2 t)
      (reg0_iblk0_apply V c X hX t) (reg0_iblk1_apply V c Wt hW t) (reg0_iblk2_apply V c dis hd t) p k).trans ?_
    refine Eq.symm ((congrArg (arr2 (fun n k => xw X Wt n k * dis n))
      (?_ : _ = ix2 ⟨5000 * t.val + p.val, by have := reg0_lt t; have := p.isLt; omega⟩ k)).trans rfl)
    funext a
    apply Fin.ext
    match a with
    | ⟨0, _⟩ => show win0_3.index t (0 : Fin 2) * 5000 + 1 * p.val = 5000 * t.val + p.val; rw [e0]; omega
    | ⟨1, _⟩ => show win0_3.index t (1 : Fin 2) * 128 + 1 * k.val = k.val; rw [e1]; omega
  funext y
  exact key y

/-! ## From the ten blocks to the array -/

/-- An index of the output array is in point t's block iff each coordinate is in the block's range on its axis. -/
theorem reg0_mem_blk (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v14).slice (win0_3.rect t)).set ↔ _
  rw [View.set_slice_whole, Rect.mem_set_unit]
  exact Iff.rfl

/-- Row r of the output lies in the block of point r / 5000: the ten blocks cover the array. -/
theorem reg0_cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, e0, e1⟩ := reg0_idx_facts t
  refine ⟨t, flush0_3 t, ?_⟩
  rw [reg0_mem_blk]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 128 ≤ (i 1).val ∧ (i 1).val < win0_3.index t (1 : Fin 2) * 128 + 128
    rw [e1]; omega

/-- THE OUTPUT ARRAY after the ten write-backs: the projection x W with row n scaled by the column's entry n. -/
theorem reg0_xs (c : Dev nD) (X : Fin 50000 → Fin 128 → EReal) (Wt : Fin 128 → Fin 128 → EReal) (dis : Fin 50000 → EReal)
    (hX : V c main_arg0 = arr2 X) (hW : V c main_arg2 = arr2 Wt) (hd : V c main_v13 = arr2 (fun n (_ : Fin 1) => dis n)) :
    (dat0 (F := Ideal) V c).arrAt 3 cfg0.N = arr2 (fun n k => xw X Wt n k * dis n) :=
  (dat0 (F := Ideal) V c).arrAt_eq_of_cover 3 (arr2 (fun n k => xw X Wt n k * dis n))
    (fun t _ => reg0_flushed_eq V c X Wt dis hX hW hd t) reg0_cover

end Regions
end Cert.KernelIdeal.KVal
end
-- ==== Proof.LibGather.lean ====
/-
  The host's gather with ONE gathered operand axis, read at a result index. The start indices are a column [U, 1]
  of integer words, one per result row; result row `u` reads operand row `idx[u, 0]`, read as a signed integer
  and clamped into `[0, N - 1]` (a negative word reads row 0, a word past the end the last row).

  Two layouts: an operand [N, C] with result [U, C] (whole rows are gathered: the result's second axis is the
  offset axis, of the full width), and an operand [N] with result [U] (single elements are gathered).
-/
import Idealize.ShloMosaic.PureOps.Ideal
import Idealize.ShloMosaic.Lib.ValueIdx

noncomputable section

namespace Idealize.ShloMosaic

open ValueIdx

/-! ## Whole rows gathered: operand [N, C], indices [U, 1], result [U, C] -/

section Rows
variable {α : Type} {N C U w : ℕ}

/-- THE ROW GATHER READ AT `(u, c)`: the operand at the row that index word `u` names (signed, clamped), column `c`. -/
theorem Host.gather_rows_apply (hN : 0 < N) (d : GatherDims ⟨2, ![N, C]⟩ ⟨2, ![U, 1]⟩ ⟨2, ![U, C]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C]) (x : (⟨2, ![N, C]⟩ : Shape).Idx → α) (idx : IVec ⟨2, ![U, 1]⟩ w) (u : Fin U) (c : Fin C) :
    Host.gather d x idx (ix2 u c) = x (ix2 ⟨min (idx (ix2 u 0)).toInt.toNat (N - 1), by omega⟩ c) := by
  obtain ⟨od, cs, ob, sb, sm, iv, ss, wf⟩ := d
  dsimp only at hod hcs hob hsb hsm hiv hss
  subst hod hcs hob hsb hsm hiv hss
  unfold Host.gather
  refine congrArg x ?_
  funext a
  refine Fin.ext ?_
  match a with
  | ⟨0, _⟩ =>
    show GatherDims.start _ (ix2 u c) idx 0 + GatherDims.batchCoord _ (ix2 u c) 0 + GatherDims.offCoord _ (ix2 u c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun k => min (idx k).toInt.toNat (N - 1)) ?_
    funext b; refine Fin.ext ?_
    match b with
    | ⟨0, _⟩ => rfl
    | ⟨1, _⟩ => rfl
  | ⟨1, _⟩ =>
    show GatherDims.start _ (ix2 u c) idx 1 + GatherDims.batchCoord _ (ix2 u c) 1 + GatherDims.offCoord _ (ix2 u c) 1 = c.val
    rw [GatherDims.batchCoord_eq_zero _ _ _ List.not_mem_nil]
    unfold GatherDims.start
    rw [dif_neg (fun h => absurd (congrArg Fin.val (List.mem_singleton.mp h)) Nat.one_ne_zero)]
    unfold GatherDims.offCoord
    rw [dif_pos ((GatherDims.mem_sKept _ _).mpr
      ⟨fun h => absurd (congrArg Fin.val (List.mem_singleton.mp h)) Nat.one_ne_zero, List.not_mem_nil⟩)]
    simp only [Nat.zero_add, Nat.add_zero]
    rfl

end Rows

/-! ## Single elements gathered: operand [N], indices [U, 1], result [U] -/

section Elements
variable {α : Type} {N U w : ℕ}

/-- THE ELEMENT GATHER READ AT `u`: the operand at the position that index word `u` names (signed, clamped). -/
theorem Host.gather_elts_apply (hN : 0 < N) (d : GatherDims ⟨1, ![N]⟩ ⟨2, ![U, 1]⟩ ⟨1, ![U]⟩)
    (hod : d.offsetDims = []) (hcs : d.collapsedSliceDims = [0]) (hob : d.operandBatchingDims = [])
    (hsb : d.startIndicesBatchingDims = []) (hsm : d.startIndexMap = [0]) (hiv : d.indexVectorDim = 1)
    (hss : d.sliceSizes = ![1]) (x : (⟨1, ![N]⟩ : Shape).Idx → α) (idx : IVec ⟨2, ![U, 1]⟩ w) (u : Fin U) :
    Host.gather d x idx (ix1 u) = x (ix1 ⟨min (idx (ix2 u 0)).toInt.toNat (N - 1), by omega⟩) := by
  obtain ⟨od, cs, ob, sb, sm, iv, ss, wf⟩ := d
  dsimp only at hod hcs hob hsb hsm hiv hss
  subst hod hcs hob hsb hsm hiv hss
  unfold Host.gather
  refine congrArg x ?_
  funext a
  obtain rfl : a = 0 := Subsingleton.elim _ _
  refine Fin.ext ?_
  show GatherDims.start _ (ix1 u) idx 0 + GatherDims.batchCoord _ (ix1 u) 0 + GatherDims.offCoord _ (ix1 u) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  refine congrArg (fun k => min (idx k).toInt.toNat (N - 1)) ?_
  funext b; refine Fin.ext ?_
  match b with
  | ⟨0, _⟩ => rfl
  | ⟨1, _⟩ => rfl

end Elements

end Idealize.ShloMosaic

end
-- ==== Proof.KHost1.lean ====
/-
  The kernel's second stretch of host operations: the neighbours' rows gathered along the edges and added up at the
  edges' destinations, and the bias as a row.

  The source words are wrapped first (a negative word w becomes w + N), and the gather then reads, for edge e, the row
  that the wrapped word names, read signed and clamped into [0, N - 1]: row gix (src e). The scatter-add starts from a
  zero array and adds edge e's gathered row into row r exactly when dst e, read signed, is r. So entry (r, k) of the
  result is the sum, over the edges landing on r, of xs (gix (src e)) k.
-/
import proofs.«147240_j47321949667549_2_alg».proof.Proof.Gen.KernelIdeal.Frame
import proofs.«147240_j47321949667549_2_alg».proof.Proof.Spec
import proofs.«147240_j47321949667549_2_alg».proof.Proof.LibScatterAdd
import proofs.«147240_j47321949667549_2_alg».proof.Proof.LibGather
import Idealize.ShloMosaic.Lib.StableHlo.Run
import Idealize.ShloMosaic.Lib.Pipeline.Value
import Idealize.ShloMosaic.Lib.ValueLayout

noncomputable section
namespace Cert.KernelIdeal.KVal
open Cert.KernelIdeal Cert.KernelIdeal.Gen Cert.Spec Idealize.ShloMosaic Idealize.ShloMosaic.TcCoe Idealize.SL.Sem Idealize.ShloMosaic.ValueIdx

namespace Host1

/-- A vector of one word per edge laid out as a column reads, in row e, the vector's word e. -/
theorem col_apply {α : Type} (h : S640000.BroadcastsInDim S640000x1 (![0] : Fin 1 → Fin S640000x1.rank))
    (v : S640000.Idx → α) (e : Fin 640000) :
    broadcastInDim S640000x1 ![0] h v (ix2 e (0 : Fin 1)) = v (ix1 e) := by
  refine broadcastInDim_apply _ h v _ (ix1 e) fun a => ?_
  match a with
  | ⟨0, _⟩ =>
    show e.val = if (640000 : ℕ) = 1 then 0 else e.val
    rw [if_neg (by decide)]

/-- The wrap of the negative indices, word by word: compare with zero, add N, select. -/
theorem wrap_apply (hz hn : S_.BroadcastsInDim S640000 (![] : Fin 0 → Fin S640000.rank)) (src : Fin 640000 → BitVec 32)
    (e : Fin 640000) :
    select (cmpi .slt (arr1 src) (broadcastInDim S640000 ![] hz (constantI S_ 32 0#32)))
        (addi (arr1 src) (broadcastInDim S640000 ![] hn (constantI S_ 32 50000#32))) (arr1 src) (ix1 e)
      = nrm (src e) := by
  show Scalar.select (IntOp.cmpi .slt (src e) 0#32) (IntOp.addi (src e) 50000#32) (src e) = nrm (src e)
  unfold nrm IntOp.cmpi IntOp.addi
  by_cases hs : (src e).slt 0#32 = true
  · rw [if_pos hs]
    show Scalar.select (BitVec.ofBool ((src e).slt 0#32)) _ _ = _
    rw [hs]
    exact select_one _ _
  · rw [if_neg hs]
    show Scalar.select (BitVec.ofBool ((src e).slt 0#32)) _ _ = _
    rw [Bool.not_eq_true] at hs
    rw [hs]
    exact select_zero _ _

/-- The row a gather reads, clamped into [0, N - 1], for a word that is the wrap of w: row gix w. -/
theorem gix_eq (w v : BitVec 32) (h : v = nrm w) (hlt : min v.toInt.toNat (50000 - 1) < 50000) :
    (⟨min v.toInt.toNat (50000 - 1), hlt⟩ : Fin 50000) = gix w := by
  subst h; rfl

end Host1

section Host
variable (W : Valuation τ sig (Elt Ideal))

/-- The gathered rows added up at their destinations. -/
theorem host1_gat (xs : Fin 50000 → Fin 128 → EReal) (src dst : Fin 640000 → BitVec 32)
    (hxs : W (main_v14 : DevRef τ sig) = arr2 xs) (hs : W (main_v1 : DevRef τ sig) = arr1 src) (hd : W (main_v3 : DevRef τ sig) = arr1 dst) :
    StableHlo.after (hostOps1 (F := Ideal)) W (main_v24 : DevRef τ sig)
      = arr2 (fun r k => ∑ e : Fin 640000, if hit (dst e) r then xs (gix (src e)) k else 0) := by
  after_results
  rw [hxs, hs, hd]
  refine ext2 fun r k => ?_
  refine (Host.scatterAdd_rows_apply (S := 50000) (C := 128) (U := 640000) _ rfl rfl rfl rfl _ _ _ r k).trans ?_
  show Ideal.ofBits .f32 0x00000000#32 + _ = _
  rw [Cert.Spec.ofBits_zero, zero_add]
  refine Finset.sum_congr rfl fun e _ => ?_
  refine if_congr ?_ ?_ rfl
  · rw [Host1.col_apply]
    exact Iff.rfl
  · refine (Host.gather_rows_apply (N := 50000) (C := 128) (U := 640000) (by decide) _ rfl rfl rfl rfl rfl rfl rfl _ _ e k).trans ?_
    refine congrArg (fun n => xs n k) (Host1.gix_eq (src e) _ ?_ _)
    rw [Host1.col_apply, Host1.wrap_apply]

/-- The bias as a row. -/
theorem host1_b (b : Fin 128 → EReal) (hb : W (main_arg3 : DevRef τ sig) = arr1 b) :
    StableHlo.after (hostOps1 (F := Ideal)) W (main_v25 : DevRef τ sig) = arr2 (fun (_ : Fin 1) k => b k) := by
  refine Eq.trans (b := shapeCast S1x128 (arr1 b) shapeCasts_S128_S1x128) ?_ ?_
  · rw [← hb]
    after_results
    rfl
  · refine ext2 fun p k => ?_
    exact shapeCast_a_1a_apply (arr1 b) _ p k

end Host

end Cert.KernelIdeal.KVal
end
-- ==== Proof.KReg1Pay.lean ====
/-
  The stats region's three stores, read at an index of their blocks.

  Over a tile of 5000 rows the body forms, at row p and channel k,
      a p k = dis p · (g p k + xs p k) + b k        and        h p k = lrelu (a p k),
  where g and xs are the tile's two [5000,128] blocks, dis its [5000,1] column (broadcast along the channels) and b the
  [1,128] bias row (broadcast along the rows). It stores h; and, in an [8,128] block, the column sums of h, respectively
  of h · h, over the tile's rows in the block's row 0, and zero in rows 1 … 7 (a select on "the row coordinate is 0").
-/
import proofs.«147240_j47321949667549_2_alg».proof.Proof.Gen.KernelIdeal.Skeleton
import proofs.«147240_j47321949667549_2_alg».proof.Proof.Spec
import proofs.«147240_j47321949667549_2_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KVal.Reg1

open Cert.KernelIdeal Cert.KernelIdeal.Gen Cert.Spec Idealize.ShloMosaic Idealize.ShloMosaic.ValueIdx

/-- The rectifier as the body spells it: a select on the comparison "0 ≤ a" between a and slope · a. -/
theorem select_oge_eq_lrelu (a : EReal) :
    Scalar.select (FloatOps.cmpf (F := Ideal) (φ := .f32) .oge a (Ideal.ofBits .f32 0x00000000#32)) a
        (Ideal.ofBits .f32 0x3C23D70A#32 * a) = lrelu a := by
  rw [Ideal.cmpf_def, Cert.Spec.ofBits_zero]
  unfold lrelu Cert.Spec.slope Ideal.cmp
  by_cases h : (0 : EReal) ≤ a
  · rw [if_pos h]; simp only [h, decide_true]; exact select_one _ _
  · rw [if_neg h]; simp only [h, decide_false]; exact select_zero _ _

/-- The stored h at row p, channel k of a tile. -/
theorem pay1_apply (x0 x1 : Vec Ideal S5000x128 .f32) (x2 : Vec Ideal S5000x1 .f32) (x3 : Vec Ideal S1x128 .f32)
    (p : Fin 5000) (k : Fin 128) :
    k1_pay1 x0 x1 x2 x3 (ix2 p k)
      = lrelu (x2 (ix2 p (0 : Fin 1)) * (x0 (ix2 p k) + x1 (ix2 p k)) + x3 (ix2 (0 : Fin 1) k)) := by
  have e7 : broadcastTo S5000x128 (shapeCast S5000x1 x2 shapeCasts_S5000x1_S5000x1) broadcasts_S5000x1_S5000x128 (ix2 p k)
      = x2 (ix2 p (0 : Fin 1)) := by
    rw [shapeCast_self]; exact Cert.LibLayout.broadcastTo_a1_ab_apply x2 _ p k
  have e11 : broadcastTo S5000x128 (shapeCast S1x128 x3 shapeCasts_S1x128_S1x128) broadcasts_S1x128_S5000x128 (ix2 p k)
      = x3 (ix2 (0 : Fin 1) k) := by
    rw [shapeCast_self]; exact broadcastTo_1b_ab_apply x3 _ p k
  have e1 : shapeCast S5000x128 x0 shapeCasts_S5000x128_S5000x128 (ix2 p k) = x0 (ix2 p k) := by rw [shapeCast_self]
  have e3 : shapeCast S5000x128 x1 shapeCasts_S5000x128_S5000x128 (ix2 p k) = x1 (ix2 p k) := by rw [shapeCast_self]
  refine Eq.trans ?_ (select_oge_eq_lrelu _)
  unfold k1_pay1
  show Scalar.select (FloatOps.cmpf (F := Ideal) (φ := .f32) .oge
        (broadcastTo S5000x128 (shapeCast S5000x1 x2 shapeCasts_S5000x1_S5000x1) broadcasts_S5000x1_S5000x128 (ix2 p k)
            * (shapeCast S5000x128 x0 shapeCasts_S5000x128_S5000x128 (ix2 p k) + shapeCast S5000x128 x1 shapeCasts_S5000x128_S5000x128 (ix2 p k))
          + broadcastTo S5000x128 (shapeCast S1x128 x3 shapeCasts_S1x128_S1x128) broadcasts_S1x128_S5000x128 (ix2 p k))
        (Ideal.ofBits .f32 0x00000000#32))
      (broadcastTo S5000x128 (shapeCast S5000x1 x2 shapeCasts_S5000x1_S5000x1) broadcasts_S5000x1_S5000x128 (ix2 p k)
            * (shapeCast S5000x128 x0 shapeCasts_S5000x128_S5000x128 (ix2 p k) + shapeCast S5000x128 x1 shapeCasts_S5000x128_S5000x128 (ix2 p k))
          + broadcastTo S5000x128 (shapeCast S1x128 x3 shapeCasts_S1x128_S1x128) broadcasts_S1x128_S5000x128 (ix2 p k))
      (Ideal.ofBits .f32 0x3C23D70A#32
        * (broadcastTo S5000x128 (shapeCast S5000x1 x2 shapeCasts_S5000x1_S5000x1) broadcasts_S5000x1_S5000x128 (ix2 p k)
            * (shapeCast S5000x128 x0 shapeCasts_S5000x128_S5000x128 (ix2 p k) + shapeCast S5000x128 x1 shapeCasts_S5000x128_S5000x128 (ix2 p k))
          + broadcastTo S5000x128 (shapeCast S1x128 x3 shapeCasts_S1x128_S1x128) broadcasts_S1x128_S5000x128 (ix2 p k))) = _
  rw [e7, e11, e1, e3]

/-- A select on "coordinate q is 0", q below 8, is the `if` on q. -/
theorem select_row0 {α : Type} (q : Fin 8) (A B : α) :
    Scalar.select (IntOp.cmpi .eq (BitVec.ofNat 32 q.val) 0#32) A B = if q.val = 0 then A else B := by
  obtain ⟨h, hh⟩ := q
  show Scalar.select (IntOp.cmpi .eq (BitVec.ofNat 32 h) 0#32) A B = if h = 0 then A else B
  interval_cases h <;> rfl

/-- The row mask of an [8,128] block at (q, k): the row coordinate compared with 0. -/
theorem pay2_apply (q : Fin 8) (k : Fin 128) : k1_pay2 (ix2 q k) = IntOp.cmpi .eq (BitVec.ofNat 32 q.val) 0#32 := by
  unfold k1_pay2
  show IntOp.cmpi .eq (iota .tc S8x128 32 [0] iota_S8x128_d0_w32 (ix2 q k)) 0#32 = _
  rw [iota_single_apply]

/-- A [5000,128] block's column sums, laid in row 0 of an [8,128] block with zeros below: at (q, k) the sum over the
    block's rows of column k when q = 0, and 0 otherwise. -/
theorem colsum_block_apply (src : FVec Ideal S5000x128 .f32) (q : Fin 8) (k : Fin 128) :
    select k1_pay2
        (broadcastTo S8x128 (shapeCast S1x128 (shapeCast S1x128
          (multiReduction .add [0] S128 src 0x00000000#32 reduces_S5000x128_S128 (.inl rfl) rfl)
          shapeCasts_S128_S1x128) shapeCasts_S1x128_S1x128) broadcasts_S1x128_S8x128)
        (broadcast S8x128 (Scalar.ofBits (F := Ideal) .f32 0x00000000#32)) (ix2 q k)
      = if q.val = 0 then ∑ p : Fin 5000, src (ix2 p k) else 0 := by
  have es : multiReduction .add [0] S128 src 0x00000000#32 reduces_S5000x128_S128 (.inl rfl) rfl (ix1 k)
      = ∑ p : Fin 5000, src (ix2 p k) := by
    refine (Ideal.multiReduction_add_single src _ reduces_S5000x128_S128 _ _ (ix1 k)).trans ?_
    show ∑ p : Fin 5000, src (reduces_S5000x128_S128.lift (ix1 k) p) = _
    refine Finset.sum_congr rfl fun p _ => congrArg src ?_
    funext a
    match a with
    | ⟨0, _⟩ => rfl
    | ⟨1, _⟩ => rfl
  have eb : broadcastTo S8x128 (shapeCast S1x128 (shapeCast S1x128
          (multiReduction .add [0] S128 src 0x00000000#32 reduces_S5000x128_S128 (.inl rfl) rfl)
          shapeCasts_S128_S1x128) shapeCasts_S1x128_S1x128) broadcasts_S1x128_S8x128 (ix2 q k)
      = ∑ p : Fin 5000, src (ix2 p k) := by
    rw [shapeCast_self]
    refine (broadcastTo_1b_ab_apply _ _ q k).trans ?_
    refine (shapeCast_a_1a_apply _ _ (0 : Fin 1) k).trans es
  rw [select_apply, pay2_apply, select_row0, eb, broadcast_apply]
  exact if_congr Iff.rfl rfl Cert.Spec.ofBits_zero

/-- The first partial-sum block at (q, k): the tile's column sum of h in row 0, zero below. -/
theorem pay3_apply (x0 x1 : Vec Ideal S5000x128 .f32) (x2 : Vec Ideal S5000x1 .f32) (x3 : Vec Ideal S1x128 .f32)
    (q : Fin 8) (k : Fin 128) :
    k1_pay3 x0 x1 x2 x3 (ix2 q k) = if q.val = 0 then ∑ p : Fin 5000, k1_pay1 x0 x1 x2 x3 (ix2 p k) else 0 := by
  unfold k1_pay3
  exact colsum_block_apply (k1_pay1 x0 x1 x2 x3) q k

/-- The second partial-sum block at (q, k): the tile's column sum of h · h in row 0, zero below. -/
theorem pay4_apply (x0 x1 : Vec Ideal S5000x128 .f32) (x2 : Vec Ideal S5000x1 .f32) (x3 : Vec Ideal S1x128 .f32)
    (q : Fin 8) (k : Fin 128) :
    k1_pay4 x0 x1 x2 x3 (ix2 q k)
      = if q.val = 0 then ∑ p : Fin 5000, k1_pay1 x0 x1 x2 x3 (ix2 p k) * k1_pay1 x0 x1 x2 x3 (ix2 p k) else 0 := by
  unfold k1_pay4
  exact colsum_block_apply (mulf (k1_pay1 x0 x1 x2 x3) (k1_pay1 x0 x1 x2 x3)) q k

end Cert.KernelIdeal.KVal.Reg1

end
-- ==== Proof.KReg1.lean ====
/-
  The stats region's three output arrays after its ten write-backs.

  The node axis is cut into ten tiles of 5000 rows; grid point t stages rows 5000 t … 5000 t + 4999 of the gathered
  array g, of xs and of the column dis, and the whole bias row b. Its body leaves h = lrelu (dis · (g + xs) + b) on the
  tile, written back to rows 5000 t … of the h array, and two [8,128] blocks, written back to rows 8 t … 8 t + 7 of the
  two [80,128] partial-sum arrays: the tile's column sums of h, resp. of h · h, in the block's row 0 and zero below.
  The tiles cover the node axis and the blocks cover the 80 rows, so each array ends as one function of the region's
  inputs: h itself, and Spec.part of h, resp. of h · h.
-/
import proofs.«147240_j47321949667549_2_alg».proof.Proof.Gen.KernelIdeal.Frame
import proofs.«147240_j47321949667549_2_alg».proof.Proof.Spec
import proofs.«147240_j47321949667549_2_alg».proof.Proof.KReg1Pay
import Idealize.ShloMosaic.Lib.Pipeline.Value

noncomputable section

namespace Cert.KernelIdeal.KVal

open Cert.KernelIdeal Cert.KernelIdeal.Gen Cert.Spec Idealize.ShloMosaic Idealize.ShloMosaic.TcCoe Idealize.SL.Sem
  Idealize.ShloMosaic.ValueIdx
open Idealize.ShloMosaic.Pipeline (Dat)

namespace Reg1

/-! ## Tiles and rows -/

theorem zero_offsets : (![0, 0] : Fin 2 → Nat) = fun _ => 0 := funext fun a => by fin_cases a <;> rfl

/-- The grid has ten points. -/
theorem point_lt (t : Fin cfg1.N) : t.val < 10 := lt_of_lt_of_eq t.isLt N_1

/-- Row p of tile t on the node axis. -/
def tileRow (t : Fin cfg1.N) (p : Fin 5000) : Fin 50000 :=
  ⟨5000 * t.val + p.val, by have := point_lt t; have := p.isLt; omega⟩
/-- Row q of tile t's block in a partial-sum array. -/
def partRow (t : Fin cfg1.N) (q : Fin 8) : Fin 80 :=
  ⟨8 * t.val + q.val, by have := point_lt t; have := q.isLt; omega⟩

/-- The printed index maps over the grid: every tiled window's block index at point t is (t, 0), the bias row's (0, 0). -/
theorem index_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = t.val ∧ win1_4.index t (1 : Fin 2) = 0)
    ∧ (win1_5.index t (0 : Fin 2) = t.val ∧ win1_5.index t (1 : Fin 2) = 0)
    ∧ (win1_6.index t (0 : Fin 2) = t.val ∧ win1_6.index t (1 : Fin 2) = 0) :=
  (by decide +kernel : ∀ t : Fin grid1.N, _)

/-! ## An array read through an output window's block at a point -/

/-- Tile t of an array over the nodes, read through the h window's block at point t. -/
theorem read_blk_h (t : Fin cfg1.N) (f : Fin 50000 → Fin 128 → EReal) :
    (((cfg1.win 4).blk t).view.read (Elt Ideal) (arr2 f) : Vec Ideal S5000x128 .f32) = arr2 (fun p k => f (tileRow t p) k) := by
  obtain ⟨-, -, -, -, ⟨e0, e1⟩, -⟩ := index_facts t
  funext j
  rw [View.read_apply]
  show f ⟨_, _⟩ ⟨_, _⟩ = f ⟨_, _⟩ ⟨_, _⟩
  congr 1 <;> apply Fin.ext
  · show win1_4.index t (0 : Fin 2) * 5000 + 1 * (j 0).val = 5000 * t.val + (j 0).val
    rw [e0]; omega
  · show win1_4.index t (1 : Fin 2) * 128 + 1 * (j 1).val = (j 1).val
    rw [e1]; omega

/-- Rows 8 t … 8 t + 7 of an [80,128] array, read through the first partial-sum window's block at point t. -/
theorem read_blk_sum (t : Fin cfg1.N) (f : Fin 80 → Fin 128 → EReal) :
    (((cfg1.win 5).blk t).view.read (Elt Ideal) (arr2 f) : Vec Ideal S8x128 .f32) = arr2 (fun q k => f (partRow t q) k) := by
  obtain ⟨-, -, -, -, -, ⟨e0, e1⟩, -⟩ := index_facts t
  funext j
  rw [View.read_apply]
  show f ⟨_, _⟩ ⟨_, _⟩ = f ⟨_, _⟩ ⟨_, _⟩
  congr 1 <;> apply Fin.ext
  · show win1_5.index t (0 : Fin 2) * 8 + 1 * (j 0).val = 8 * t.val + (j 0).val
    rw [e0]; omega
  · show win1_5.index t (1 : Fin 2) * 128 + 1 * (j 1).val = (j 1).val
    rw [e1]; omega

/-- The same through the second partial-sum window's block. -/
theorem read_blk_sumsq (t : Fin cfg1.N) (f : Fin 80 → Fin 128 → EReal) :
    (((cfg1.win 6).blk t).view.read (Elt Ideal) (arr2 f) : Vec Ideal S8x128 .f32) = arr2 (fun q k => f (partRow t q) k) := by
  obtain ⟨-, -, -, -, -, -, ⟨e0, e1⟩⟩ := index_facts t
  funext j
  rw [View.read_apply]
  show f ⟨_, _⟩ ⟨_, _⟩ = f ⟨_, _⟩ ⟨_, _⟩
  congr 1 <;> apply Fin.ext
  · show win1_6.index t (0 : Fin 2) * 8 + 1 * (j 0).val = 8 * t.val + (j 0).val
    rw [e0]; omega
  · show win1_6.index t (1 : Fin 2) * 128 + 1 * (j 1).val = (j 1).val
    rw [e1]; omega

/-! ## What the body leaves, as functions of the blocks -/

/-- The body's one store per output covers its buffer: each buffer ends at its payload. -/
theorem out_h_eq (x0 x1 : Vec Ideal S5000x128 .f32) (x2 : Vec Ideal S5000x1 .f32) (x3 : Vec Ideal S1x128 .f32) :
    out1_4 x0 x1 x2 x3 = k1_pay1 x0 x1 x2 x3 := by
  unfold out1_4
  rw [View.canon_unit_zero zero_offsets]
  simp only [View.ld_unit_zero (S := S5000x128) zero_offsets, View.ld_unit_zero (S := S5000x1) zero_offsets,
    View.ld_unit_zero (S := S1x128) zero_offsets]
theorem out_sum_eq (x0 x1 : Vec Ideal S5000x128 .f32) (x2 : Vec Ideal S5000x1 .f32) (x3 : Vec Ideal S1x128 .f32) :
    out1_5 x0 x1 x2 x3 = k1_pay3 x0 x1 x2 x3 := by
  unfold out1_5
  rw [View.canon_unit_zero zero_offsets]
  simp only [View.ld_unit_zero (S := S5000x128) zero_offsets, View.ld_unit_zero (S := S5000x1) zero_offsets,
    View.ld_unit_zero (S := S1x128) zero_offsets]
theorem out_sumsq_eq (x0 x1 : Vec Ideal S5000x128 .f32) (x2 : Vec Ideal S5000x1 .f32) (x3 : Vec Ideal S1x128 .f32) :
    out1_6 x0 x1 x2 x3 = k1_pay4 x0 x1 x2 x3 := by
  unfold out1_6
  rw [View.canon_unit_zero zero_offsets]
  simp only [View.ld_unit_zero (S := S5000x128) zero_offsets, View.ld_unit_zero (S := S5000x1) zero_offsets,
    View.ld_unit_zero (S := S1x128) zero_offsets]

/-- On blocks given by functions of coordinates, the stored h is lrelu (dis · (g + xs) + b), entry by entry. -/
theorem pay_h_arr (G X : Fin 5000 → Fin 128 → EReal) (D : Fin 5000 → EReal) (B : Fin 128 → EReal) :
    k1_pay1 (F := Ideal) (arr2 G) (arr2 X) (arr2 (fun p (_ : Fin 1) => D p)) (arr2 (fun (_ : Fin 1) k => B k))
      = arr2 (fun p k => lrelu (D p * (G p k + X p k) + B k)) :=
  ext2 fun p k => pay1_apply _ _ _ _ p k

/-- … the first partial-sum block is the column sums of that h in row 0 and zero below … -/
theorem pay_sum_arr (x0 x1 : Vec Ideal S5000x128 .f32) (x2 : Vec Ideal S5000x1 .f32) (x3 : Vec Ideal S1x128 .f32)
    (H : Fin 5000 → Fin 128 → EReal) (h : k1_pay1 x0 x1 x2 x3 = arr2 H) :
    k1_pay3 x0 x1 x2 x3 = arr2 (fun (q : Fin 8) k => if q.val = 0 then ∑ p : Fin 5000, H p k else 0) :=
  ext2 fun q k => (pay3_apply x0 x1 x2 x3 q k).trans (by rw [h]; rfl)

/-- … and the second the column sums of h · h. -/
theorem pay_sumsq_arr (x0 x1 : Vec Ideal S5000x128 .f32) (x2 : Vec Ideal S5000x1 .f32) (x3 : Vec Ideal S1x128 .f32)
    (H : Fin 5000 → Fin 128 → EReal) (h : k1_pay1 x0 x1 x2 x3 = arr2 H) :
    k1_pay4 x0 x1 x2 x3 = arr2 (fun (q : Fin 8) k => if q.val = 0 then ∑ p : Fin 5000, H p k * H p k else 0) :=
  ext2 fun q k => (pay4_apply x0 x1 x2 x3 q k).trans (by rw [h]; rfl)

/-- Rows 8 t … 8 t + 7 of the partial sums of an array over the nodes: tile t's column sums in the first, zero in the rest. -/
theorem part_rows (t : Fin cfg1.N) (f : Fin 50000 → Fin 128 → EReal) (q : Fin 8) (k : Fin 128) :
    part f (partRow t q) k = if q.val = 0 then ∑ p : Fin 5000, f (tileRow t p) k else 0 := by
  have hq := q.isLt
  unfold part partRow tileRow
  by_cases h0 : q.val = 0
  · rw [if_pos h0, if_pos (show (8 * t.val + q.val) % 8 = 0 by omega)]
    refine Finset.sum_congr rfl fun p _ => ?_
    congr 1; apply Fin.ext
    show 5000 * ((8 * t.val + q.val) / 8) + p.val = 5000 * t.val + p.val
    omega
  · rw [if_neg h0, if_neg (show ¬ (8 * t.val + q.val) % 8 = 0 by omega)]

/-! ## The blocks cover the arrays -/

theorem mem_blk_h (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v26_0).slice (win1_4.rect t)).set ↔ _
  rw [View.set_slice_whole, Rect.mem_set_unit]
  exact Iff.rfl
theorem mem_blk_sum (t : Fin cfg1.N) (i : S80x128.Idx) :
    i ∈ ((cfg1.win 5).blk t).view.set ↔ ∀ a : Fin 2, win1_5.index t a * S8x128.size a ≤ (i a).val
      ∧ (i a).val < win1_5.index t a * S8x128.size a + S8x128.size a := by
  show i ∈ ((View.whole main_v26_1).slice (win1_5.rect t)).set ↔ _
  rw [View.set_slice_whole, Rect.mem_set_unit]
  exact Iff.rfl
theorem mem_blk_sumsq (t : Fin cfg1.N) (i : S80x128.Idx) :
    i ∈ ((cfg1.win 6).blk t).view.set ↔ ∀ a : Fin 2, win1_6.index t a * S8x128.size a ≤ (i a).val
      ∧ (i a).val < win1_6.index t a * S8x128.size a + S8x128.size a := by
  show i ∈ ((View.whole main_v26_2).slice (win1_6.rect t)).set ↔ _
  rw [View.set_slice_whole, Rect.mem_set_unit]
  exact Iff.rfl

/-- Node row r lies in tile r / 5000. -/
theorem cover_h (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, ⟨e0, e1⟩, -⟩ := index_facts t
  refine ⟨t, flush1_4 t, ?_⟩
  rw [mem_blk_h]
  intro a
  match a with
  | ⟨0, _⟩ =>
    show win1_4.index t (0 : Fin 2) * 5000 ≤ (i 0).val ∧ (i 0).val < win1_4.index t (0 : Fin 2) * 5000 + 5000
    rw [e0, ht]; omega
  | ⟨1, _⟩ =>
    show win1_4.index t (1 : Fin 2) * 128 ≤ (i 1).val ∧ (i 1).val < win1_4.index t (1 : Fin 2) * 128 + 128
    rw [e1]; omega

/-- Row r of a partial-sum array lies in block r / 8. -/
theorem cover_sum (i : S80x128.Idx) :
    ∃ t : Fin cfg1.N, (cfg1.win 5).flush t = true ∧ i ∈ ((cfg1.win 5).blk t).view.set := by
  have hi0 : (i 0).val < 80 := (i 0).isLt
  have hi1 : (i 1).val < 128 := (i 1).isLt
  have hN : cfg1.N = 10 := N_1
  obtain ⟨t, ht⟩ : ∃ t : Fin cfg1.N, t.val = (i 0).val / 8 := ⟨⟨(i 0).val / 8, by rw [hN]; omega⟩, rfl⟩
  obtain ⟨-, -, -, -, -, ⟨e0, e1⟩, -⟩ := index_facts t
  refine ⟨t, flush1_5 t, ?_⟩
  rw [mem_blk_sum]
  intro a
  match a with
  | ⟨0, _⟩ =>
    show win1_5.index t (0 : Fin 2) * 8 ≤ (i 0).val ∧ (i 0).val < win1_5.index t (0 : Fin 2) * 8 + 8
    rw [e0, ht]; omega
  | ⟨1, _⟩ =>
    show win1_5.index t (1 : Fin 2) * 128 ≤ (i 1).val ∧ (i 1).val < win1_5.index t (1 : Fin 2) * 128 + 128
    rw [e1]; omega
theorem cover_sumsq (i : S80x128.Idx) :
    ∃ t : Fin cfg1.N, (cfg1.win 6).flush t = true ∧ i ∈ ((cfg1.win 6).blk t).view.set := by
  have hi0 : (i 0).val < 80 := (i 0).isLt
  have hi1 : (i 1).val < 128 := (i 1).isLt
  have hN : cfg1.N = 10 := N_1
  obtain ⟨t, ht⟩ : ∃ t : Fin cfg1.N, t.val = (i 0).val / 8 := ⟨⟨(i 0).val / 8, by rw [hN]; omega⟩, rfl⟩
  obtain ⟨-, -, -, -, -, -, ⟨e0, e1⟩⟩ := index_facts t
  refine ⟨t, flush1_6 t, ?_⟩
  rw [mem_blk_sumsq]
  intro a
  match a with
  | ⟨0, _⟩ =>
    show win1_6.index t (0 : Fin 2) * 8 ≤ (i 0).val ∧ (i 0).val < win1_6.index t (0 : Fin 2) * 8 + 8
    rw [e0, ht]; omega
  | ⟨1, _⟩ =>
    show win1_6.index t (1 : Fin 2) * 128 ≤ (i 1).val ∧ (i 1).val < win1_6.index t (1 : Fin 2) * 128 + 128
    rw [e1]; omega

section Regions
variable (V : (c : Dev nD) → (b : Ref sig .tc) → Buf (Elt Ideal) ((c : Thread nD τ).loc b))

/-! ## The input blocks at a point -/

/-- The gathered array's block at point t is its tile t. -/
theorem iblk_g (c : Dev nD) (t : Fin cfg1.N) (g : Fin 50000 → Fin 128 → EReal) (hg : V c main_v24 = arr2 g) :
    (iblk1 V c 0 t : Vec Ideal S5000x128 .f32) = arr2 (fun p k => g (tileRow t p) k) := by
  obtain ⟨⟨e0, e1⟩, -⟩ := index_facts t
  funext j
  unfold iblk1
  rw [View.read_apply]
  show V c main_v24 _ = _
  rw [hg]
  show g ⟨_, _⟩ ⟨_, _⟩ = g ⟨_, _⟩ ⟨_, _⟩
  congr 1 <;> apply Fin.ext
  · show win1_0.index t (0 : Fin 2) * 5000 + 1 * (j 0).val = 5000 * t.val + (j 0).val
    rw [e0]; omega
  · show win1_0.index t (1 : Fin 2) * 128 + 1 * (j 1).val = (j 1).val
    rw [e1]; omega

/-- The scaled projection's block at point t is its tile t. -/
theorem iblk_xs (c : Dev nD) (t : Fin cfg1.N) (xs : Fin 50000 → Fin 128 → EReal) (hxs : V c main_v14 = arr2 xs) :
    (iblk1 V c 1 t : Vec Ideal S5000x128 .f32) = arr2 (fun p k => xs (tileRow t p) k) := by
  obtain ⟨-, ⟨e0, e1⟩, -⟩ := index_facts t
  funext j
  unfold iblk1
  rw [View.read_apply]
  show V c main_v14 _ = _
  rw [hxs]
  show xs ⟨_, _⟩ ⟨_, _⟩ = xs ⟨_, _⟩ ⟨_, _⟩
  congr 1 <;> apply Fin.ext
  · show win1_1.index t (0 : Fin 2) * 5000 + 1 * (j 0).val = 5000 * t.val + (j 0).val
    rw [e0]; omega
  · show win1_1.index t (1 : Fin 2) * 128 + 1 * (j 1).val = (j 1).val
    rw [e1]; omega

/-- The column's block at point t is its rows of tile t. -/
theorem iblk_dis (c : Dev nD) (t : Fin cfg1.N) (dis : Fin 50000 → EReal)
    (hd : V c main_v13 = arr2 (fun n (_ : Fin 1) => dis n)) :
    (iblk1 V c 2 t : Vec Ideal S5000x1 .f32) = arr2 (fun p (_ : Fin 1) => dis (tileRow t p)) := by
  obtain ⟨-, -, ⟨e0, e1⟩, -⟩ := index_facts t
  funext j
  unfold iblk1
  rw [View.read_apply]
  show V c main_v13 _ = _
  rw [hd]
  show dis ⟨_, _⟩ = dis ⟨_, _⟩
  congr 1; apply Fin.ext
  show win1_2.index t (0 : Fin 2) * 5000 + 1 * (j 0).val = 5000 * t.val + (j 0).val
  rw [e0]; omega

/-- The bias row's block at every point is the row. -/
theorem iblk_b (c : Dev nD) (t : Fin cfg1.N) (b : Fin 128 → EReal)
    (hb : V c main_v25 = arr2 (fun (_ : Fin 1) k => b k)) :
    (iblk1 V c 3 t : Vec Ideal S1x128 .f32) = arr2 (fun (_ : Fin 1) k => b k) := by
  obtain ⟨-, -, -, ⟨e0, e1⟩, -⟩ := index_facts t
  funext j
  unfold iblk1
  rw [View.read_apply]
  show V c main_v25 _ = _
  rw [hb]
  show b ⟨_, _⟩ = b ⟨_, _⟩
  congr 1; apply Fin.ext
  show win1_3.index t (1 : Fin 2) * 128 + 1 * (j 1).val = (j 1).val
  rw [e1]; omega

/-! ## What each point writes back -/

/-- Point t writes back tile t of h. -/
theorem flushed_h (c : Dev nD) (g xs : Fin 50000 → Fin 128 → EReal) (dis : Fin 50000 → EReal) (b : Fin 128 → EReal)
    (hg : V c main_v24 = arr2 g) (hxs : V c main_v14 = arr2 xs) (hd : V c main_v13 = arr2 (fun n (_ : Fin 1) => dis n))
    (hb : V c main_v25 = arr2 (fun (_ : Fin 1) k => b k)) (t : Fin cfg1.N) :
    (dat1 (F := Ideal) V c).flushed 4 t
      = ((cfg1.win 4).blk t).view.read (Elt Ideal) (arr2 (fun n k => lrelu (dis n * (g n k + xs n k) + b k))) := by
  show (cfg1.win 4).cut (grid1.coords t) ((dat1 V c).after 4 t) = _
  rw [after1_4]
  refine Eq.trans ?_ (read_blk_h t _).symm
  show out1_4 (iblk1 V c 0 t) (iblk1 V c 1 t) (iblk1 V c 2 t) (iblk1 V c 3 t) = _
  rw [iblk_g V c t g hg, iblk_xs V c t xs hxs, iblk_dis V c t dis hd, iblk_b V c t b hb, out_h_eq, pay_h_arr]

/-- Point t writes back rows 8 t … 8 t + 7 of the partial sums of h. -/
theorem flushed_sum (c : Dev nD) (g xs : Fin 50000 → Fin 128 → EReal) (dis : Fin 50000 → EReal) (b : Fin 128 → EReal)
    (hg : V c main_v24 = arr2 g) (hxs : V c main_v14 = arr2 xs) (hd : V c main_v13 = arr2 (fun n (_ : Fin 1) => dis n))
    (hb : V c main_v25 = arr2 (fun (_ : Fin 1) k => b k)) (t : Fin cfg1.N) :
    (dat1 (F := Ideal) V c).flushed 5 t
      = ((cfg1.win 5).blk t).view.read (Elt Ideal) (arr2 (part (fun n k => lrelu (dis n * (g n k + xs n k) + b k)))) := by
  show (cfg1.win 5).cut (grid1.coords t) ((dat1 V c).after 5 t) = _
  rw [after1_5]
  refine Eq.trans ?_ (read_blk_sum t _).symm
  show out1_5 (iblk1 V c 0 t) (iblk1 V c 1 t) (iblk1 V c 2 t) (iblk1 V c 3 t) = _
  rw [iblk_g V c t g hg, iblk_xs V c t xs hxs, iblk_dis V c t dis hd, iblk_b V c t b hb, out_sum_eq,
    pay_sum_arr _ _ _ _ _ (pay_h_arr _ _ _ _)]
  exact congrArg arr2 (funext fun q => funext fun k =>
    (part_rows t (fun n k => lrelu (dis n * (g n k + xs n k) + b k)) q k).symm)

/-- Point t writes back rows 8 t … 8 t + 7 of the partial sums of h · h. -/
theorem flushed_sumsq (c : Dev nD) (g xs : Fin 50000 → Fin 128 → EReal) (dis : Fin 50000 → EReal) (b : Fin 128 → EReal)
    (hg : V c main_v24 = arr2 g) (hxs : V c main_v14 = arr2 xs) (hd : V c main_v13 = arr2 (fun n (_ : Fin 1) => dis n))
    (hb : V c main_v25 = arr2 (fun (_ : Fin 1) k => b k)) (t : Fin cfg1.N) :
    (dat1 (F := Ideal) V c).flushed 6 t
      = ((cfg1.win 6).blk t).view.read (Elt Ideal)
          (arr2 (part (fun n k => lrelu (dis n * (g n k + xs n k) + b k) * lrelu (dis n * (g n k + xs n k) + b k)))) := by
  show (cfg1.win 6).cut (grid1.coords t) ((dat1 V c).after 6 t) = _
  rw [after1_6]
  refine Eq.trans ?_ (read_blk_sumsq t _).symm
  show out1_6 (iblk1 V c 0 t) (iblk1 V c 1 t) (iblk1 V c 2 t) (iblk1 V c 3 t) = _
  rw [iblk_g V c t g hg, iblk_xs V c t xs hxs, iblk_dis V c t dis hd, iblk_b V c t b hb, out_sumsq_eq,
    pay_sumsq_arr _ _ _ _ _ (pay_h_arr _ _ _ _)]
  exact congrArg arr2 (funext fun q => funext fun k =>
    (part_rows t (fun n k => lrelu (dis n * (g n k + xs n k) + b k) * lrelu (dis n * (g n k + xs n k) + b k)) q k).symm)

end Regions

end Reg1

section Regions
variable (V : (c : Dev nD) → (b : Ref sig .tc) → Buf (Elt Ideal) ((c : Thread nD τ).loc b))
open Reg1

/-! ## The three arrays after the region -/

/-- The h array ends at lrelu (dis · (g + xs) + b). -/
theorem reg1_h (c : Dev nD) (g xs : Fin 50000 → Fin 128 → EReal) (dis : Fin 50000 → EReal) (b : Fin 128 → EReal)
    (hg : V c main_v24 = arr2 g) (hxs : V c main_v14 = arr2 xs) (hd : V c main_v13 = arr2 (fun n (_ : Fin 1) => dis n))
    (hb : V c main_v25 = arr2 (fun (_ : Fin 1) k => b k)) :
    (dat1 (F := Ideal) V c).arrAt 4 cfg1.N = arr2 (fun n k => lrelu (dis n * (g n k + xs n k) + b k)) :=
  (dat1 (F := Ideal) V c).arrAt_eq_of_cover 4 _ (fun t _ => flushed_h V c g xs dis b hg hxs hd hb t) cover_h

/-- The first partial-sum array ends at the tiles' column sums of h. -/
theorem reg1_sum (c : Dev nD) (g xs : Fin 50000 → Fin 128 → EReal) (dis : Fin 50000 → EReal) (b : Fin 128 → EReal)
    (hg : V c main_v24 = arr2 g) (hxs : V c main_v14 = arr2 xs) (hd : V c main_v13 = arr2 (fun n (_ : Fin 1) => dis n))
    (hb : V c main_v25 = arr2 (fun (_ : Fin 1) k => b k)) :
    (dat1 (F := Ideal) V c).arrAt 5 cfg1.N = arr2 (part (fun n k => lrelu (dis n * (g n k + xs n k) + b k))) :=
  (dat1 (F := Ideal) V c).arrAt_eq_of_cover 5 _ (fun t _ => flushed_sum V c g xs dis b hg hxs hd hb t) cover_sum

/-- The second partial-sum array ends at the tiles' column sums of h · h. -/
theorem reg1_sumsq (c : Dev nD) (g xs : Fin 50000 → Fin 128 → EReal) (dis : Fin 50000 → EReal) (b : Fin 128 → EReal)
    (hg : V c main_v24 = arr2 g) (hxs : V c main_v14 = arr2 xs) (hd : V c main_v13 = arr2 (fun n (_ : Fin 1) => dis n))
    (hb : V c main_v25 = arr2 (fun (_ : Fin 1) k => b k)) :
    (dat1 (F := Ideal) V c).arrAt 6 cfg1.N
      = arr2 (part (fun n k => lrelu (dis n * (g n k + xs n k) + b k) * lrelu (dis n * (g n k + xs n k) + b k))) :=
  (dat1 (F := Ideal) V c).arrAt_eq_of_cover 6 _ (fun t _ => flushed_sumsq V c g xs dis b hg hxs hd hb t) cover_sumsq

end Regions

end Cert.KernelIdeal.KVal

end
-- ==== Proof.KHost2.lean ====
/-
  The kernel program's third stretch of host operations: from the two arrays of per-tile partial sums, the column
  means and the reciprocal standard deviations the last region normalises with, and the scale and shift vectors as rows.

  Each partial array has 80 rows; a host sum over the rows starts from zero, so a column's total is the sum of its 80
  entries. The mean is that total over N = 50000; the variance is the mean of the squares minus the squared mean; the
  reciprocal standard deviation is the reciprocal square root of the variance plus epsilon. A vector [128] recast as a
  row [1, 128] holds the same entries.
-/
import proofs.«147240_j47321949667549_2_alg».proof.Proof.Gen.KernelIdeal.Launch
import proofs.«147240_j47321949667549_2_alg».proof.Proof.Spec
import Idealize.ShloMosaic.Lib.StableHlo.Run
import Idealize.ShloMosaic.Lib.IdealHost
import Idealize.ShloMosaic.Lib.ValueLayout

noncomputable section
open scoped BigOperators
namespace Cert.KernelIdeal.KVal
open Cert.KernelIdeal Cert.KernelIdeal.Gen Cert.Spec Idealize.ShloMosaic Idealize.ShloMosaic.TcCoe Idealize.SL.Sem Idealize.ShloMosaic.ValueIdx

namespace Host2

/-- A column's total over the 80 rows of a partial array, as the host sums it: from the zero word, the sum of the
    column's entries. -/
theorem colsum (p : Fin 80 → Fin 128 → EReal) (k : Fin 128) :
    Host.reduceAdd (F := Ideal) (arr2 p : FVec Ideal S80x128 .f32) (constant (F := Ideal) S_ .f32 0x00000000#32)
        reducesTo_S80x128_S128_d0 h_S_ (ix1 k)
      = ∑ row : Fin 80, p row k := by
  rw [hostReduceAdd_apply, Ideal.hostReduceAdd_single reducesTo_S80x128_S128_d0 (by decide), constant_apply, ofBits_zero, zero_add]
  rfl

/-- N = 50000 broadcast over the channels. -/
theorem bN (k : Fin 128) :
    broadcastInDim S128 ![] bcast_S_S128 (constant (F := Ideal) S_ .f32 0x47435000#32) (ix1 k) = ((50000 : ℝ) : EReal) := by
  rw [broadcastInDim_scalar_apply, constant_apply, ofBits_50000]

/-- epsilon broadcast over the channels. -/
theorem bEps (k : Fin 128) :
    broadcastInDim S128 ![] bcast_S_S128 (constant (F := Ideal) S_ .f32 0x3727C5AC#32) (ix1 k) = eps := by
  rw [broadcastInDim_scalar_apply, constant_apply]; rfl

end Host2

open Host2

section Host
variable (W : Valuation τ sig (Elt Ideal))

theorem host2_mean (p1 : Fin 80 → Fin 128 → EReal) (h1 : W (main_v26_1 : DevRef τ sig) = arr2 p1) :
    StableHlo.after (hostOps2 (F := Ideal)) W (main_v38 : DevRef τ sig)
      = arr2 (fun (_ : Fin 1) k => Ideal.div (∑ row : Fin 80, p1 row k) ((50000 : ℝ) : EReal)) := by
  dsimp only [hostOps2]
  after_results
  rw [h1]
  refine ext2 fun p q => ?_
  show shapeCast S1x128 _ shapeCasts_S128_S1x128 (ix2 p q) = _
  rw [shapeCast_a_1a_apply, arr2_ix2, hostDivf_apply, colsum, bN]

theorem host2_inv (p1 p2 : Fin 80 → Fin 128 → EReal) (h1 : W (main_v26_1 : DevRef τ sig) = arr2 p1) (h2 : W (main_v26_2 : DevRef τ sig) = arr2 p2) :
    StableHlo.after (hostOps2 (F := Ideal)) W (main_v39 : DevRef τ sig)
      = arr2 (fun (_ : Fin 1) k => Ideal.rsqrt (Ideal.div (∑ row : Fin 80, p2 row k) ((50000 : ℝ) : EReal)
          - Ideal.div (∑ row : Fin 80, p1 row k) ((50000 : ℝ) : EReal) * Ideal.div (∑ row : Fin 80, p1 row k) ((50000 : ℝ) : EReal) + eps)) := by
  dsimp only [hostOps2]
  after_results
  rw [h1, h2]
  refine ext2 fun p q => ?_
  show shapeCast S1x128 _ shapeCasts_S128_S1x128 (ix2 p q) = _
  rw [shapeCast_a_1a_apply, arr2_ix2]
  show Ideal.rsqrt (addf (F := Ideal) (subf (F := Ideal) (Host.divf _ _) (mulf (F := Ideal) (Host.divf _ _) (Host.divf _ _))) _ (ix1 q)) = _
  rw [addf_apply, subf_apply, mulf_apply, hostDivf_apply, hostDivf_apply, colsum, colsum, bN, bEps]

theorem host2_gamma (ga : Fin 128 → EReal) (h : W (main_arg4 : DevRef τ sig) = arr1 ga) :
    StableHlo.after (hostOps2 (F := Ideal)) W (main_v40 : DevRef τ sig) = arr2 (fun (_ : Fin 1) k => ga k) := by
  dsimp only [hostOps2]
  after_results
  rw [h]
  refine ext2 fun p q => ?_
  show shapeCast S1x128 _ shapeCasts_S128_S1x128 (ix2 p q) = _
  rw [shapeCast_a_1a_apply, arr2_ix2, arr1_ix1]

theorem host2_beta (be : Fin 128 → EReal) (h : W (main_arg5 : DevRef τ sig) = arr1 be) :
    StableHlo.after (hostOps2 (F := Ideal)) W (main_v41 : DevRef τ sig) = arr2 (fun (_ : Fin 1) k => be k) := by
  dsimp only [hostOps2]
  after_results
  rw [h]
  refine ext2 fun p q => ?_
  show shapeCast S1x128 _ shapeCasts_S128_S1x128 (ix2 p q) = _
  rw [shapeCast_a_1a_apply, arr2_ix2, arr1_ix1]
end Host
end Cert.KernelIdeal.KVal
end
-- ==== Proof.KReg2.lean ====
/-
  The third region: the normalisation's affine map, applied tile by tile.

  The grid has 10 points; point t reads rows 5000 t … 5000 t + 4999 of the activations h (a block [5000, 128]) and four
  whole rows [1, 128] — the mean, the inverse standard deviation, the scale and the shift — and writes the block
  ga · (h - mu) · inv + be, each row vector broadcast down the 5000 rows, to the same rows of the output. The ten blocks
  tile the [50000, 128] output, so after the ten write-backs the output is that formula at every (n, k).
-/
import proofs.«147240_j47321949667549_2_alg».proof.Proof.Gen.KernelIdeal.Frame
import proofs.«147240_j47321949667549_2_alg».proof.Proof.Spec
import Idealize.ShloMosaic.Lib.Pipeline.Value
import Idealize.ShloMosaic.Lib.ValueLayout

noncomputable section
namespace Cert.KernelIdeal.KVal
open Cert.KernelIdeal Cert.KernelIdeal.Gen Cert.Spec Idealize.ShloMosaic Idealize.ShloMosaic.TcCoe Idealize.SL.Sem Idealize.ShloMosaic.ValueIdx
open Idealize.ShloMosaic.Pipeline (Dat)

namespace Reg2

theorem hz : (![0, 0] : Fin 2 → Nat) = fun _ => 0 := funext fun a => by fin_cases a <;> rfl

/-- The body's arithmetic at row p, column k of a tile: every row vector is read at its one row. -/
theorem pay_apply (x0 : Vec Ideal S5000x128 .f32) (xg xm xi xb : Vec Ideal S1x128 .f32) (p : Fin 5000) (k : Fin 128) :
    k2_pay1 x0 xg xm xi xb (ix2 p k)
      = xg (ix2 (0 : Fin 1) k) * (x0 (ix2 p k) - xm (ix2 (0 : Fin 1) k)) * xi (ix2 (0 : Fin 1) k) + xb (ix2 (0 : Fin 1) k) := by
  unfold k2_pay1
  simp only [shapeCast_self]
  rw [addf_apply, mulf_apply, mulf_apply, subf_apply]
  rw [broadcastTo_1b_ab_apply, broadcastTo_1b_ab_apply, broadcastTo_1b_ab_apply, broadcastTo_1b_ab_apply]

/-- The block indices over the grid: the activations' and the output's blocks are block t along the rows; the four
    row vectors are read whole at every point. -/
theorem idx_facts : ∀ t : Fin cfg2.N,
    win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

theorem lt_ten (t : Fin cfg2.N) : t.val < 10 := lt_of_lt_of_eq t.isLt N_2

section Blocks
variable (V : (c : Dev nD) → (b : Ref sig .tc) → Buf (Elt Ideal) ((c : Thread nD τ).loc b))

/-- The activations' block at point t is rows 5000 t … of the array. -/
theorem blk0_apply (c : Dev nD) (t : Fin cfg2.N) (h : Fin 50000 → Fin 128 → EReal) (hh : V c main_v26_0 = arr2 h)
    (p : Fin 5000) (k : Fin 128) :
    (iblk2 V c 0 t : Vec Ideal S5000x128 .f32) (ix2 p k)
      = h ⟨5000 * t.val + p.val, by have := lt_ten t; have := p.isLt; omega⟩ k := by
  unfold iblk2
  rw [View.read_apply]
  show V c main_v26_0 _ = _
  rw [hh]
  refine congrArg₂ h (Fin.ext ?_) (Fin.ext ?_)
  · show win2_0.index t (0 : Fin 2) * 5000 + 1 * p.val = 5000 * t.val + p.val
    rw [(idx_facts t).1]; omega
  · show win2_0.index t (1 : Fin 2) * 128 + 1 * k.val = k.val
    rw [(idx_facts t).2.1]; omega

/-- The mean's block at any point is the whole row. -/
theorem blk1_apply (c : Dev nD) (t : Fin cfg2.N) (mu : Fin 128 → EReal) (hmu : V c main_v38 = arr2 (fun (_ : Fin 1) k => mu k))
    (k : Fin 128) : (iblk2 V c 1 t : Vec Ideal S1x128 .f32) (ix2 (0 : Fin 1) k) = mu k := by
  unfold iblk2
  rw [View.read_apply]
  show V c main_v38 _ = _
  rw [hmu]
  refine congrArg mu (Fin.ext ?_)
  show win2_1.index t (1 : Fin 2) * 128 + 1 * k.val = k.val
  rw [(idx_facts t).2.2.2.2.2.1]; omega

/-- The inverse standard deviation's block at any point is the whole row. -/
theorem blk2_apply (c : Dev nD) (t : Fin cfg2.N) (inv : Fin 128 → EReal) (hinv : V c main_v39 = arr2 (fun (_ : Fin 1) k => inv k))
    (k : Fin 128) : (iblk2 V c 2 t : Vec Ideal S1x128 .f32) (ix2 (0 : Fin 1) k) = inv k := by
  unfold iblk2
  rw [View.read_apply]
  show V c main_v39 _ = _
  rw [hinv]
  refine congrArg inv (Fin.ext ?_)
  show win2_2.index t (1 : Fin 2) * 128 + 1 * k.val = k.val
  rw [(idx_facts t).2.2.2.2.2.2.2.1]; omega

/-- The scale's block at any point is the whole row. -/
theorem blk3_apply (c : Dev nD) (t : Fin cfg2.N) (ga : Fin 128 → EReal) (hga : V c main_v40 = arr2 (fun (_ : Fin 1) k => ga k))
    (k : Fin 128) : (iblk2 V c 3 t : Vec Ideal S1x128 .f32) (ix2 (0 : Fin 1) k) = ga k := by
  unfold iblk2
  rw [View.read_apply]
  show V c main_v40 _ = _
  rw [hga]
  refine congrArg ga (Fin.ext ?_)
  show win2_3.index t (1 : Fin 2) * 128 + 1 * k.val = k.val
  rw [(idx_facts t).2.2.2.2.2.2.2.2.2.1]; omega

/-- The shift's block at any point is the whole row. -/
theorem blk4_apply (c : Dev nD) (t : Fin cfg2.N) (be : Fin 128 → EReal) (hbe : V c main_v41 = arr2 (fun (_ : Fin 1) k => be k))
    (k : Fin 128) : (iblk2 V c 4 t : Vec Ideal S1x128 .f32) (ix2 (0 : Fin 1) k) = be k := by
  unfold iblk2
  rw [View.read_apply]
  show V c main_v41 _ = _
  rw [hbe]
  refine congrArg be (Fin.ext ?_)
  show win2_4.index t (1 : Fin 2) * 128 + 1 * k.val = k.val
  rw [(idx_facts t).2.2.2.2.2.2.2.2.2.2.2]; omega

/-- What point t computes at an index of its tile is the formula at that index's place in the output. -/
theorem pay_block (c : Dev nD) (t : Fin cfg2.N) (h : Fin 50000 → Fin 128 → EReal) (mu inv ga be : Fin 128 → EReal)
    (hh : V c main_v26_0 = arr2 h) (hmu : V c main_v38 = arr2 (fun (_ : Fin 1) k => mu k))
    (hinv : V c main_v39 = arr2 (fun (_ : Fin 1) k => inv k)) (hga : V c main_v40 = arr2 (fun (_ : Fin 1) k => ga k))
    (hbe : V c main_v41 = arr2 (fun (_ : Fin 1) k => be k)) (j : S5000x128.Idx) :
    k2_pay1 (iblk2 V c 0 t) (iblk2 V c 3 t) (iblk2 V c 1 t) (iblk2 V c 2 t) (iblk2 V c 4 t) j
      = arr2 (fun n k => ga k * (h n k - mu k) * inv k + be k) (((cfg2.win 5).blk t).view.emb j) := by
  obtain ⟨p, k, rfl⟩ : ∃ (p : Fin 5000) (k : Fin 128), j = ix2 p k := ⟨j 0, j 1, eq_ix2 j⟩
  refine (pay_apply _ _ _ _ _ p k).trans ?_
  rw [blk0_apply V c t h hh p k, blk1_apply V c t mu hmu k, blk2_apply V c t inv hinv k, blk3_apply V c t ga hga k,
    blk4_apply V c t be hbe k]
  refine (congrArg₂ (fun n k => ga k * (h n k - mu k) * inv k + be k) (Fin.ext ?_) (Fin.ext ?_)).symm
  · show win2_5.index t (0 : Fin 2) * 5000 + 1 * p.val = 5000 * t.val + p.val
    rw [(idx_facts t).2.2.1]; omega
  · show win2_5.index t (1 : Fin 2) * 128 + 1 * k.val = k.val
    rw [(idx_facts t).2.2.2.1]; omega

/-- What point t writes back is block t of the formula's array. -/
theorem flushed_eq (c : Dev nD) (h : Fin 50000 → Fin 128 → EReal) (mu inv ga be : Fin 128 → EReal)
    (hh : V c main_v26_0 = arr2 h) (hmu : V c main_v38 = arr2 (fun (_ : Fin 1) k => mu k))
    (hinv : V c main_v39 = arr2 (fun (_ : Fin 1) k => inv k)) (hga : V c main_v40 = arr2 (fun (_ : Fin 1) k => ga k))
    (hbe : V c main_v41 = arr2 (fun (_ : Fin 1) k => be k)) (t : Fin cfg2.N) :
    (dat2 (F := Ideal) V c).flushed 5 t
      = ((cfg2.win 5).blk t).view.read (Elt Ideal) (arr2 (fun n k => ga k * (h n k - mu k) * inv k + be k)) := by
  show (cfg2.win 5).cut (grid2.coords t) ((dat2 V c).after 5 t) = _
  rw [after2_5]
  unfold out2_5
  rw [View.canon_unit_zero hz]
  simp only [View.ld_unit_zero (S := S5000x128) hz, View.ld_unit_zero (S := S1x128) hz]
  funext j
  exact pay_block V c t h mu inv ga be hh hmu hinv hga hbe j

end Blocks

/-- An index of the output is in point t's block iff each coordinate is in the block's range on its axis. -/
theorem mem_blk (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v42).slice (win2_5.rect t)).set ↔ _
  rw [View.set_slice_whole, Rect.mem_set_unit]
  exact Iff.rfl

/-- Row n of the output lies in the block of point n / 5000. -/
theorem cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : (i 0).val / 5000 < cfg2.N := by rw [show cfg2.N = 10 from N_2]; omega
  refine ⟨⟨(i 0).val / 5000, hN⟩, flush2_5 _, ?_⟩
  rw [mem_blk]
  have e0 := (idx_facts ⟨(i 0).val / 5000, hN⟩).2.2.1
  have e1 := (idx_facts ⟨(i 0).val / 5000, hN⟩).2.2.2.1
  intro a
  match a with
  | ⟨0, _⟩ =>
    show win2_5.index ⟨(i 0).val / 5000, hN⟩ (0 : Fin 2) * 5000 ≤ (i 0).val
      ∧ (i 0).val < win2_5.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win2_5.index ⟨(i 0).val / 5000, hN⟩ (1 : Fin 2) * 128 ≤ (i 1).val
      ∧ (i 1).val < win2_5.index ⟨(i 0).val / 5000, hN⟩ (1 : Fin 2) * 128 + 128
    rw [e1]; omega

end Reg2

section Regions
variable (V : (c : Dev nD) → (b : Ref sig .tc) → Buf (Elt Ideal) ((c : Thread nD τ).loc b))

/-- The output after the third region: the affine map of the activations, at every node and channel. -/
theorem reg2_out (c : Dev nD) (h : Fin 50000 → Fin 128 → EReal) (mu inv ga be : Fin 128 → EReal)
    (hh : V c main_v26_0 = arr2 h) (hmu : V c main_v38 = arr2 (fun (_ : Fin 1) k => mu k))
    (hinv : V c main_v39 = arr2 (fun (_ : Fin 1) k => inv k)) (hga : V c main_v40 = arr2 (fun (_ : Fin 1) k => ga k))
    (hbe : V c main_v41 = arr2 (fun (_ : Fin 1) k => be k)) :
    (dat2 (F := Ideal) V c).arrAt 5 cfg2.N = arr2 (fun n k => ga k * (h n k - mu k) * inv k + be k) :=
  (dat2 (F := Ideal) V c).arrAt_eq_of_cover 5 (arr2 (fun n k => ga k * (h n k - mu k) * inv k + be k))
    (fun t _ => Reg2.flushed_eq V c h mu inv ga be hh hmu hinv hga hbe t) Reg2.cover
end Regions

end Cert.KernelIdeal.KVal
end
-- ==== Proof.SpecSums.lean ====
/-
  Sums over the nodes regrouped by tiles: the 80 rows of per-tile partial sums (8 rows per tile of 5000 nodes,
  the tile's sum in its first row, zero in the other seven) add up to the sum over all 50000 nodes.
-/
import proofs.«147240_j47321949667549_2_alg».proof.Proof.Spec

noncomputable section

open scoped BigOperators

namespace Cert.Spec

/-- One tile's eight partial rows add up to the tile's column sum: only the first of them is not zero. -/
theorem sum_part_tile (h : Fin 50000 → Fin 128 → EReal) (k : Fin 128) (t : Fin 10) :
    ∑ q : Fin 8, part h (finProdFinEquiv (t, q)) k = ∑ p : Fin 5000, h (finProdFinEquiv (t, p)) k := by
  have ht := t.isLt
  rw [Finset.sum_eq_single (0 : Fin 8)]
  · unfold part
    have hv : (finProdFinEquiv (t, (0 : Fin 8)) : Fin (10 * 8)).val = 0 + 8 * t.val := rfl
    rw [if_pos (by rw [hv]; omega)]
    refine Finset.sum_congr rfl fun p _ => ?_
    refine congrArg (fun n => h n k) (Fin.ext ?_)
    show 5000 * ((finProdFinEquiv (t, (0 : Fin 8)) : Fin (10 * 8)).val / 8) + p.val = p.val + 5000 * t.val
    rw [hv]
    omega
  · intro q _ hq
    unfold part
    have hv : (finProdFinEquiv (t, q) : Fin (10 * 8)).val = q.val + 8 * t.val := rfl
    have hq' : q.val ≠ 0 := fun h0 => hq (Fin.ext h0)
    have := q.isLt
    rw [if_neg (by rw [hv]; omega)]
  · intro h0; exact absurd (Finset.mem_univ _) h0

theorem sum_part (h : Fin 50000 → Fin 128 → EReal) (k : Fin 128) :
    ∑ row : Fin 80, part h row k = ∑ n : Fin 50000, h n k := by
  rw [← Equiv.sum_comp (finProdFinEquiv (m := 10) (n := 8)) (fun row => part h row k), Fintype.sum_prod_type,
    ← Equiv.sum_comp (finProdFinEquiv (m := 10) (n := 5000)) (fun n => h n k), Fintype.sum_prod_type]
  exact Fintype.sum_congr _ _ fun t => sum_part_tile h k t

end Cert.Spec

end
-- ==== Proof.KRun.lean ====
/-
  The kernel program's result as the kernel-side formula of the specification.

  The program is three stretches of host operations alternating with three grid regions. Every buffer's contents at
  each boundary are read back, boundary by boundary, to a function of the launch arrays: a buffer that a stretch does
  not write, or that is no array of a region, keeps its contents; a region's input array keeps its contents; a
  stretch's result and a region's output array are given by the lemma that describes that stretch or region.
  At the end the two column statistics, which the program computes from 80 rows of per-tile partial sums, are the sums
  over all 50000 nodes, and the result is the normalisation of the specification.
-/
import proofs.«147240_j47321949667549_2_alg».proof.Proof.KRunW6
import proofs.«147240_j47321949667549_2_alg».proof.Proof.KHost0
import proofs.«147240_j47321949667549_2_alg».proof.Proof.KReg0
import proofs.«147240_j47321949667549_2_alg».proof.Proof.KHost1
import proofs.«147240_j47321949667549_2_alg».proof.Proof.KReg1
import proofs.«147240_j47321949667549_2_alg».proof.Proof.KHost2
import proofs.«147240_j47321949667549_2_alg».proof.Proof.KReg2
import proofs.«147240_j47321949667549_2_alg».proof.Proof.SpecSums

set_option maxRecDepth 16384

noncomputable section

open scoped BigOperators

namespace Cert.KernelIdeal.KVal

open Cert.KernelIdeal Cert.KernelIdeal.Gen Cert.Spec Idealize.ShloMosaic Idealize.ShloMosaic.TcCoe Idealize.SL.Sem Idealize.ShloMosaic.ValueIdx

namespace Bdry

section Boundaries
variable (m : (ℓ : Loc nD τ sig) → Buf (Elt Ideal) ℓ) (ρ : Dev nD → PrngReg) (c : Dev nD)

/-- A buffer that no operation of a stretch writes keeps its contents over the stretch. -/
local macro "kept% " r:term : term =>
  `(StableHlo.after_of_forall_not_mem (b := Proc.devRef .tc $r) _ _ (List.forall_iff_forall_mem.mp (by
      simp only [hostOps0, hostOps1, hostOps2, List.Forall, StableHlo.nullary_writes, StableHlo.unary_writes,
        StableHlo.binary_writes, StableHlo.ternary_writes, StableHlo.reshape_writes, Finset.mem_singleton]
      repeat' apply And.intro
      all_goals exact StableHlo.devRef_ne_of_ne (by decide))))

/-! ## The launch arrays as functions of coordinates -/

abbrev aX : Fin 50000 → Fin 128 → EReal := fn2 (m ((c.tc : Thread nD τ).loc main_arg0))
abbrev aW : Fin 128 → Fin 128 → EReal := fn2 (m ((c.tc : Thread nD τ).loc main_arg2))
abbrev aSrc : Fin 640000 → BitVec 32 := srcOf (m ((c.tc : Thread nD τ).loc main_arg1))
abbrev aDst : Fin 640000 → BitVec 32 := dstOf (m ((c.tc : Thread nD τ).loc main_arg1))
abbrev aB : Fin 128 → EReal := fn1 (m ((c.tc : Thread nD τ).loc main_arg3))
abbrev aG : Fin 128 → EReal := fn1 (m ((c.tc : Thread nD τ).loc main_arg4))
abbrev aBe : Fin 128 → EReal := fn1 (m ((c.tc : Thread nD τ).loc main_arg5))

/-! ## After the first stretch -/

theorem W1_arg0 : W1 m ρ c (Proc.devRef .tc main_arg0) = arr2 (aX m c) :=
  (kept% main_arg0).trans (arr2_fn2 _).symm
theorem W1_arg2 : W1 m ρ c (Proc.devRef .tc main_arg2) = arr2 (aW m c) :=
  (kept% main_arg2).trans (arr2_fn2 _).symm
theorem W1_arg3 : W1 m ρ c (Proc.devRef .tc main_arg3) = arr1 (aB m c) :=
  (kept% main_arg3).trans (arr1_fn1 _).symm
theorem W1_arg4 : W1 m ρ c (Proc.devRef .tc main_arg4) = arr1 (aG m c) :=
  (kept% main_arg4).trans (arr1_fn1 _).symm
theorem W1_arg5 : W1 m ρ c (Proc.devRef .tc main_arg5) = arr1 (aBe m c) :=
  (kept% main_arg5).trans (arr1_fn1 _).symm
theorem W1_v1 : W1 m ρ c (Proc.devRef .tc main_v1) = arr1 (aSrc m c) := host0_src (W0 m ρ c) _ rfl
theorem W1_v3 : W1 m ρ c (Proc.devRef .tc main_v3) = arr1 (aDst m c) := host0_dst (W0 m ρ c) _ rfl
theorem W1_v13 : W1 m ρ c (Proc.devRef .tc main_v13) = arr2 (fun n (_ : Fin 1) => kdis (aDst m c) n) :=
  host0_dis (W0 m ρ c) _ rfl

/-! ## After the first region: its inputs keep their contents, its output holds the scaled projection -/

theorem W2_arg3 : W2 m ρ c (Proc.devRef .tc main_arg3) = arr1 (aB m c) :=
  (W2_of_ne m ρ c main_arg3 (by decide)).trans (W1_arg3 m ρ c)
theorem W2_arg4 : W2 m ρ c (Proc.devRef .tc main_arg4) = arr1 (aG m c) :=
  (W2_of_ne m ρ c main_arg4 (by decide)).trans (W1_arg4 m ρ c)
theorem W2_arg5 : W2 m ρ c (Proc.devRef .tc main_arg5) = arr1 (aBe m c) :=
  (W2_of_ne m ρ c main_arg5 (by decide)).trans (W1_arg5 m ρ c)
theorem W2_v1 : W2 m ρ c (Proc.devRef .tc main_v1) = arr1 (aSrc m c) :=
  (W2_of_ne m ρ c main_v1 (by decide)).trans (W1_v1 m ρ c)
theorem W2_v3 : W2 m ρ c (Proc.devRef .tc main_v3) = arr1 (aDst m c) :=
  (W2_of_ne m ρ c main_v3 (by decide)).trans (W1_v3 m ρ c)
theorem W2_v13 : W2 m ρ c (Proc.devRef .tc main_v13) = arr2 (fun n (_ : Fin 1) => kdis (aDst m c) n) :=
  (W2_arr m ρ c 2).trans ((((dat0 (V1 m ρ) c).arrAt_in 2 rfl _).trans (A_eq0 (V1 m ρ) c 2)).trans (W1_v13 m ρ c))
theorem W2_v14 : W2 m ρ c (Proc.devRef .tc main_v14) = arr2 (xs (aX m c) (aW m c) (aDst m c)) :=
  (W2_arr m ρ c 3).trans
    (reg0_xs (V1 m ρ) c (aX m c) (aW m c) (kdis (aDst m c)) (W1_arg0 m ρ c) (W1_arg2 m ρ c) (W1_v13 m ρ c))

/-! ## After the second stretch: the gathered and scattered rows, the bias as a row -/

theorem W3_arg4 : W3 m ρ c (Proc.devRef .tc main_arg4) = arr1 (aG m c) := (kept% main_arg4).trans (W2_arg4 m ρ c)
theorem W3_arg5 : W3 m ρ c (Proc.devRef .tc main_arg5) = arr1 (aBe m c) := (kept% main_arg5).trans (W2_arg5 m ρ c)
theorem W3_v13 : W3 m ρ c (Proc.devRef .tc main_v13) = arr2 (fun n (_ : Fin 1) => kdis (aDst m c) n) :=
  (kept% main_v13).trans (W2_v13 m ρ c)
theorem W3_v14 : W3 m ρ c (Proc.devRef .tc main_v14) = arr2 (xs (aX m c) (aW m c) (aDst m c)) :=
  (kept% main_v14).trans (W2_v14 m ρ c)
theorem W3_v24 : W3 m ρ c (Proc.devRef .tc main_v24) = arr2 (gat (aX m c) (aW m c) (aSrc m c) (aDst m c)) :=
  host1_gat (W2 m ρ c) (xs (aX m c) (aW m c) (aDst m c)) (aSrc m c) (aDst m c) (W2_v14 m ρ c) (W2_v1 m ρ c) (W2_v3 m ρ c)
theorem W3_v25 : W3 m ρ c (Proc.devRef .tc main_v25) = arr2 (fun (_ : Fin 1) k => aB m c k) :=
  host1_b (W2 m ρ c) (aB m c) (W2_arg3 m ρ c)

/-! ## After the second region: the rectified rows and the two arrays of per-tile partial sums -/

theorem W4_arg4 : W4 m ρ c (Proc.devRef .tc main_arg4) = arr1 (aG m c) :=
  (W4_of_ne m ρ c main_arg4 (by decide)).trans (W3_arg4 m ρ c)
theorem W4_arg5 : W4 m ρ c (Proc.devRef .tc main_arg5) = arr1 (aBe m c) :=
  (W4_of_ne m ρ c main_arg5 (by decide)).trans (W3_arg5 m ρ c)
theorem W4_v26_0 : W4 m ρ c (Proc.devRef .tc main_v26_0) = arr2 (kh (aX m c) (aW m c) (aSrc m c) (aDst m c) (aB m c)) :=
  (W4_arr m ρ c 4).trans
    (reg1_h (V3 m ρ) c (gat (aX m c) (aW m c) (aSrc m c) (aDst m c)) (xs (aX m c) (aW m c) (aDst m c)) (kdis (aDst m c)) (aB m c)
      (W3_v24 m ρ c) (W3_v14 m ρ c) (W3_v13 m ρ c) (W3_v25 m ρ c))
theorem W4_v26_1 : W4 m ρ c (Proc.devRef .tc main_v26_1) = arr2 (part (kh (aX m c) (aW m c) (aSrc m c) (aDst m c) (aB m c))) :=
  (W4_arr m ρ c 5).trans
    (reg1_sum (V3 m ρ) c (gat (aX m c) (aW m c) (aSrc m c) (aDst m c)) (xs (aX m c) (aW m c) (aDst m c)) (kdis (aDst m c)) (aB m c)
      (W3_v24 m ρ c) (W3_v14 m ρ c) (W3_v13 m ρ c) (W3_v25 m ρ c))
theorem W4_v26_2 : W4 m ρ c (Proc.devRef .tc main_v26_2)
    = arr2 (part (fun n k => (kh (aX m c) (aW m c) (aSrc m c) (aDst m c) (aB m c)) n k * (kh (aX m c) (aW m c) (aSrc m c) (aDst m c) (aB m c)) n k)) :=
  (W4_arr m ρ c 6).trans
    (reg1_sumsq (V3 m ρ) c (gat (aX m c) (aW m c) (aSrc m c) (aDst m c)) (xs (aX m c) (aW m c) (aDst m c)) (kdis (aDst m c)) (aB m c)
      (W3_v24 m ρ c) (W3_v14 m ρ c) (W3_v13 m ρ c) (W3_v25 m ρ c))

/-! ## After the third stretch: the column means, the reciprocal deviations, the scale and the shift as rows -/

theorem W5_v26_0 : W5 m ρ c (Proc.devRef .tc main_v26_0) = arr2 (kh (aX m c) (aW m c) (aSrc m c) (aDst m c) (aB m c)) := (kept% main_v26_0).trans (W4_v26_0 m ρ c)
theorem W5_v38 : W5 m ρ c (Proc.devRef .tc main_v38) = arr2 (fun (_ : Fin 1) k => mean (kh (aX m c) (aW m c) (aSrc m c) (aDst m c) (aB m c)) k) :=
  (host2_mean (W4 m ρ c) _ (W4_v26_1 m ρ c)).trans
    (congrArg arr2 (funext fun _ => funext fun k => by rw [sum_part]; rfl))
theorem W5_v39 : W5 m ρ c (Proc.devRef .tc main_v39)
    = arr2 (fun (_ : Fin 1) k => Ideal.rsqrt (kvar (kh (aX m c) (aW m c) (aSrc m c) (aDst m c) (aB m c)) k + eps)) :=
  (host2_inv (W4 m ρ c) _ _ (W4_v26_1 m ρ c) (W4_v26_2 m ρ c)).trans
    (congrArg arr2 (funext fun _ => funext fun k => by rw [sum_part, sum_part]; rfl))
theorem W5_v40 : W5 m ρ c (Proc.devRef .tc main_v40) = arr2 (fun (_ : Fin 1) k => aG m c k) :=
  host2_gamma (W4 m ρ c) (aG m c) (W4_arg4 m ρ c)
theorem W5_v41 : W5 m ρ c (Proc.devRef .tc main_v41) = arr2 (fun (_ : Fin 1) k => aBe m c k) :=
  host2_beta (W4 m ρ c) (aBe m c) (W4_arg5 m ρ c)

/-! ## After the third region: the normalised rows -/

/-- The result buffer at the last boundary is the specification's kernel-side formula of the launch arrays. -/
theorem W6_out : W6 m ρ c (Proc.devRef .tc main_v42)
    = arr2 (kout (aX m c) (aW m c) (aSrc m c) (aDst m c) (aB m c) (aG m c) (aBe m c)) :=
  (W6_arr m ρ c 5).trans
    (reg2_out (V5 m ρ) c (kh (aX m c) (aW m c) (aSrc m c) (aDst m c) (aB m c)) (mean (kh (aX m c) (aW m c) (aSrc m c) (aDst m c) (aB m c))) (fun k => Ideal.rsqrt (kvar (kh (aX m c) (aW m c) (aSrc m c) (aDst m c) (aB m c)) k + eps)) (aG m c) (aBe m c)
      (W5_v26_0 m ρ c) (W5_v38 m ρ c) (W5_v39 m ρ c) (W5_v40 m ρ c) (W5_v41 m ρ c))

end Boundaries

end Bdry

/-- the kernel's run with its result named -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v42)
        = arr2 (kout (fn2 (m ((c.tc : Thread nD τ).loc main_arg0))) (fn2 (m ((c.tc : Thread nD τ).loc main_arg2)))
            (srcOf (m ((c.tc : Thread nD τ).loc main_arg1))) (dstOf (m ((c.tc : Thread nD τ).loc main_arg1)))
            (fn1 (m ((c.tc : Thread nD τ).loc main_arg3))) (fn1 (m ((c.tc : Thread nD τ).loc main_arg4))) (fn1 (m ((c.tc : Thread nD τ).loc main_arg5))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun r h c => ⟨(h c).1.trans (Bdry.W6_out m ρ c), (h c).2⟩) (run_W6 m ρ)

end Cert.KernelIdeal.KVal

end
-- ==== Proof.RefTerm.lean ====
/-
  The reference program's result as ONE term of its six argument arrays: its host operations composed in
  program order, each intermediate named after the value it is in the program text (the three outlined
  functions — the two selects and the variance — written out where they are called).
-/
import proofs.«147240_j47321949667549_2_alg».proof.ReferenceIdeal

noncomputable section

namespace Cert.ReferenceIdeal.RefTerm

open Cert.ReferenceIdeal Idealize.ShloMosaic Idealize.ShloMosaic.TcCoe

variable {F : FTy → Type} [FloatOps F] [Facts]
open Facts₀ Facts

/-- The degree vector's inverse square root (zero where the degree is not positive), of the edge array. -/
def disOf (ei : IVec S2x640000 32) : FVec F S50000 .f32 :=
  let v1 : IVec S50000 32 := iotaInDim S50000 32 0
  let v5 : IVec S1x640000 32 := extractStridedSlice S1x640000 ![1, 0] ei slices_S2x640000_S1x640000_1_0
  let v6 : IVec S640000 32 := shapeCast S640000 v5 shapeCasts_S1x640000_S640000
  let v7 : IVec S690000 32 := concatenate S690000 0 [⟨S640000, v6⟩, ⟨S50000, v1⟩] concatenates_S640000_S50000_S690000_d0
  let v8 : FVec F S690000 .f32 := broadcastInDim S690000 ![] bcast_S_S690000 (constant S_ .f32 0x3F800000#32)
  let v9 : FVec F S50000 .f32 := broadcastInDim S50000 ![] bcast_S_S50000 (constant S_ .f32 0x00000000#32)
  let v10 : IVec S690000x1 32 := broadcastInDim S690000x1 ![0] bcast_S690000_S690000x1_0 v7
  let v11 : FVec F S50000 .f32 := Host.scatterAdd scatter_S50000_S690000x1_S690000_n_0_0_1 v9 v10 v8
  let v12 : FVec F S50000 .f32 := broadcastInDim S50000 ![] bcast_S_S50000 (constant S_ .f32 0x00000000#32)
  let v13 : IVec S50000 1 := cmpf .ogt v11 v12
  let v14 : FVec F S50000 .f32 := broadcastInDim S50000 ![] bcast_S_S50000 (constant S_ .f32 0x3F800000#32)
  let v15 : FVec F S50000 .f32 := maximumf v11 v14
  let v16 : FVec F S50000 .f32 := Host.rsqrt v15
  let w1 : FVec F S50000 .f32 := broadcastInDim S50000 ![] bcast_S_S50000 (id (constant S_ .f32 0x00000000#32))
  select v13 v16 w1

/-- An index vector with its negative entries wrapped by the number of nodes, as a column. -/
def wrapCol (v : IVec S690000 32) : IVec S690000x1 32 :=
  let z : IVec S690000 32 := broadcastInDim S690000 ![] bcast_S_S690000 (constantI S_ 32 0#32)
  let lt : IVec S690000 1 := cmpi .slt v z
  let n : IVec S690000 32 := broadcastInDim S690000 ![] bcast_S_S690000 (constantI S_ 32 50000#32)
  let s : IVec S690000 32 := addi v n
  let w : IVec S690000 32 := select lt s v
  broadcastInDim S690000x1 ![0] bcast_S690000_S690000x1_0 w

/-- The aggregated messages plus the bias, before the rectifier. -/
def aggOf (x : FVec F S50000x128 .f32) (ei : IVec S2x640000 32) (W : FVec F S128x128 .f32) (b : FVec F S128 .f32) :
    FVec F S50000x128 .f32 :=
  let v0 : FVec F S50000x128 .f32 := Host.dotGeneral dot_S50000x128_S128x128_S50000x128_1_0_0_1_n_n none x W
  let v1 : IVec S50000 32 := iotaInDim S50000 32 0
  let v2 : IVec S1x640000 32 := extractStridedSlice S1x640000 ![0, 0] ei slices_S2x640000_S1x640000_0_0
  let v3 : IVec S640000 32 := shapeCast S640000 v2 shapeCasts_S1x640000_S640000
  let v4 : IVec S690000 32 := concatenate S690000 0 [⟨S640000, v3⟩, ⟨S50000, v1⟩] concatenates_S640000_S50000_S690000_d0
  let v5 : IVec S1x640000 32 := extractStridedSlice S1x640000 ![1, 0] ei slices_S2x640000_S1x640000_1_0
  let v6 : IVec S640000 32 := shapeCast S640000 v5 shapeCasts_S1x640000_S640000
  let v7 : IVec S690000 32 := concatenate S690000 0 [⟨S640000, v6⟩, ⟨S50000, v1⟩] concatenates_S640000_S50000_S690000_d0
  let v17 : FVec F S50000 .f32 := disOf ei
  let v24 : FVec F S690000 .f32 := Host.gather gather_S50000_S690000x1_S690000_n_0_n_n_0_1_1 v17 (wrapCol v4)
  let v31 : FVec F S690000 .f32 := Host.gather gather_S50000_S690000x1_S690000_n_0_n_n_0_1_1 v17 (wrapCol v7)
  let v32 : FVec F S690000 .f32 := mulf v24 v31
  let v39 : FVec F S690000x128 .f32 := Host.gather gather_S50000x128_S690000x1_S690000x128_1_0_n_n_0_1_1128 v0 (wrapCol v4)
  let v40 : FVec F S690000x1 .f32 := broadcastInDim S690000x1 ![0] bcast_S690000_S690000x1_0 v32
  let v41 : FVec F S690000x128 .f32 := broadcastInDim S690000x128 ![0, 1] bcast_S690000x1_S690000x128_0_1 v40
  let v42 : FVec F S690000x128 .f32 := mulf v39 v41
  let v43 : FVec F S50000x128 .f32 := broadcastInDim S50000x128 ![] bcast_S_S50000x128 (constant S_ .f32 0x00000000#32)
  let v44 : IVec S690000x1 32 := broadcastInDim S690000x1 ![0] bcast_S690000_S690000x1_0 v7
  let v45 : FVec F S50000x128 .f32 := Host.scatterAdd scatter_S50000x128_S690000x1_S690000x128_1_0_0_1 v43 v44 v42
  let v46 : FVec F S1x128 .f32 := broadcastInDim S1x128 ![1] bcast_S128_S1x128_1 b
  let v47 : FVec F S50000x128 .f32 := broadcastInDim S50000x128 ![0, 1] bcast_S1x128_S50000x128_0_1 v46
  addf v45 v47

/-- The leaky rectifier of an array. -/
def reluOf (v48 : FVec F S50000x128 .f32) : FVec F S50000x128 .f32 :=
  let v49 : FVec F S50000x128 .f32 := broadcastInDim S50000x128 ![] bcast_S_S50000x128 (constant S_ .f32 0x00000000#32)
  let v50 : IVec S50000x128 1 := cmpf .oge v48 v49
  let v51 : FVec F S50000x128 .f32 := broadcastInDim S50000x128 ![] bcast_S_S50000x128 (constant S_ .f32 0x3C23D70A#32)
  let v52 : FVec F S50000x128 .f32 := mulf v51 v48
  select v50 v48 v52

/-- The column means. -/
def meanOf (v53 : FVec F S50000x128 .f32) : FVec F S128 .f32 :=
  let v54 : FVec F S128 .f32 := Host.reduceAdd v53 (constant S_ .f32 0x00000000#32) reducesTo_S50000x128_S128_d0 h_S_
  let v55 : FVec F S128 .f32 := broadcastInDim S128 ![] bcast_S_S128 (constant S_ .f32 0x47435000#32)
  Host.divf v54 v55

/-- The column variances, as the outlined variance function computes them from the array and the
    degrees-of-freedom correction `ddof` (an integer scalar; the program passes zero). -/
def varOf (a0 : FVec F S50000x128 .f32) (ddof : IVec S_ 32) : FVec F S128 .f32 :=
  let c0 : FVec F S128 .f32 := Host.reduceAdd a0 (constant S_ .f32 0x00000000#32) reducesTo_S50000x128_S128_d0 h_S_
  let c1 : FVec F S1x128 .f32 := broadcastInDim S1x128 ![1] bcast_S128_S1x128_1 c0
  let c2 : FVec F S1x128 .f32 := broadcastInDim S1x128 ![] bcast_S_S1x128 (constant S_ .f32 0x47435000#32)
  let c3 : FVec F S1x128 .f32 := Host.divf c1 c2
  let c4 : FVec F S50000x128 .f32 := broadcastInDim S50000x128 ![0, 1] bcast_S1x128_S50000x128_0_1 c3
  let c5 : FVec F S50000x128 .f32 := subf a0 c4
  let c6 : FVec F S50000x128 .f32 := mulf c5 c5
  let c7 : FVec F S_ .f32 := sitofp .f32 ddof
  let c8 : FVec F S_ .f32 := subf (constant S_ .f32 0x47435000#32) c7
  let c9 : FVec F S128 .f32 := Host.reduceAdd c6 (constant S_ .f32 0x00000000#32) reducesTo_S50000x128_S128_d0 h_S_
  let c10 : FVec F S128 .f32 := broadcastInDim S128 ![] bcast_S_S128 c8
  let c11 : FVec F S128 .f32 := Host.divf c9 c10
  let c12 : IVec S_ 1 := cmpf .ogt c8 (constant S_ .f32 0x00000000#32)
  let d1 : FVec F S128 .f32 := broadcastInDim S128 ![] bcast_S_S128 (id (constant S_ .f32 0x7FC00000#32))
  select (broadcastInDim S128 ![] bcast_S_S128 c12) c11 d1

/-- The normalisation of the rectified array with its own column means and variances. -/
def normOf (v53 : FVec F S50000x128 .f32) (ga be : FVec F S128 .f32) : FVec F S50000x128 .f32 :=
  let v56 : FVec F S128 .f32 := meanOf v53
  let v57 : FVec F S128 .f32 := varOf v53 (constantI S_ 32 0#32)
  let v58 : FVec F S1x128 .f32 := broadcastInDim S1x128 ![1] bcast_S128_S1x128_1 v56
  let v59 : FVec F S50000x128 .f32 := broadcastInDim S50000x128 ![0, 1] bcast_S1x128_S50000x128_0_1 v58
  let v60 : FVec F S50000x128 .f32 := subf v53 v59
  let v61 : FVec F S1x128 .f32 := broadcastInDim S1x128 ![1] bcast_S128_S1x128_1 ga
  let v62 : FVec F S50000x128 .f32 := broadcastInDim S50000x128 ![0, 1] bcast_S1x128_S50000x128_0_1 v61
  let v63 : FVec F S50000x128 .f32 := mulf v62 v60
  let v64 : FVec F S128 .f32 := broadcastInDim S128 ![] bcast_S_S128 (constant S_ .f32 0x3727C5AC#32)
  let v65 : FVec F S128 .f32 := addf v57 v64
  let v66 : FVec F S128 .f32 := Host.rsqrt v65
  let v67 : FVec F S1x128 .f32 := broadcastInDim S1x128 ![1] bcast_S128_S1x128_1 v66
  let v68 : FVec F S50000x128 .f32 := broadcastInDim S50000x128 ![0, 1] bcast_S1x128_S50000x128_0_1 v67
  let v69 : FVec F S50000x128 .f32 := mulf v63 v68
  let v70 : FVec F S1x128 .f32 := broadcastInDim S1x128 ![1] bcast_S128_S1x128_1 be
  let v71 : FVec F S50000x128 .f32 := broadcastInDim S50000x128 ![0, 1] bcast_S1x128_S50000x128_0_1 v70
  addf v69 v71

/-- The program's result of its six arguments. -/
def out (x : FVec F S50000x128 .f32) (ei : IVec S2x640000 32) (W : FVec F S128x128 .f32) (b ga be : FVec F S128 .f32) :
    FVec F S50000x128 .f32 :=
  normOf (reluOf (aggOf x ei W b)) ga be

end Cert.ReferenceIdeal.RefTerm

end
-- ==== Proof.RefRun.lean ====
/-
  The reference program's run, read back: its @main is a straight line of 114 host operations (its 92
  statements, the three outlined functions' bodies standing where they are called), so every weakly fair
  execution terminates with each buffer at the fold of the operations' results over the launch contents.
  The fold at the result buffer is the composed term of the six arguments: it is read in three stretches —
  the aggregation with the bias (through the value %48), the leaky rectifier (through %53), the
  normalisation (through %72) — each the corresponding function of the composed term of what the stretch
  reads, and the three are composed along the concatenation of the lists. Everything but the final statement is kept in
  a namespace of its own.
-/
import proofs.«147240_j47321949667549_2_alg».proof.ReferenceIdeal
import proofs.«147240_j47321949667549_2_alg».proof.Proof.Gen.ReferenceIdeal
import proofs.«147240_j47321949667549_2_alg».proof.Proof.RefTerm
import Idealize.ShloMosaic.Lib.StableHlo.Run

noncomputable section

namespace Cert.ReferenceIdeal.RVal.Run

open Cert.ReferenceIdeal Idealize.ShloMosaic Idealize.ShloMosaic.TcCoe Idealize.SL.Sem Idealize.ShloMosaic.StableHlo

variable [Facts] {F : FTy → Type} [FloatOps F]
open Facts₀ Facts

/-- The first stretch: the matrix product, the two index vectors with the self loops appended, the degrees and
    their inverse square roots (the first select written out), the three gathers, the scatter-add, the bias. -/
abbrev opsA : List (HloOp τ sig (Elt F)) :=
  [ StableHlo.binary main_arg0 main_arg2 main_v0 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_v1 (iotaInDim S50000 32 0),
    StableHlo.unary main_arg1 main_v2 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v2 main_v3 rfl shapeCasts_S1x640000_S640000,
    StableHlo.binary main_v3 main_v1 main_v4 ((fun a b => concatenate S690000 0 [⟨S640000, a⟩, ⟨S50000, b⟩] concatenates_S640000_S50000_S690000_d0) : (⟨S640000, .i32⟩ : BufTy).Contents (Elt F) → (⟨S50000, .i32⟩ : BufTy).Contents (Elt F) → (⟨S690000, .i32⟩ : BufTy).Contents (Elt F)),
    StableHlo.unary main_arg1 main_v5 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v5 main_v6 rfl shapeCasts_S1x640000_S640000,
    StableHlo.binary main_v6 main_v1 main_v7 ((fun a b => concatenate S690000 0 [⟨S640000, a⟩, ⟨S50000, b⟩] concatenates_S640000_S50000_S690000_d0) : (⟨S640000, .i32⟩ : BufTy).Contents (Elt F) → (⟨S50000, .i32⟩ : BufTy).Contents (Elt F) → (⟨S690000, .i32⟩ : BufTy).Contents (Elt F)),
    StableHlo.nullary main_cst (constant S_ .f32 0x3F800000#32),
    StableHlo.unary main_cst main_v8 (broadcastInDim S690000 ![] bcast_S_S690000 : (⟨S_, .f32⟩ : BufTy).Contents (Elt F) → (⟨S690000, .f32⟩ : BufTy).Contents (Elt F)),
    StableHlo.nullary main_cst_0 (constant S_ .f32 0x00000000#32),
    StableHlo.unary main_cst_0 main_v9 (broadcastInDim S50000 ![] bcast_S_S50000 : (⟨S_, .f32⟩ : BufTy).Contents (Elt F) → (⟨S50000, .f32⟩ : BufTy).Contents (Elt F)),
    StableHlo.unary main_v7 main_v10 (broadcastInDim S690000x1 ![0] bcast_S690000_S690000x1_0 : (⟨S690000, .i32⟩ : BufTy).Contents (Elt F) → (⟨S690000x1, .i32⟩ : BufTy).Contents (Elt F)),
    StableHlo.ternary main_v9 main_v10 main_v8 main_v11 ((fun x i u => Host.scatterAdd scatter_S50000_S690000x1_S690000_n_0_0_1 x i u) : (⟨S50000, .f32⟩ : BufTy).Contents (Elt F) → (⟨S690000x1, .i32⟩ : BufTy).Contents (Elt F) → (⟨S690000, .f32⟩ : BufTy).Contents (Elt F) → (⟨S50000, .f32⟩ : BufTy).Contents (Elt F)),
    StableHlo.nullary main_cst_1 (constant S_ .f32 0x00000000#32),
    StableHlo.unary main_cst_1 main_v12 (broadcastInDim S50000 ![] bcast_S_S50000 : (⟨S_, .f32⟩ : BufTy).Contents (Elt F) → (⟨S50000, .f32⟩ : BufTy).Contents (Elt F)),
    StableHlo.binary main_v11 main_v12 main_v13 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0x3F800000#32),
    StableHlo.unary main_cst_2 main_v14 (broadcastInDim S50000 ![] bcast_S_S50000 : (⟨S_, .f32⟩ : BufTy).Contents (Elt F) → (⟨S50000, .f32⟩ : BufTy).Contents (Elt F)),
    StableHlo.binary main_v11 main_v14 main_v15 (maximumf : (⟨S50000, .f32⟩ : BufTy).Contents (Elt F) → (⟨S50000, .f32⟩ : BufTy).Contents (Elt F) → (⟨S50000, .f32⟩ : BufTy).Contents (Elt F)),
    StableHlo.unary main_v15 main_v16 (Host.rsqrt : (⟨S50000, .f32⟩ : BufTy).Contents (Elt F) → (⟨S50000, .f32⟩ : BufTy).Contents (Elt F)),
    StableHlo.nullary main_cst_3 (constant S_ .f32 0x00000000#32),
    StableHlo.TRef.unary (.of main_cst_3 : TRef sig ⟨S_, .f32⟩) main_call0.v0 id,
    StableHlo.TRef.unary main_call0.v0 main_call0.v1 (broadcastInDim S50000 ![] bcast_S_S50000),
    StableHlo.TRef.ternary (.of main_v13 : TRef sig ⟨S50000, .i1⟩) (.of main_v16 : TRef sig ⟨S50000, .f32⟩) main_call0.v1 main_call0.v2 select,
    StableHlo.nullary main_c (constantI S_ 32 0#32),
    StableHlo.unary main_c main_v18 (broadcastInDim S690000 ![] bcast_S_S690000 : (⟨S_, .i32⟩ : BufTy).Contents (Elt F) → (⟨S690000, .i32⟩ : BufTy).Contents (Elt F)),
    StableHlo.binary main_v4 main_v18 main_v19 (cmpi .slt : (⟨S690000, .i32⟩ : BufTy).Contents (Elt F) → (⟨S690000, .i32⟩ : BufTy).Contents (Elt F) → (⟨S690000, .i1⟩ : BufTy).Contents (Elt F)),
    StableHlo.nullary main_c_4 (constantI S_ 32 50000#32),
    StableHlo.unary main_c_4 main_v20 (broadcastInDim S690000 ![] bcast_S_S690000 : (⟨S_, .i32⟩ : BufTy).Contents (Elt F) → (⟨S690000, .i32⟩ : BufTy).Contents (Elt F)),
    StableHlo.binary main_v4 main_v20 main_v21 (addi : (⟨S690000, .i32⟩ : BufTy).Contents (Elt F) → (⟨S690000, .i32⟩ : BufTy).Contents (Elt F) → (⟨S690000, .i32⟩ : BufTy).Contents (Elt F)),
    StableHlo.ternary main_v19 main_v21 main_v4 main_v22 (select : (⟨S690000, .i1⟩ : BufTy).Contents (Elt F) → (⟨S690000, .i32⟩ : BufTy).Contents (Elt F) → (⟨S690000, .i32⟩ : BufTy).Contents (Elt F) → (⟨S690000, .i32⟩ : BufTy).Contents (Elt F)),
    StableHlo.unary main_v22 main_v23 (broadcastInDim S690000x1 ![0] bcast_S690000_S690000x1_0 : (⟨S690000, .i32⟩ : BufTy).Contents (Elt F) → (⟨S690000x1, .i32⟩ : BufTy).Contents (Elt F)),
    StableHlo.binary main_v17 main_v23 main_v24 ((fun x i => Host.gather gather_S50000_S690000x1_S690000_n_0_n_n_0_1_1 x i) : (⟨S50000, .f32⟩ : BufTy).Contents (Elt F) → (⟨S690000x1, .i32⟩ : BufTy).Contents (Elt F) → (⟨S690000, .f32⟩ : BufTy).Contents (Elt F)),
    StableHlo.nullary main_c_5 (constantI S_ 32 0#32),
    StableHlo.unary main_c_5 main_v25 (broadcastInDim S690000 ![] bcast_S_S690000 : (⟨S_, .i32⟩ : BufTy).Contents (Elt F) → (⟨S690000, .i32⟩ : BufTy).Contents (Elt F)),
    StableHlo.binary main_v7 main_v25 main_v26 (cmpi .slt : (⟨S690000, .i32⟩ : BufTy).Contents (Elt F) → (⟨S690000, .i32⟩ : BufTy).Contents (Elt F) → (⟨S690000, .i1⟩ : BufTy).Contents (Elt F)),
    StableHlo.nullary main_c_6 (constantI S_ 32 50000#32),
    StableHlo.unary main_c_6 main_v27 (broadcastInDim S690000 ![] bcast_S_S690000 : (⟨S_, .i32⟩ : BufTy).Contents (Elt F) → (⟨S690000, .i32⟩ : BufTy).Contents (Elt F)),
    StableHlo.binary main_v7 main_v27 main_v28 (addi : (⟨S690000, .i32⟩ : BufTy).Contents (Elt F) → (⟨S690000, .i32⟩ : BufTy).Contents (Elt F) → (⟨S690000, .i32⟩ : BufTy).Contents (Elt F)),
    StableHlo.ternary main_v26 main_v28 main_v7 main_v29 (select : (⟨S690000, .i1⟩ : BufTy).Contents (Elt F) → (⟨S690000, .i32⟩ : BufTy).Contents (Elt F) → (⟨S690000, .i32⟩ : BufTy).Contents (Elt F) → (⟨S690000, .i32⟩ : BufTy).Contents (Elt F)),
    StableHlo.unary main_v29 main_v30 (broadcastInDim S690000x1 ![0] bcast_S690000_S690000x1_0 : (⟨S690000, .i32⟩ : BufTy).Contents (Elt F) → (⟨S690000x1, .i32⟩ : BufTy).Contents (Elt F)),
    StableHlo.binary main_v17 main_v30 main_v31 ((fun x i => Host.gather gather_S50000_S690000x1_S690000_n_0_n_n_0_1_1 x i) : (⟨S50000, .f32⟩ : BufTy).Contents (Elt F) → (⟨S690000x1, .i32⟩ : BufTy).Contents (Elt F) → (⟨S690000, .f32⟩ : BufTy).Contents (Elt F)),
    StableHlo.binary main_v24 main_v31 main_v32 (mulf : (⟨S690000, .f32⟩ : BufTy).Contents (Elt F) → (⟨S690000, .f32⟩ : BufTy).Contents (Elt F) → (⟨S690000, .f32⟩ : BufTy).Contents (Elt F)),
    StableHlo.nullary main_c_7 (constantI S_ 32 0#32),
    StableHlo.unary main_c_7 main_v33 (broadcastInDim S690000 ![] bcast_S_S690000 : (⟨S_, .i32⟩ : BufTy).Contents (Elt F) → (⟨S690000, .i32⟩ : BufTy).Contents (Elt F)),
    StableHlo.binary main_v4 main_v33 main_v34 (cmpi .slt : (⟨S690000, .i32⟩ : BufTy).Contents (Elt F) → (⟨S690000, .i32⟩ : BufTy).Contents (Elt F) → (⟨S690000, .i1⟩ : BufTy).Contents (Elt F)),
    StableHlo.nullary main_c_8 (constantI S_ 32 50000#32),
    StableHlo.unary main_c_8 main_v35 (broadcastInDim S690000 ![] bcast_S_S690000 : (⟨S_, .i32⟩ : BufTy).Contents (Elt F) → (⟨S690000, .i32⟩ : BufTy).Contents (Elt F)),
    StableHlo.binary main_v4 main_v35 main_v36 (addi : (⟨S690000, .i32⟩ : BufTy).Contents (Elt F) → (⟨S690000, .i32⟩ : BufTy).Contents (Elt F) → (⟨S690000, .i32⟩ : BufTy).Contents (Elt F)),
    StableHlo.ternary main_v34 main_v36 main_v4 main_v37 (select : (⟨S690000, .i1⟩ : BufTy).Contents (Elt F) → (⟨S690000, .i32⟩ : BufTy).Contents (Elt F) → (⟨S690000, .i32⟩ : BufTy).Contents (Elt F) → (⟨S690000, .i32⟩ : BufTy).Contents (Elt F)),
    StableHlo.unary main_v37 main_v38 (broadcastInDim S690000x1 ![0] bcast_S690000_S690000x1_0 : (⟨S690000, .i32⟩ : BufTy).Contents (Elt F) → (⟨S690000x1, .i32⟩ : BufTy).Contents (Elt F)),
    StableHlo.binary main_v0 main_v38 main_v39 ((fun x i => Host.gather gather_S50000x128_S690000x1_S690000x128_1_0_n_n_0_1_1128 x i) : (⟨S50000x128, .f32⟩ : BufTy).Contents (Elt F) → (⟨S690000x1, .i32⟩ : BufTy).Contents (Elt F) → (⟨S690000x128, .f32⟩ : BufTy).Contents (Elt F)),
    StableHlo.unary main_v32 main_v40 (broadcastInDim S690000x1 ![0] bcast_S690000_S690000x1_0 : (⟨S690000, .f32⟩ : BufTy).Contents (Elt F) → (⟨S690000x1, .f32⟩ : BufTy).Contents (Elt F)),
    StableHlo.unary main_v40 main_v41 (broadcastInDim S690000x128 ![0, 1] bcast_S690000x1_S690000x128_0_1 : (⟨S690000x1, .f32⟩ : BufTy).Contents (Elt F) → (⟨S690000x128, .f32⟩ : BufTy).Contents (Elt F)),
    StableHlo.binary main_v39 main_v41 main_v42 (mulf : (⟨S690000x128, .f32⟩ : BufTy).Contents (Elt F) → (⟨S690000x128, .f32⟩ : BufTy).Contents (Elt F) → (⟨S690000x128, .f32⟩ : BufTy).Contents (Elt F)),
    StableHlo.nullary main_cst_9 (constant S_ .f32 0x00000000#32),
    StableHlo.unary main_cst_9 main_v43 (broadcastInDim S50000x128 ![] bcast_S_S50000x128 : (⟨S_, .f32⟩ : BufTy).Contents (Elt F) → (⟨S50000x128, .f32⟩ : BufTy).Contents (Elt F)),
    StableHlo.unary main_v7 main_v44 (broadcastInDim S690000x1 ![0] bcast_S690000_S690000x1_0 : (⟨S690000, .i32⟩ : BufTy).Contents (Elt F) → (⟨S690000x1, .i32⟩ : BufTy).Contents (Elt F)),
    StableHlo.ternary main_v43 main_v44 main_v42 main_v45 ((fun x i u => Host.scatterAdd scatter_S50000x128_S690000x1_S690000x128_1_0_0_1 x i u) : (⟨S50000x128, .f32⟩ : BufTy).Contents (Elt F) → (⟨S690000x1, .i32⟩ : BufTy).Contents (Elt F) → (⟨S690000x128, .f32⟩ : BufTy).Contents (Elt F) → (⟨S50000x128, .f32⟩ : BufTy).Contents (Elt F)),
    StableHlo.unary main_arg3 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S50000x128 ![0, 1] bcast_S1x128_S50000x128_0_1 : (⟨S1x128, .f32⟩ : BufTy).Contents (Elt F) → (⟨S50000x128, .f32⟩ : BufTy).Contents (Elt F)),
    StableHlo.binary main_v45 main_v47 main_v48 (addf : (⟨S50000x128, .f32⟩ : BufTy).Contents (Elt F) → (⟨S50000x128, .f32⟩ : BufTy).Contents (Elt F) → (⟨S50000x128, .f32⟩ : BufTy).Contents (Elt F)) ]

/-- The second stretch: the leaky rectifier (the second select written out). -/
abbrev opsB : List (HloOp τ sig (Elt F)) :=
  [ StableHlo.nullary main_cst_10 (constant S_ .f32 0x00000000#32),
    StableHlo.unary main_cst_10 main_v49 (broadcastInDim S50000x128 ![] bcast_S_S50000x128 : (⟨S_, .f32⟩ : BufTy).Contents (Elt F) → (⟨S50000x128, .f32⟩ : BufTy).Contents (Elt F)),
    StableHlo.binary main_v48 main_v49 main_v50 (cmpf .oge : (⟨S50000x128, .f32⟩ : BufTy).Contents (Elt F) → (⟨S50000x128, .f32⟩ : BufTy).Contents (Elt F) → (⟨S50000x128, .i1⟩ : BufTy).Contents (Elt F)),
    StableHlo.nullary main_cst_11 (constant S_ .f32 0x3C23D70A#32),
    StableHlo.unary main_cst_11 main_v51 (broadcastInDim S50000x128 ![] bcast_S_S50000x128 : (⟨S_, .f32⟩ : BufTy).Contents (Elt F) → (⟨S50000x128, .f32⟩ : BufTy).Contents (Elt F)),
    StableHlo.binary main_v51 main_v48 main_v52 (mulf : (⟨S50000x128, .f32⟩ : BufTy).Contents (Elt F) → (⟨S50000x128, .f32⟩ : BufTy).Contents (Elt F) → (⟨S50000x128, .f32⟩ : BufTy).Contents (Elt F)),
    StableHlo.TRef.ternary (.of main_v50 : TRef sig ⟨S50000x128, .i1⟩) (.of main_v48 : TRef sig ⟨S50000x128, .f32⟩) (.of main_v52 : TRef sig ⟨S50000x128, .f32⟩) main_call1.v0 select ]

/-- The third stretch: the column means, the column variances (the variance function and the select inside it
    written out), the normalisation. -/
abbrev opsC : List (HloOp τ sig (Elt F)) :=
  [ StableHlo.nullary main_cst_12 (constant S_ .f32 0x00000000#32),
    StableHlo.binary main_v53 main_cst_12 main_v54 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_13 (constant S_ .f32 0x47435000#32),
    StableHlo.unary main_cst_13 main_v55 (broadcastInDim S128 ![] bcast_S_S128 : (⟨S_, .f32⟩ : BufTy).Contents (Elt F) → (⟨S128, .f32⟩ : BufTy).Contents (Elt F)),
    StableHlo.binary main_v54 main_v55 main_v56 (Host.divf : (⟨S128, .f32⟩ : BufTy).Contents (Elt F) → (⟨S128, .f32⟩ : BufTy).Contents (Elt F) → (⟨S128, .f32⟩ : BufTy).Contents (Elt F)),
    StableHlo.nullary main_c_14 (constantI S_ 32 0#32),
    StableHlo.TRef.nullary main_call2.cst (constant S_ .f32 0x00000000#32),
    StableHlo.TRef.binary (.of main_v53 : TRef sig ⟨S50000x128, .f32⟩) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v53 : TRef sig ⟨S50000x128, .f32⟩) main_call2.v4 main_call2.v5 subf,
    StableHlo.TRef.binary main_call2.v5 main_call2.v5 main_call2.v6 mulf,
    StableHlo.TRef.unary (.of main_c_14 : TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v56 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S50000x128 ![0, 1] bcast_S1x128_S50000x128_0_1 : (⟨S1x128, .f32⟩ : BufTy).Contents (Elt F) → (⟨S50000x128, .f32⟩ : BufTy).Contents (Elt F)),
    StableHlo.binary main_v53 main_v59 main_v60 (subf : (⟨S50000x128, .f32⟩ : BufTy).Contents (Elt F) → (⟨S50000x128, .f32⟩ : BufTy).Contents (Elt F) → (⟨S50000x128, .f32⟩ : BufTy).Contents (Elt F)),
    StableHlo.unary main_arg4 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S50000x128 ![0, 1] bcast_S1x128_S50000x128_0_1 : (⟨S1x128, .f32⟩ : BufTy).Contents (Elt F) → (⟨S50000x128, .f32⟩ : BufTy).Contents (Elt F)),
    StableHlo.binary main_v62 main_v60 main_v63 (mulf : (⟨S50000x128, .f32⟩ : BufTy).Contents (Elt F) → (⟨S50000x128, .f32⟩ : BufTy).Contents (Elt F) → (⟨S50000x128, .f32⟩ : BufTy).Contents (Elt F)),
    StableHlo.nullary main_cst_15 (constant S_ .f32 0x3727C5AC#32),
    StableHlo.unary main_cst_15 main_v64 (broadcastInDim S128 ![] bcast_S_S128 : (⟨S_, .f32⟩ : BufTy).Contents (Elt F) → (⟨S128, .f32⟩ : BufTy).Contents (Elt F)),
    StableHlo.binary main_v57 main_v64 main_v65 (addf : (⟨S128, .f32⟩ : BufTy).Contents (Elt F) → (⟨S128, .f32⟩ : BufTy).Contents (Elt F) → (⟨S128, .f32⟩ : BufTy).Contents (Elt F)),
    StableHlo.unary main_v65 main_v66 (Host.rsqrt : (⟨S128, .f32⟩ : BufTy).Contents (Elt F) → (⟨S128, .f32⟩ : BufTy).Contents (Elt F)),
    StableHlo.unary main_v66 main_v67 (broadcastInDim S1x128 ![1] bcast_S128_S1x128_1 : (⟨S128, .f32⟩ : BufTy).Contents (Elt F) → (⟨S1x128, .f32⟩ : BufTy).Contents (Elt F)),
    StableHlo.unary main_v67 main_v68 (broadcastInDim S50000x128 ![0, 1] bcast_S1x128_S50000x128_0_1 : (⟨S1x128, .f32⟩ : BufTy).Contents (Elt F) → (⟨S50000x128, .f32⟩ : BufTy).Contents (Elt F)),
    StableHlo.binary main_v63 main_v68 main_v69 (mulf : (⟨S50000x128, .f32⟩ : BufTy).Contents (Elt F) → (⟨S50000x128, .f32⟩ : BufTy).Contents (Elt F) → (⟨S50000x128, .f32⟩ : BufTy).Contents (Elt F)),
    StableHlo.unary main_arg5 main_v70 (broadcastInDim S1x128 ![1] bcast_S128_S1x128_1 : (⟨S128, .f32⟩ : BufTy).Contents (Elt F) → (⟨S1x128, .f32⟩ : BufTy).Contents (Elt F)),
    StableHlo.unary main_v70 main_v71 (broadcastInDim S50000x128 ![0, 1] bcast_S1x128_S50000x128_0_1 : (⟨S1x128, .f32⟩ : BufTy).Contents (Elt F) → (⟨S50000x128, .f32⟩ : BufTy).Contents (Elt F)),
    StableHlo.binary main_v69 main_v71 main_v72 (addf : (⟨S50000x128, .f32⟩ : BufTy).Contents (Elt F) → (⟨S50000x128, .f32⟩ : BufTy).Contents (Elt F) → (⟨S50000x128, .f32⟩ : BufTy).Contents (Elt F)) ]

/-- @main's operations in order. -/
abbrev ops : List (HloOp τ sig (Elt F)) := opsA ++ (opsB ++ opsC)

/-- The fold over a concatenation is the folds in turn. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

set_option maxRecDepth 16384 in
set_option maxHeartbeats 4000000 in
/-- @main is that straight line: its two windows in turn, the functions' bodies unfolded at their calls. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
theorem opsA_sub : (opsA : List (HloOp τ sig (Elt F))).Forall fun op => op.bufs ⊆ tcRefs τ sig :=
  ⟨binary_bufs_sub .., nullary_bufs_sub .., unary_bufs_sub .., reshape_bufs_sub .., binary_bufs_sub .., unary_bufs_sub ..,
    reshape_bufs_sub .., binary_bufs_sub .., nullary_bufs_sub .., unary_bufs_sub .., nullary_bufs_sub .., unary_bufs_sub ..,
    unary_bufs_sub .., ternary_bufs_sub .., nullary_bufs_sub .., unary_bufs_sub .., binary_bufs_sub .., nullary_bufs_sub ..,
    unary_bufs_sub .., binary_bufs_sub .., unary_bufs_sub .., nullary_bufs_sub .., unary_bufs_sub .., unary_bufs_sub ..,
    ternary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., nullary_bufs_sub .., unary_bufs_sub .., unary_bufs_sub .., ternary_bufs_sub ..,
    unary_bufs_sub .., unary_bufs_sub .., binary_bufs_sub ..⟩
set_option maxRecDepth 16384 in
theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub ..⟩
set_option maxRecDepth 16384 in
theorem opsC_sub : (opsC : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp opsA_sub op h, List.forall_iff_forall_mem.mp opsB_sub op h,
      List.forall_iff_forall_mem.mp opsC_sub op h]

/-- No operation of the line leaves its result undetermined. -/
theorem opsA_fresh : (opsA : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩
theorem opsB_fresh : (opsB : List (HloOp τ sig (Elt F))).Forall fun op => op.fresh = ∅ :=
  ⟨rfl, rfl, rfl, rfl, rfl, rfl, rfl⟩
theorem opsC_fresh : (opsC : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl⟩
theorem ops_fresh : ∀ op ∈ (ops : List (HloOp τ sig (Elt F))), op.fresh = ∅ := fun op h => by
  simp only [ops, List.mem_append] at h
  rcases h with h | h | h
  exacts [List.forall_iff_forall_mem.mp opsA_fresh op h, List.forall_iff_forall_mem.mp opsB_fresh op h,
    List.forall_iff_forall_mem.mp opsC_fresh op h]

attribute [local irreducible] Host.scatterAdd Host.gather Host.reduceAdd Host.rsqrt Host.divf concatenate extractStridedSlice shapeCast broadcastInDim iotaInDim in
set_option maxRecDepth 16384 in
set_option maxHeartbeats 40000000 in
/-- The first stretch at %48: the fold unrolled, each operation read at the buffer it writes and passed over at the
    others; what is left is the aggregation's term, up to the identity casts of the typed references. -/
theorem A_v48 (V : Valuation τ sig (Elt F)) :
    after opsA V (main_v48 : DevRef τ sig)
      = RefTerm.aggOf (V (main_arg0 : DevRef τ sig)) (V (main_arg1 : DevRef τ sig)) (V (main_arg2 : DevRef τ sig))
          (V (main_arg3 : DevRef τ sig)) := by
  after_results_simp
  rfl

attribute [local irreducible] Host.scatterAdd Host.gather Host.reduceAdd Host.rsqrt Host.divf concatenate extractStridedSlice shapeCast broadcastInDim iotaInDim in
set_option maxRecDepth 16384 in
set_option maxHeartbeats 4000000 in
/-- The second stretch at %53: the rectifier of what %48 holds. -/
theorem B_v53 (V : Valuation τ sig (Elt F)) :
    after opsB V (main_v53 : DevRef τ sig) = RefTerm.reluOf (V (main_v48 : DevRef τ sig)) := by
  after_results_simp
  rfl

attribute [local irreducible] Host.scatterAdd Host.gather Host.reduceAdd Host.rsqrt Host.divf concatenate extractStridedSlice shapeCast broadcastInDim iotaInDim in
set_option maxRecDepth 16384 in
set_option maxHeartbeats 40000000 in
/-- The third stretch at %72: the normalisation of what %53 holds, with the two vectors. -/
theorem C_v72 (V : Valuation τ sig (Elt F)) :
    after opsC V (main_v72 : DevRef τ sig)
      = RefTerm.normOf (V (main_v53 : DevRef τ sig)) (V (main_arg4 : DevRef τ sig)) (V (main_arg5 : DevRef τ sig)) := by
  after_results_simp
  rfl

/-! ### The argument buffers: no operation writes them -/

set_option maxRecDepth 16384 in
set_option maxHeartbeats 4000000 in
theorem A_arg0 (V : Valuation τ sig (Elt F)) :
    after opsA V (main_arg0 : DevRef τ sig) = V (main_arg0 : DevRef τ sig) := by
  after_results_simp
set_option maxRecDepth 16384 in
set_option maxHeartbeats 4000000 in
theorem A_arg1 (V : Valuation τ sig (Elt F)) :
    after opsA V (main_arg1 : DevRef τ sig) = V (main_arg1 : DevRef τ sig) := by
  after_results_simp
set_option maxRecDepth 16384 in
set_option maxHeartbeats 4000000 in
theorem A_arg2 (V : Valuation τ sig (Elt F)) :
    after opsA V (main_arg2 : DevRef τ sig) = V (main_arg2 : DevRef τ sig) := by
  after_results_simp
set_option maxRecDepth 16384 in
set_option maxHeartbeats 4000000 in
theorem A_arg3 (V : Valuation τ sig (Elt F)) :
    after opsA V (main_arg3 : DevRef τ sig) = V (main_arg3 : DevRef τ sig) := by
  after_results_simp
set_option maxRecDepth 16384 in
set_option maxHeartbeats 4000000 in
theorem A_arg4 (V : Valuation τ sig (Elt F)) :
    after opsA V (main_arg4 : DevRef τ sig) = V (main_arg4 : DevRef τ sig) := by
  after_results_simp
set_option maxRecDepth 16384 in
set_option maxHeartbeats 4000000 in
theorem A_arg5 (V : Valuation τ sig (Elt F)) :
    after opsA V (main_arg5 : DevRef τ sig) = V (main_arg5 : DevRef τ sig) := by
  after_results_simp

set_option maxRecDepth 16384 in
set_option maxHeartbeats 4000000 in
theorem B_arg0 (V : Valuation τ sig (Elt F)) :
    after opsB V (main_arg0 : DevRef τ sig) = V (main_arg0 : DevRef τ sig) := by
  after_results_simp
set_option maxRecDepth 16384 in
set_option maxHeartbeats 4000000 in
theorem B_arg1 (V : Valuation τ sig (Elt F)) :
    after opsB V (main_arg1 : DevRef τ sig) = V (main_arg1 : DevRef τ sig) := by
  after_results_simp
set_option maxRecDepth 16384 in
set_option maxHeartbeats 4000000 in
theorem B_arg2 (V : Valuation τ sig (Elt F)) :
    after opsB V (main_arg2 : DevRef τ sig) = V (main_arg2 : DevRef τ sig) := by
  after_results_simp
set_option maxRecDepth 16384 in
set_option maxHeartbeats 4000000 in
theorem B_arg3 (V : Valuation τ sig (Elt F)) :
    after opsB V (main_arg3 : DevRef τ sig) = V (main_arg3 : DevRef τ sig) := by
  after_results_simp
set_option maxRecDepth 16384 in
set_option maxHeartbeats 4000000 in
theorem B_arg4 (V : Valuation τ sig (Elt F)) :
    after opsB V (main_arg4 : DevRef τ sig) = V (main_arg4 : DevRef τ sig) := by
  after_results_simp
set_option maxRecDepth 16384 in
set_option maxHeartbeats 4000000 in
theorem B_arg5 (V : Valuation τ sig (Elt F)) :
    after opsB V (main_arg5 : DevRef τ sig) = V (main_arg5 : DevRef τ sig) := by
  after_results_simp

set_option maxRecDepth 16384 in
set_option maxHeartbeats 4000000 in
theorem C_arg0 (V : Valuation τ sig (Elt F)) :
    after opsC V (main_arg0 : DevRef τ sig) = V (main_arg0 : DevRef τ sig) := by
  after_results_simp
set_option maxRecDepth 16384 in
set_option maxHeartbeats 4000000 in
theorem C_arg1 (V : Valuation τ sig (Elt F)) :
    after opsC V (main_arg1 : DevRef τ sig) = V (main_arg1 : DevRef τ sig) := by
  after_results_simp
set_option maxRecDepth 16384 in
set_option maxHeartbeats 4000000 in
theorem C_arg2 (V : Valuation τ sig (Elt F)) :
    after opsC V (main_arg2 : DevRef τ sig) = V (main_arg2 : DevRef τ sig) := by
  after_results_simp
set_option maxRecDepth 16384 in
set_option maxHeartbeats 4000000 in
theorem C_arg3 (V : Valuation τ sig (Elt F)) :
    after opsC V (main_arg3 : DevRef τ sig) = V (main_arg3 : DevRef τ sig) := by
  after_results_simp
set_option maxRecDepth 16384 in
set_option maxHeartbeats 4000000 in
theorem C_arg4 (V : Valuation τ sig (Elt F)) :
    after opsC V (main_arg4 : DevRef τ sig) = V (main_arg4 : DevRef τ sig) := by
  after_results_simp
set_option maxRecDepth 16384 in
set_option maxHeartbeats 4000000 in
theorem C_arg5 (V : Valuation τ sig (Elt F)) :
    after opsC V (main_arg5 : DevRef τ sig) = V (main_arg5 : DevRef τ sig) := by
  after_results_simp

theorem keep_arg0 (V : Valuation τ sig (Elt F)) :
    after ops V (main_arg0 : DevRef τ sig) = V (main_arg0 : DevRef τ sig) := by
  rw [after_app, after_app, C_arg0, B_arg0, A_arg0]
theorem keep_arg1 (V : Valuation τ sig (Elt F)) :
    after ops V (main_arg1 : DevRef τ sig) = V (main_arg1 : DevRef τ sig) := by
  rw [after_app, after_app, C_arg1, B_arg1, A_arg1]
theorem keep_arg2 (V : Valuation τ sig (Elt F)) :
    after ops V (main_arg2 : DevRef τ sig) = V (main_arg2 : DevRef τ sig) := by
  rw [after_app, after_app, C_arg2, B_arg2, A_arg2]
theorem keep_arg3 (V : Valuation τ sig (Elt F)) :
    after ops V (main_arg3 : DevRef τ sig) = V (main_arg3 : DevRef τ sig) := by
  rw [after_app, after_app, C_arg3, B_arg3, A_arg3]
theorem keep_arg4 (V : Valuation τ sig (Elt F)) :
    after ops V (main_arg4 : DevRef τ sig) = V (main_arg4 : DevRef τ sig) := by
  rw [after_app, after_app, C_arg4, B_arg4, A_arg4]
theorem keep_arg5 (V : Valuation τ sig (Elt F)) :
    after ops V (main_arg5 : DevRef τ sig) = V (main_arg5 : DevRef τ sig) := by
  rw [after_app, after_app, C_arg5, B_arg5, A_arg5]

/-- The fold at the result buffer is the composed term of the arguments: the three stretches in turn. -/
theorem fold_out (V : Valuation τ sig (Elt F)) :
    after ops V (main_v72 : DevRef τ sig)
      = RefTerm.out (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  rw [RefTerm.out, after_app, after_app, C_v72, B_v53, A_v48, B_arg4, B_arg5, A_arg4, A_arg5]

end Cert.ReferenceIdeal.RVal.Run

namespace Cert.ReferenceIdeal.RVal

open Cert.ReferenceIdeal Cert.ReferenceIdeal.RVal.Run Idealize.ShloMosaic Idealize.ShloMosaic.TcCoe Idealize.SL.Sem Idealize.ShloMosaic.StableHlo

variable [Facts]

/-- On every device, for any float values, from any memory with zero counters: every weakly fair execution of
    the reference program terminates with its result buffer at the composed term of the six argument buffers'
    launch contents, and the six argument buffers as they were. -/
theorem run_term {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v72)
        = RefTerm.out (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v72).trans (fold_out _), (h c main_arg0).trans (keep_arg0 _),
      (h c main_arg1).trans (keep_arg1 _), (h c main_arg2).trans (keep_arg2 _), (h c main_arg3).trans (keep_arg3 _),
      (h c main_arg4).trans (keep_arg4 _), (h c main_arg5).trans (keep_arg5 _)⟩)
    (run_seq scopedRefs_eq scopedSems_eq defs main (fun _ => ops) main_eq (fun _ => ops_sub) m ρ (fun _ => ops_fresh))

end Cert.ReferenceIdeal.RVal

end
-- ==== Proof.RefReadLayout.lean ====
/-
  The reference's broadcasts read at an index, over literal shapes: a vector [b] placed as the one row of [1, b],
  that row repeated down [a, b]; a vector [a] placed as the one column of [a, 1], that column repeated across
  [a, b]. Each reads the operand at the coordinates the target index keeps.
  Also: a select whose condition is a comparison of two extended reals is the `if` on their order.
-/
import Idealize.ShloMosaic.Lib.ValueIdx
import Idealize.ShloMosaic.Lib.IdealHost
import Idealize.ShloMosaic.Lib.Pipeline.Value

namespace Cert.ReferenceIdeal.RVal

open Idealize.ShloMosaic Idealize.ShloMosaic.ValueIdx

variable {α : Type}

/-- A vector [b] as the row of [1, b] reads, at (0, k), its entry k. -/
theorem bcast_row_apply {b : ℕ} (v : (⟨1, ![b]⟩ : Shape).Idx → α)
    (h : (⟨1, ![b]⟩ : Shape).BroadcastsInDim ⟨2, ![1, b]⟩ ![1]) (z : Fin 1) (k : Fin b) :
    broadcastInDim ⟨2, ![1, b]⟩ ![1] h v (ix2 z k) = v (ix1 k) := by
  refine broadcastInDim_apply _ h v (ix2 z k) (ix1 k) fun ax => ?_
  match ax with
  | ⟨0, _⟩ =>
    show k.val = if b = 1 then 0 else k.val
    split
    · have := k.isLt; omega
    · rfl

/-- A row [1, b] repeated down [a, b] reads, at (n, k), the row's entry k. -/
theorem bcast_rows_apply {a b : ℕ} (v : (⟨2, ![1, b]⟩ : Shape).Idx → α)
    (h : (⟨2, ![1, b]⟩ : Shape).BroadcastsInDim ⟨2, ![a, b]⟩ ![0, 1]) (n : Fin a) (k : Fin b) :
    broadcastInDim ⟨2, ![a, b]⟩ ![0, 1] h v (ix2 n k) = v (ix2 (0 : Fin 1) k) := by
  refine broadcastInDim_apply _ h v (ix2 n k) (ix2 (0 : Fin 1) k) fun ax => ?_
  match ax with
  | ⟨0, _⟩ => rfl
  | ⟨1, _⟩ =>
    show k.val = if b = 1 then 0 else k.val
    split
    · have := k.isLt; omega
    · rfl

/-- A vector [a] as the column of [a, 1] reads, at (u, 0), its entry u. -/
theorem bcast_col_apply {a : ℕ} (v : (⟨1, ![a]⟩ : Shape).Idx → α)
    (h : (⟨1, ![a]⟩ : Shape).BroadcastsInDim ⟨2, ![a, 1]⟩ ![0]) (u : Fin a) (z : Fin 1) :
    broadcastInDim ⟨2, ![a, 1]⟩ ![0] h v (ix2 u z) = v (ix1 u) := by
  refine broadcastInDim_apply _ h v (ix2 u z) (ix1 u) fun ax => ?_
  match ax with
  | ⟨0, _⟩ =>
    show u.val = if a = 1 then 0 else u.val
    split
    · have := u.isLt; omega
    · rfl

/-- A column [a, 1] repeated across [a, b] reads, at (u, c), the column's entry of row u. -/
theorem bcast_cols_apply {a b : ℕ} (v : (⟨2, ![a, 1]⟩ : Shape).Idx → α)
    (h : (⟨2, ![a, 1]⟩ : Shape).BroadcastsInDim ⟨2, ![a, b]⟩ ![0, 1]) (u : Fin a) (c : Fin b) :
    broadcastInDim ⟨2, ![a, b]⟩ ![0, 1] h v (ix2 u c) = v (ix2 u (0 : Fin 1)) := by
  refine broadcastInDim_apply _ h v (ix2 u c) (ix2 u (0 : Fin 1)) fun ax => ?_
  match ax with
  | ⟨0, _⟩ =>
    show u.val = if a = 1 then 0 else u.val
    split
    · have := u.isLt; omega
    · rfl
  | ⟨1, _⟩ => rfl

/-- A select on "a ≥ b" of extended reals is the `if` on the order. -/
theorem select_cmp_oge (a b : EReal) (x y : α) :
    Scalar.select (Ideal.cmp .oge a b) x y = if b ≤ a then x else y := by
  unfold Ideal.cmp Scalar.select
  by_cases h : b ≤ a <;> simp [h]

/-- A select on "a > b" of extended reals is the `if` on the strict order. -/
theorem select_cmp_ogt (a b : EReal) (x y : α) :
    Scalar.select (Ideal.cmp .ogt a b) x y = if b < a then x else y := by
  unfold Ideal.cmp Scalar.select
  by_cases h : b < a <;> simp [h]

end Cert.ReferenceIdeal.RVal
-- ==== Proof.RefReadDis.lean ====
/-
  The reference's edge lists with the self loops, its degree vector's inverse square root, and its wrap of
  negative gather indices, each read at an index.

  An edge row of the [2, E] index array, sliced and flattened, holds at e the array's entry (row, e). Followed by
  the iota 0 … N-1 it holds, at u, the edge word for u < E and the word u - E after. The scatter-add of ones over
  these E + N destination words counts, at row r, the words that read r as signed integers; the inverse square
  root of max(count, 1) is selected where the count is positive, zero elsewhere.
-/
import proofs.«147240_j47321949667549_2_alg».proof.Proof.RefTerm
import proofs.«147240_j47321949667549_2_alg».proof.Proof.Spec
import proofs.«147240_j47321949667549_2_alg».proof.Proof.LibScatterAdd
import proofs.«147240_j47321949667549_2_alg».proof.Proof.RefReadLayout
import Idealize.ShloMosaic.Lib.IdealHost
import Idealize.ShloMosaic.Lib.Pipeline.Value

noncomputable section
open scoped BigOperators
namespace Cert.ReferenceIdeal.RVal
open Cert.ReferenceIdeal Cert.Spec Idealize.ShloMosaic Idealize.ShloMosaic.TcCoe Idealize.ShloMosaic.ValueIdx

variable [Facts]
open Facts₀ Facts

/-- The flattened first edge row at e is the array's entry (0, e). -/
theorem srcRow_apply (ei : IVec S2x640000 32) (e : Fin 640000) :
    shapeCast S640000 (extractStridedSlice S1x640000 ![0, 0] ei slices_S2x640000_S1x640000_0_0)
      shapeCasts_S1x640000_S640000 (ix1 e) = srcOf ei e := by
  refine (shapeCast_apply _ shapeCasts_S1x640000_S640000 (ix1 e) (ix2 (0 : Fin 1) e) ?_).trans ?_
  · rw [Shape.rowMajor_val_two, Shape.rowMajor_val_one]
    show 0 * 640000 + e.val = e.val
    omega
  · refine extractStridedSlice_apply _ ei slices_S2x640000_S1x640000_0_0 (ix2 (0 : Fin 1) e) (ix2 (0 : Fin 2) e) fun a => ?_
    match a with
    | ⟨0, _⟩ => rfl
    | ⟨1, _⟩ => show e.val = 0 + e.val; omega

/-- The flattened second edge row at e is the array's entry (1, e). -/
theorem dstRow_apply (ei : IVec S2x640000 32) (e : Fin 640000) :
    shapeCast S640000 (extractStridedSlice S1x640000 ![1, 0] ei slices_S2x640000_S1x640000_1_0)
      shapeCasts_S1x640000_S640000 (ix1 e) = dstOf ei e := by
  refine (shapeCast_apply _ shapeCasts_S1x640000_S640000 (ix1 e) (ix2 (0 : Fin 1) e) ?_).trans ?_
  · rw [Shape.rowMajor_val_two, Shape.rowMajor_val_one]
    show 0 * 640000 + e.val = e.val
    omega
  · refine extractStridedSlice_apply _ ei slices_S2x640000_S1x640000_1_0 (ix2 (0 : Fin 1) e) (ix2 (1 : Fin 2) e) fun a => ?_
    match a with
    | ⟨0, _⟩ => rfl
    | ⟨1, _⟩ => show e.val = 0 + e.val; omega

/-- A list of E words followed by the iota of length N, at u: the word u for u < E, the number u - E after. -/
theorem loops_apply (a : IVec S640000 32) (u : Fin 690000) :
    concatenate S690000 0 [⟨S640000, a⟩, ⟨S50000, iotaInDim S50000 32 0⟩] concatenates_S640000_S50000_S690000_d0 (ix1 u)
      = withLoops (fn1 a) u := by
  unfold withLoops
  by_cases h : u.val < 640000
  · rw [dif_pos h]
    refine concatenate_pair_apply_left (0 : Fin S690000.rank) a _ concatenates_S640000_S50000_S690000_d0 (ix1 u) rfl
      (ix1 (⟨u.val, h⟩ : Fin 640000)) fun b => ?_
    match b with
    | ⟨0, _⟩ => rfl
  · rw [dif_neg h]
    have hu := u.isLt
    refine (concatenate_pair_apply_right (0 : Fin S690000.rank) a (iotaInDim S50000 32 0) concatenates_S640000_S50000_S690000_d0
      (ix1 u) rfl rfl (ix1 (⟨u.val - 640000, by omega⟩ : Fin 50000)) (fun b => ?_) ?_).trans ?_
    · match b with
      | ⟨0, _⟩ => exact fun hb => absurd rfl hb
    · show u.val - 640000 + 640000 = u.val
      omega
    · rfl

/-- The source words with the self loops. -/
theorem srcLoops_apply (ei : IVec S2x640000 32) (u : Fin 690000) :
    concatenate S690000 0 [⟨S640000, shapeCast S640000 (extractStridedSlice S1x640000 ![0, 0] ei slices_S2x640000_S1x640000_0_0)
        shapeCasts_S1x640000_S640000⟩, ⟨S50000, iotaInDim S50000 32 0⟩] concatenates_S640000_S50000_S690000_d0 (ix1 u)
      = withLoops (srcOf ei) u := by
  rw [loops_apply]
  exact congrArg (fun f => withLoops f u) (funext fun e => srcRow_apply ei e)

/-- The destination words with the self loops. -/
theorem dstLoops_apply (ei : IVec S2x640000 32) (u : Fin 690000) :
    concatenate S690000 0 [⟨S640000, shapeCast S640000 (extractStridedSlice S1x640000 ![1, 0] ei slices_S2x640000_S1x640000_1_0)
        shapeCasts_S1x640000_S640000⟩, ⟨S50000, iotaInDim S50000 32 0⟩] concatenates_S640000_S50000_S690000_d0 (ix1 u)
      = withLoops (dstOf ei) u := by
  rw [loops_apply]
  exact congrArg (fun f => withLoops f u) (funext fun e => dstRow_apply ei e)

/-- The scatter-add of ones over a vector of index words, into zeros, at row r: the number of words that read r. -/
theorem countOf_apply (v : IVec S690000 32) (r : Fin 50000) :
    Host.scatterAdd (F := Ideal) scatter_S50000_S690000x1_S690000_n_0_0_1
        (broadcastInDim S50000 ![] bcast_S_S50000 (constant (F := Ideal) S_ .f32 0x00000000#32))
        (broadcastInDim S690000x1 ![0] bcast_S690000_S690000x1_0 v)
        (broadcastInDim S690000 ![] bcast_S_S690000 (constant (F := Ideal) S_ .f32 0x3F800000#32)) (ix1 r)
      = ∑ u : Fin 690000, if hit (v (ix1 u)) r then (1 : EReal) else 0 := by
  refine (Host.scatterAdd_elts_apply scatter_S50000_S690000x1_S690000_n_0_0_1 rfl rfl rfl rfl _ _ _ r).trans ?_
  rw [broadcastInDim_scalar_apply, constant_apply, ofBits_zero, zero_add]
  refine Finset.sum_congr rfl fun u _ => ?_
  rw [bcast_col_apply, broadcastInDim_scalar_apply, constant_apply, ofBits_one]
  by_cases h : (v (ix1 u)).toInt = (r.val : ℤ)
  · rw [if_pos h, if_pos (show hit (v (ix1 u)) r from h)]
  · rw [if_neg h, if_neg (show ¬ hit (v (ix1 u)) r from h)]

/-- From a degree vector to its inverse square root: selected where the degree is positive, zero elsewhere. -/
theorem disTail_apply (deg : FVec Ideal S50000 .f32) (r : Fin 50000) :
    (select (cmpf .ogt deg (broadcastInDim S50000 ![] bcast_S_S50000 (constant (F := Ideal) S_ .f32 0x00000000#32)))
        (Host.rsqrt (F := Ideal) (maximumf deg (broadcastInDim S50000 ![] bcast_S_S50000 (constant (F := Ideal) S_ .f32 0x3F800000#32))))
        (broadcastInDim S50000 ![] bcast_S_S50000 (id (constant (F := Ideal) S_ .f32 0x00000000#32))) : FVec Ideal S50000 .f32) (ix1 r)
      = if 0 < deg (ix1 r) then Ideal.rsqrt (max (deg (ix1 r)) 1) else 0 := by
  rw [select_apply, cmpf_apply, broadcastInDim_scalar_apply, constant_apply, Ideal.cmpf_def, select_cmp_ogt, ofBits_zero]
  show (if 0 < deg (ix1 r) then Ideal.rsqrt (max (deg (ix1 r)) (Ideal.ofBits .f32 0x3F800000#32))
    else Ideal.ofBits .f32 0x00000000#32) = _
  rw [ofBits_one, ofBits_zero]

/-- The degree vector's inverse square root at row r. -/
theorem disOf_apply (ei : IVec S2x640000 32) (r : Fin 50000) :
    RefTerm.disOf (F := Ideal) ei (ix1 r) = rdis (dstOf ei) r := by
  have hdeg := countOf_apply
    (concatenate S690000 0 [⟨S640000, shapeCast S640000 (extractStridedSlice S1x640000 ![1, 0] ei slices_S2x640000_S1x640000_1_0)
        shapeCasts_S1x640000_S640000⟩, ⟨S50000, iotaInDim S50000 32 0⟩] concatenates_S640000_S50000_S690000_d0) r
  simp only [dstLoops_apply] at hdeg
  dsimp only [RefTerm.disOf]
  rw [disTail_apply, hdeg]
  rfl

/-- The wrap of negative index words, as a column, at (u, 0). -/
theorem wrapCol_apply (v : IVec S690000 32) (u : Fin 690000) :
    RefTerm.wrapCol v (ix2 u (0 : Fin 1)) = nrm (v (ix1 u)) := by
  dsimp only [RefTerm.wrapCol]
  rw [bcast_col_apply, select_apply]
  show Scalar.select (IntOp.cmpi .slt (v (ix1 u)) 0#32) (IntOp.addi (v (ix1 u)) 50000#32) (v (ix1 u)) = _
  unfold nrm Scalar.select IntOp.cmpi IntOp.addi
  cases h : (v (ix1 u)).slt 0#32 <;> simp [h]

end Cert.ReferenceIdeal.RVal
end
-- ==== Proof.RefReadAgg.lean ====
/-
  The reference's aggregation read at an index. The dense product at (n, k) is the sum over the 128 inner
  coordinates. A gather through the wrapped index column reads the row the index word names once wrapped and
  clamped. Each of the E + N edges carries the product row of its source scaled by the two inverse square roots
  of its ends; the row scatter-add sums, at row r, the edges whose destination word reads r; the bias is added.
-/
import proofs.«147240_j47321949667549_2_alg».proof.Proof.RefTerm
import proofs.«147240_j47321949667549_2_alg».proof.Proof.Spec
import proofs.«147240_j47321949667549_2_alg».proof.Proof.LibScatterAdd
import proofs.«147240_j47321949667549_2_alg».proof.Proof.LibGather
import proofs.«147240_j47321949667549_2_alg».proof.Proof.RefReadLayout
import proofs.«147240_j47321949667549_2_alg».proof.Proof.RefReadDis

noncomputable section
open scoped BigOperators
namespace Cert.ReferenceIdeal.RVal
open Cert.ReferenceIdeal Cert.Spec Idealize.ShloMosaic Idealize.ShloMosaic.TcCoe Idealize.ShloMosaic.ValueIdx

variable [Facts]
open Facts₀ Facts

/-- The dense product at (n, k). -/
theorem dot_apply (x : FVec Ideal S50000x128 .f32) (W : FVec Ideal S128x128 .f32) (n : Fin 50000) (k : Fin 128) :
    Host.dotGeneral (F := Ideal) dot_S50000x128_S128x128_S50000x128_1_0_0_1_n_n none x W (ix2 n k)
      = xw (fn2 x) (fn2 W) n k := by
  have hr : (dot_S50000x128_S128x128_S50000x128_1_0_0_1_n_n).contr.rank = 1 := rfl
  have hs : (dot_S50000x128_S128x128_S50000x128_1_0_0_1_n_n).contr.size ⟨0, by omega⟩ = 128 := rfl
  refine (Ideal.dotGeneral_apply dot_S50000x128_S128x128_S50000x128_1_0_0_1_n_n none .single x W (ix2 n k)).trans ?_
  rw [← Equiv.sum_comp (contrEquiv1 dot_S50000x128_S128x128_S50000x128_1_0_0_1_n_n 128 hr hs).symm]
  unfold xw
  refine Finset.sum_congr rfl fun j _ => ?_
  have hl : (dot_S50000x128_S128x128_S50000x128_1_0_0_1_n_n).lhsIdx (ix2 n k)
      ((contrEquiv1 dot_S50000x128_S128x128_S50000x128_1_0_0_1_n_n 128 hr hs).symm j) = ix2 n j := by
    funext a
    refine Fin.ext ?_
    match a with
    | ⟨0, _⟩ => rfl
    | ⟨1, _⟩ =>
      exact ((dot_S50000x128_S128x128_S50000x128_1_0_0_1_n_n).lhsIdx_val_of_single (cl := (1 : Fin 2)) rfl _ _).trans
        (contrEquiv1_symm_val _ 128 hr hs j)
  have hrr : (dot_S50000x128_S128x128_S50000x128_1_0_0_1_n_n).rhsIdx (ix2 n k)
      ((contrEquiv1 dot_S50000x128_S128x128_S50000x128_1_0_0_1_n_n 128 hr hs).symm j) = ix2 j k := by
    funext a
    refine Fin.ext ?_
    match a with
    | ⟨0, _⟩ =>
      exact ((dot_S50000x128_S128x128_S50000x128_1_0_0_1_n_n).rhsIdx_val_of_single (cr := (0 : Fin 2)) rfl _ _).trans
        (contrEquiv1_symm_val _ 128 hr hs j)
    | ⟨1, _⟩ => rfl
  rw [hl, hrr]
  rfl

/-- An element gather through the wrapped index column, at u: the operand at the row the word names. -/
theorem gatherElt_apply {α : Type} (t : S50000.Idx → α) (v : IVec S690000 32) (u : Fin 690000) :
    Host.gather gather_S50000_S690000x1_S690000_n_0_n_n_0_1_1 t (RefTerm.wrapCol v) (ix1 u)
      = t (ix1 (gix (v (ix1 u)))) := by
  refine (Host.gather_elts_apply (by decide) gather_S50000_S690000x1_S690000_n_0_n_n_0_1_1 rfl rfl rfl rfl rfl rfl rfl
    t (RefTerm.wrapCol v) u).trans ?_
  refine congrArg (fun p : Fin 50000 => t (ix1 p)) (Fin.ext ?_)
  show min ((RefTerm.wrapCol v) (ix2 u (0 : Fin 1))).toInt.toNat (50000 - 1) = min (nrm (v (ix1 u))).toInt.toNat 49999
  rw [wrapCol_apply]

/-- A row gather through the wrapped index column, at (u, c): the operand's row the word names, column c. -/
theorem gatherRow_apply {α : Type} (t : S50000x128.Idx → α) (v : IVec S690000 32) (u : Fin 690000) (c : Fin 128) :
    Host.gather gather_S50000x128_S690000x1_S690000x128_1_0_n_n_0_1_1128 t (RefTerm.wrapCol v) (ix2 u c)
      = t (ix2 (gix (v (ix1 u))) c) := by
  refine (Host.gather_rows_apply (by decide) gather_S50000x128_S690000x1_S690000x128_1_0_n_n_0_1_1128 rfl rfl rfl rfl rfl rfl rfl
    t (RefTerm.wrapCol v) u c).trans ?_
  refine congrArg (fun p : Fin 50000 => t (ix2 p c)) (Fin.ext ?_)
  show min ((RefTerm.wrapCol v) (ix2 u (0 : Fin 1))).toInt.toNat (50000 - 1) = min (nrm (v (ix1 u))).toInt.toNat 49999
  rw [wrapCol_apply]

/-- The aggregated messages plus the bias at (r, k). -/
theorem aggOf_apply (x : FVec Ideal S50000x128 .f32) (ei : IVec S2x640000 32) (W : FVec Ideal S128x128 .f32)
    (b : FVec Ideal S128 .f32) (r : Fin 50000) (k : Fin 128) :
    RefTerm.aggOf (F := Ideal) x ei W b (ix2 r k)
      = ragg (fn2 x) (fn2 W) (srcOf ei) (dstOf ei) (fn1 b) r k := by
  dsimp only [RefTerm.aggOf]
  rw [addf_apply, bcast_rows_apply, bcast_row_apply]
  unfold ragg
  refine congrArg (fun s => s + b (ix1 k)) ?_
  refine (Host.scatterAdd_rows_apply scatter_S50000x128_S690000x1_S690000x128_1_0_0_1 rfl rfl rfl rfl _ _ _ r k).trans ?_
  rw [broadcastInDim_scalar_apply, constant_apply, ofBits_zero, zero_add]
  refine Finset.sum_congr rfl fun u _ => ?_
  rw [bcast_col_apply, dstLoops_apply]
  by_cases h : (withLoops (dstOf ei) u).toInt = (r.val : ℤ)
  · rw [if_pos h, if_pos (show hit (withLoops (dstOf ei) u) r from h)]
    rw [mulf_apply, gatherRow_apply, dot_apply, bcast_cols_apply, bcast_col_apply, mulf_apply, gatherElt_apply,
      gatherElt_apply, srcLoops_apply, dstLoops_apply, disOf_apply, disOf_apply]
    rfl
  · rw [if_neg h, if_neg (show ¬ hit (withLoops (dstOf ei) u) r from h)]

end Cert.ReferenceIdeal.RVal
end
-- ==== Proof.RefReadNorm.lean ====
/-
  The reference's rectifier, column means, column variances and normalisation, each read at an index.
  A comparison of extended reals selects by the order; a column sum is the sum over the 50000 rows; the
  variance function, called with the correction 0, divides the sum of squared deviations by 50000 - 0 = 50000,
  which is positive, so its guard takes the quotient.
-/
import proofs.«147240_j47321949667549_2_alg».proof.Proof.RefTerm
import proofs.«147240_j47321949667549_2_alg».proof.Proof.Spec
import proofs.«147240_j47321949667549_2_alg».proof.Proof.RefReadLayout
import Idealize.ShloMosaic.Lib.IdealHost

noncomputable section
open scoped BigOperators
namespace Cert.ReferenceIdeal.RVal
open Cert.ReferenceIdeal Cert.Spec Idealize.ShloMosaic Idealize.ShloMosaic.TcCoe Idealize.ShloMosaic.ValueIdx

variable [Facts]
open Facts₀ Facts

/-- The rectifier at (n, k): the leaky rectifier of the entry. -/
theorem reluOf_apply (v : FVec Ideal S50000x128 .f32) (n : Fin 50000) (k : Fin 128) :
    RefTerm.reluOf (F := Ideal) v (ix2 n k) = lrelu (v (ix2 n k)) := by
  dsimp only [RefTerm.reluOf]
  rw [select_apply, cmpf_apply, mulf_apply, broadcastInDim_scalar_apply, broadcastInDim_scalar_apply,
    constant_apply, constant_apply, Ideal.cmpf_def, select_cmp_oge, ofBits_zero]
  rfl

/-- The sum over the rows of column k. -/
theorem colsum_apply (v : FVec Ideal S50000x128 .f32) (k : Fin 128) :
    Host.reduceAdd (F := Ideal) v (constant (F := Ideal) S_ .f32 0x00000000#32) reducesTo_S50000x128_S128_d0 h_S_ (ix1 k)
      = ∑ n : Fin 50000, v (ix2 n k) := by
  have hR : Shape.Reduces S50000x128 [0] S128 := by decide
  rw [hostReduceAdd_apply, constant_apply, ofBits_zero]
  refine (Ideal.hostReduceAdd_single reducesTo_S50000x128_S128_d0 hR v 0 (ix1 k)).trans ?_
  rw [zero_add]
  show ∑ n : Fin 50000, v (hR.lift (ix1 k) n) = _
  refine Finset.sum_congr rfl fun n _ => congrArg v ?_
  funext a
  refine Fin.ext ?_
  match a with
  | ⟨0, _⟩ => rfl
  | ⟨1, _⟩ => rfl

/-- The mean of column k. -/
theorem meanOf_apply (v : FVec Ideal S50000x128 .f32) (k : Fin 128) :
    RefTerm.meanOf (F := Ideal) v (ix1 k) = mean (fn2 v) k := by
  dsimp only [RefTerm.meanOf]
  rw [hostDivf_apply, colsum_apply, broadcastInDim_scalar_apply, constant_apply, ofBits_50000]
  rfl

/-- The variance of column k, with the correction 0. -/
theorem varOf_apply (v : FVec Ideal S50000x128 .f32) (k : Fin 128) :
    RefTerm.varOf (F := Ideal) v (constantI S_ 32 0#32) (ix1 k) = rvar (fn2 v) k := by
  have hc8 : (subf (constant (F := Ideal) S_ .f32 0x47435000#32) (sitofp .f32 (constantI S_ 32 0#32)) : FVec Ideal S_ .f32) ix0
      = ((50000 : ℝ) : EReal) := by
    rw [subf_apply, constant_apply, ofBits_50000, sitofp_apply]
    show ((50000 : ℝ) : EReal) - (((0#32 : BitVec 32).toInt : ℝ) : EReal) = _
    simp
  have hdev : ∀ n : Fin 50000,
      (subf v (broadcastInDim S50000x128 ![0, 1] bcast_S1x128_S50000x128_0_1
        (Host.divf (F := Ideal) (broadcastInDim S1x128 ![1] bcast_S128_S1x128_1
            (Host.reduceAdd (F := Ideal) v (constant (F := Ideal) S_ .f32 0x00000000#32) reducesTo_S50000x128_S128_d0 h_S_))
          (broadcastInDim S1x128 ![] bcast_S_S1x128 (constant (F := Ideal) S_ .f32 0x47435000#32)))) : FVec Ideal S50000x128 .f32) (ix2 n k)
      = fn2 v n k - mean (fn2 v) k := by
    intro n
    rw [subf_apply, bcast_rows_apply, hostDivf_apply, bcast_row_apply, colsum_apply, broadcastInDim_scalar_apply,
      constant_apply, ofBits_50000]
    rfl
  dsimp only [RefTerm.varOf]
  rw [select_apply, broadcastInDim_scalar_apply, cmpf_apply, hc8, constant_apply, Ideal.cmpf_def, select_cmp_ogt,
    ofBits_zero, if_pos (by exact_mod_cast (by norm_num : (0 : ℝ) < 50000)), hostDivf_apply, colsum_apply,
    broadcastInDim_scalar_apply, hc8]
  unfold rvar
  refine congrArg (fun s => Ideal.div s ((50000 : ℝ) : EReal)) ?_
  refine Finset.sum_congr rfl fun n _ => ?_
  rw [mulf_apply, hdev]

/-- The normalisation at (n, k). -/
theorem normOf_apply (v : FVec Ideal S50000x128 .f32) (ga be : FVec Ideal S128 .f32) (n : Fin 50000) (k : Fin 128) :
    RefTerm.normOf (F := Ideal) v ga be (ix2 n k)
      = bn (fn1 ga) (fn1 be) (fn2 v) (mean (fn2 v)) (rvar (fn2 v)) n k := by
  dsimp only [RefTerm.normOf]
  rw [addf_apply, mulf_apply, mulf_apply, subf_apply, bcast_rows_apply, bcast_rows_apply, bcast_rows_apply, bcast_rows_apply,
    bcast_row_apply, bcast_row_apply, bcast_row_apply, bcast_row_apply, meanOf_apply]
  show ga (ix1 k) * (v (ix2 n k) - mean (fn2 v) k)
      * Ideal.rsqrt (RefTerm.varOf (F := Ideal) v (constantI S_ 32 0#32) (ix1 k)
        + (broadcastInDim S128 ![] bcast_S_S128 (constant (F := Ideal) S_ .f32 0x3727C5AC#32) : FVec Ideal S128 .f32) (ix1 k))
      + be (ix1 k) = _
  rw [varOf_apply, broadcastInDim_scalar_apply, constant_apply]
  rfl

end Cert.ReferenceIdeal.RVal
end
-- ==== Proof.RefRead.lean ====
/-
  The reference's composed term, at the ideal values, is the specification's reference side: the aggregation
  read at an index, through the rectifier, through the normalisation with the rectified array's own column
  means and variances.
-/
import proofs.«147240_j47321949667549_2_alg».proof.Proof.RefTerm
import proofs.«147240_j47321949667549_2_alg».proof.Proof.Spec
import proofs.«147240_j47321949667549_2_alg».proof.Proof.RefReadAgg
import proofs.«147240_j47321949667549_2_alg».proof.Proof.RefReadNorm

noncomputable section
namespace Cert.ReferenceIdeal.RVal
open Cert.ReferenceIdeal Cert.Spec Idealize.ShloMosaic Idealize.ShloMosaic.TcCoe Idealize.ShloMosaic.ValueIdx

variable [Facts]

/-- The rectified aggregation, as a function of coordinates. -/
theorem relu_agg_eq (x : FVec Ideal S50000x128 .f32) (ei : IVec S2x640000 32) (W : FVec Ideal S128x128 .f32)
    (b : FVec Ideal S128 .f32) :
    fn2 (RefTerm.reluOf (F := Ideal) (RefTerm.aggOf (F := Ideal) x ei W b))
      = rh (fn2 x) (fn2 W) (srcOf ei) (dstOf ei) (fn1 b) := by
  funext r c
  show RefTerm.reluOf (F := Ideal) (RefTerm.aggOf (F := Ideal) x ei W b) (ix2 r c) = _
  rw [reluOf_apply, aggOf_apply]
  rfl

/-- The composed term, at the ideal values, is the specification's reference side. -/
theorem out_eq (x : FVec Ideal S50000x128 .f32) (ei : IVec S2x640000 32) (W : FVec Ideal S128x128 .f32) (b ga be : FVec Ideal S128 .f32) :
    RefTerm.out (F := Ideal) x ei W b ga be
      = arr2 (rout (fn2 x) (fn2 W) (srcOf ei) (dstOf ei) (fn1 b) (fn1 ga) (fn1 be)) := by
  refine ext2 fun n k => ?_
  rw [arr2_ix2]
  unfold RefTerm.out rout
  rw [normOf_apply, relu_agg_eq]

end Cert.ReferenceIdeal.RVal
end
-- ==== Proof.MathReal.lean ====
/-
  Finite sums of real numbers inside the extended reals, the split of a sum over the E + N edges-with-loops into
  the E edges and the N loops, the two variance formulas, and what the index words of a loop and of a landing edge read as.
-/
import proofs.«147240_j47321949667549_2_alg».proof.Proof.Spec

noncomputable section

open scoped BigOperators

namespace Cert.Spec

/-- A finite sum of real numbers, taken in the extended reals, is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A conditional real summand, in the extended reals. -/
theorem coe_ite (p : Prop) [Decidable p] (a : ℝ) : ((if p then a else 0 : ℝ) : EReal) = if p then (a : EReal) else 0 := by
  split <;> simp

/-- Edge `e`'s position among the E + N edges-with-loops. -/
def edgeIx (e : Fin 640000) : Fin 690000 := ⟨e.val, by have := e.isLt; omega⟩
/-- The position of node `n`'s loop among the E + N edges-with-loops. -/
def loopIx (n : Fin 50000) : Fin 690000 := ⟨640000 + n.val, by have := n.isLt; omega⟩

/-- A sum over the E + N edges-with-loops is the sum over the E edges plus the sum over the N loops. -/
theorem sum_split {M : Type*} [AddCommMonoid M] (f : Fin 690000 → M) :
    ∑ u : Fin 690000, f u = ∑ e : Fin 640000, f (edgeIx e) + ∑ n : Fin 50000, f (loopIx n) := by
  have h := Fin.sum_univ_add (a := 640000) (b := 50000) (fun i : Fin (640000 + 50000) => f ⟨i.val, i.isLt⟩)
  exact h

/-- The mean of the squared deviations is the mean of the squares minus the squared mean. -/
theorem var_identity {ι : Type*} [Fintype ι] (a : ι → ℝ) (n : ℝ) (hn : (Fintype.card ι : ℝ) = n) (hn0 : n ≠ 0) :
    (∑ i, (a i - (∑ j, a j) * (1 / n)) * (a i - (∑ j, a j) * (1 / n))) * (1 / n)
      = (∑ i, a i * a i) * (1 / n) - (∑ j, a j) * (1 / n) * ((∑ j, a j) * (1 / n)) := by
  set S := ∑ j, a j with hS
  have e : ∑ i, (a i - S * (1 / n)) * (a i - S * (1 / n))
      = ∑ i, a i * a i - 2 * (S * (1 / n)) * S + n * ((S * (1 / n)) * (S * (1 / n))) := by
    have : ∀ i, (a i - S * (1 / n)) * (a i - S * (1 / n))
        = a i * a i - 2 * (S * (1 / n)) * a i + (S * (1 / n)) * (S * (1 / n)) := fun i => by ring
    rw [Finset.sum_congr rfl (fun i _ => this i), Finset.sum_add_distrib, Finset.sum_sub_distrib, ← Finset.mul_sum,
      Finset.sum_const, Finset.card_univ, nsmul_eq_mul, hn]
  rw [e]
  field_simp
  ring

/-! ## Index words -/

/-- The word of a node number reads, signed, as that number. -/
theorem toInt_ofNat_node (n : Fin 50000) : (BitVec.ofNat 32 n.val).toInt = (n.val : ℤ) := by
  have hn := n.isLt
  have h1 : (BitVec.ofNat 32 n.val).toNat = n.val := by
    rw [BitVec.toNat_ofNat]; exact Nat.mod_eq_of_lt (by omega)
  rw [BitVec.toInt_eq_toNat_cond, h1]
  split <;> omega

/-- A loop's word lands on row `r` exactly when it is the loop of `r`. -/
theorem hit_ofNat (n r : Fin 50000) : hit (BitVec.ofNat 32 n.val) r ↔ n = r := by
  unfold hit
  rw [toInt_ofNat_node]
  constructor
  · intro h; exact Fin.ext (by omega)
  · rintro rfl; rfl

/-- A word that reads, signed, as the node number `r` gathers row `r`. -/
theorem gix_of_toInt (w : BitVec 32) (r : Fin 50000) (h : w.toInt = (r.val : ℤ)) : gix w = r := by
  have hr := r.isLt
  have hns : w.slt 0#32 = false := by
    rw [BitVec.slt]
    simp only [BitVec.toInt_zero]
    rw [h]
    exact decide_eq_false (by omega)
  have hn : nrm w = w := by unfold nrm; rw [hns]; rfl
  refine Fin.ext ?_
  show min (nrm w).toInt.toNat 49999 = r.val
  rw [hn, h, Int.toNat_natCast]
  omega

theorem gix_of_hit (w : BitVec 32) (r : Fin 50000) (h : hit w r) : gix w = r := gix_of_toInt w r h
theorem gix_ofNat (n : Fin 50000) : gix (BitVec.ofNat 32 n.val) = n := gix_of_toInt _ n (toInt_ofNat_node n)

theorem withLoops_edge (a : Fin 640000 → BitVec 32) (e : Fin 640000) : withLoops a (edgeIx e) = a e := by
  unfold withLoops edgeIx
  rw [dif_pos e.isLt]
theorem withLoops_loop (a : Fin 640000 → BitVec 32) (n : Fin 50000) : withLoops a (loopIx n) = BitVec.ofNat 32 n.val := by
  unfold withLoops loopIx
  rw [dif_neg (Nat.not_lt.mpr (Nat.le_add_right _ _))]
  exact congrArg (BitVec.ofNat 32) (Nat.add_sub_cancel_left ..)

end Cert.Spec

end
-- ==== Proof.MathDeg.lean ====
/-
  The degrees as real numbers. The kernel counts the edges landing on a row and adds one; the reference counts the
  edges and the self loops landing on it: the loop of the row itself is the one more. So both degrees are the same real
  number, at least one, and both inverse square roots are the same positive real.
-/
import proofs.«147240_j47321949667549_2_alg».proof.Proof.MathReal

noncomputable section

open scoped BigOperators

namespace Cert.Spec

open Idealize.ShloMosaic

variable (dst : Fin 640000 → BitVec 32)

/-- The number of edges landing on row `r`, as a real number. -/
def kdegR (r : Fin 50000) : ℝ := ∑ e : Fin 640000, if hit (dst e) r then (1 : ℝ) else 0
/-- `(that number + 1)^(-1/2)`. -/
def disR (r : Fin 50000) : ℝ := (Real.sqrt (kdegR dst r + 1))⁻¹

theorem kdegR_nonneg (r : Fin 50000) : 0 ≤ kdegR dst r :=
  Finset.sum_nonneg fun e _ => by split <;> norm_num

theorem kdeg_coe (r : Fin 50000) : kdeg dst r = ((kdegR dst r : ℝ) : EReal) := by
  unfold kdeg kdegR
  rw [coe_sum]
  refine Finset.sum_congr rfl fun e _ => ?_
  rw [coe_ite, EReal.coe_one]

/-- The loops landing on row `r` are the loop of `r` alone. -/
theorem sum_loops {M : Type*} [AddCommMonoid M] (r : Fin 50000) (f : Fin 50000 → M) :
    ∑ n : Fin 50000, (if hit (BitVec.ofNat 32 n.val) r then f n else 0) = f r := by
  rw [Finset.sum_congr rfl (fun n _ => if_congr (hit_ofNat n r) rfl rfl), Finset.sum_ite_eq' Finset.univ r f,
    if_pos (Finset.mem_univ r)]

theorem rdeg_eq (r : Fin 50000) : rdeg dst r = kdeg dst r + 1 := by
  have he : ∀ e : Fin 640000, (if hit (withLoops dst (edgeIx e)) r then (1 : EReal) else 0)
      = if hit (dst e) r then (1 : EReal) else 0 := fun e => by rw [withLoops_edge]
  have hl : ∀ n : Fin 50000, (if hit (withLoops dst (loopIx n)) r then (1 : EReal) else 0)
      = if hit (BitVec.ofNat 32 n.val) r then (1 : EReal) else 0 := fun n => by rw [withLoops_loop]
  unfold rdeg kdeg
  rw [sum_split]
  beta_reduce
  rw [Fintype.sum_congr _ _ he, Fintype.sum_congr _ _ hl, sum_loops r (fun _ => (1 : EReal))]

theorem rdeg_coe (r : Fin 50000) : rdeg dst r = ((kdegR dst r + 1 : ℝ) : EReal) := by
  rw [rdeg_eq, kdeg_coe, EReal.coe_add, EReal.coe_one]

theorem rsqrt_coe_pos (x : ℝ) (hx : 0 < x) : Ideal.rsqrt (x : EReal) = (((Real.sqrt x)⁻¹ : ℝ) : EReal) := by
  rw [Ideal.rsqrt_coe, if_neg (not_lt.mpr hx.le), if_neg hx.ne']

theorem kdis_coe (r : Fin 50000) : kdis dst r = ((disR dst r : ℝ) : EReal) := by
  unfold kdis disR
  rw [kdeg_coe, ← EReal.coe_one, ← EReal.coe_add]
  exact rsqrt_coe_pos _ (by have := kdegR_nonneg dst r; linarith)

theorem rdis_eq (r : Fin 50000) : rdis dst r = kdis dst r := by
  have h0 := kdegR_nonneg dst r
  unfold rdis
  rw [rdeg_coe]
  rw [if_pos (by exact_mod_cast (by linarith : (0 : ℝ) < kdegR dst r + 1))]
  rw [max_eq_left (by rw [← EReal.coe_one]; exact_mod_cast (by linarith : (1 : ℝ) ≤ kdegR dst r + 1))]
  unfold kdis
  rw [kdeg_coe, ← EReal.coe_one, ← EReal.coe_add]

theorem disR_pos (r : Fin 50000) : 0 < disR dst r := by
  unfold disR
  exact inv_pos.mpr (Real.sqrt_pos.mpr (by have := kdegR_nonneg dst r; linarith))

end Cert.Spec

end
-- ==== Proof.MathAgg.lean ====
/-
  The two aggregations as real numbers, and their equality. With real inputs every quantity is a real number, so the
  per-row factor dis r distributes over the sum of the gathered rows and the loop term:
    dis r · (Σ_{e lands on r} (xw(s_e) · dis(s_e)) + xw r · dis r)
      = Σ_{e lands on r} xw(s_e) · (dis(s_e) · dis r) + xw r · (dis r · dis r),
  the right side being the reference's sum over the edges and the loops landing on r: an edge landing on r gathers,
  for its destination, row r itself, and the only loop landing on r is the loop of r.
-/
import proofs.«147240_j47321949667549_2_alg».proof.Proof.MathDeg

noncomputable section

open scoped BigOperators

namespace Cert.Spec

open Idealize.ShloMosaic

/-- A real array read in the extended reals. -/
abbrev up2 {a b : ℕ} (f : Fin a → Fin b → ℝ) : Fin a → Fin b → EReal := fun p q => (f p q : EReal)
abbrev up1 {a : ℕ} (f : Fin a → ℝ) : Fin a → EReal := fun p => (f p : EReal)

variable (x' : Fin 50000 → Fin 128 → ℝ) (w' : Fin 128 → Fin 128 → ℝ) (b' : Fin 128 → ℝ) (src dst : Fin 640000 → BitVec 32)

def xwR (n : Fin 50000) (k : Fin 128) : ℝ := ∑ j : Fin 128, x' n j * w' j k
theorem xw_coe (n : Fin 50000) (k : Fin 128) : xw (up2 x') (up2 w') n k = ((xwR x' w' n k : ℝ) : EReal) := by
  unfold xw xwR
  rw [coe_sum]
  refine Finset.sum_congr rfl fun j _ => ?_
  rw [EReal.coe_mul]

def xsR (n : Fin 50000) (k : Fin 128) : ℝ := xwR x' w' n k * disR dst n
theorem xs_coe (n : Fin 50000) (k : Fin 128) : xs (up2 x') (up2 w') dst n k = ((xsR x' w' dst n k : ℝ) : EReal) := by
  unfold xs xsR
  rw [xw_coe, kdis_coe, EReal.coe_mul]

def gatR (r : Fin 50000) (k : Fin 128) : ℝ := ∑ e : Fin 640000, if hit (dst e) r then xsR x' w' dst (gix (src e)) k else 0
theorem gat_coe (r : Fin 50000) (k : Fin 128) : gat (up2 x') (up2 w') src dst r k = ((gatR x' w' src dst r k : ℝ) : EReal) := by
  unfold gat gatR
  rw [coe_sum]
  refine Finset.sum_congr rfl fun e _ => ?_
  rw [coe_ite, xs_coe]

def aggR (r : Fin 50000) (k : Fin 128) : ℝ := disR dst r * (gatR x' w' src dst r k + xsR x' w' dst r k) + b' k
theorem kagg_coe (r : Fin 50000) (k : Fin 128) :
    kagg (up2 x') (up2 w') src dst (up1 b') r k = ((aggR x' w' b' src dst r k : ℝ) : EReal) := by
  unfold kagg aggR
  rw [gat_coe, xs_coe, kdis_coe, EReal.coe_add, EReal.coe_mul, EReal.coe_add]

/-- One edge-or-loop's message, as a real number. -/
theorem rmsg_coe (u : Fin 690000) (k : Fin 128) :
    rmsg (up2 x') (up2 w') src dst u k
      = ((xwR x' w' (gix (withLoops src u)) k * (disR dst (gix (withLoops src u)) * disR dst (gix (withLoops dst u))) : ℝ) : EReal) := by
  unfold rmsg
  rw [xw_coe, rdis_eq, rdis_eq, kdis_coe, kdis_coe, EReal.coe_mul, EReal.coe_mul]

/-- The reference's sum over the edges and loops landing on `r`, as a real number. -/
def raggR (r : Fin 50000) (k : Fin 128) : ℝ :=
  (∑ e : Fin 640000, if hit (dst e) r then xwR x' w' (gix (src e)) k * (disR dst (gix (src e)) * disR dst r) else 0)
    + xwR x' w' r k * (disR dst r * disR dst r) + b' k

theorem ragg_coe (r : Fin 50000) (k : Fin 128) :
    ragg (up2 x') (up2 w') src dst (up1 b') r k = ((raggR x' w' b' src dst r k : ℝ) : EReal) := by
  have he : ∀ e : Fin 640000,
      (if hit (withLoops dst (edgeIx e)) r then rmsg (up2 x') (up2 w') src dst (edgeIx e) k else 0)
        = (((if hit (dst e) r then xwR x' w' (gix (src e)) k * (disR dst (gix (src e)) * disR dst r) else 0 : ℝ)) : EReal) := fun e => by
    rw [rmsg_coe, withLoops_edge, withLoops_edge, coe_ite]
    by_cases h : hit (dst e) r
    · rw [if_pos h, if_pos h, gix_of_hit _ _ h]
    · rw [if_neg h, if_neg h]
  have hl : ∀ n : Fin 50000,
      (if hit (withLoops dst (loopIx n)) r then rmsg (up2 x') (up2 w') src dst (loopIx n) k else 0)
        = if hit (BitVec.ofNat 32 n.val) r then ((xwR x' w' n k * (disR dst n * disR dst n) : ℝ) : EReal) else 0 := fun n => by
    rw [rmsg_coe, withLoops_loop, withLoops_loop, gix_ofNat]
  unfold ragg raggR
  rw [sum_split]
  beta_reduce
  rw [Fintype.sum_congr _ _ he, Fintype.sum_congr _ _ hl,
    sum_loops r (fun n => ((xwR x' w' n k * (disR dst n * disR dst n) : ℝ) : EReal)), ← coe_sum, EReal.coe_add, EReal.coe_add]

/-- The kernel's aggregation is the reference's: the factor `dis r` distributed over the sum and the loop term. -/
theorem aggR_eq (r : Fin 50000) (k : Fin 128) : aggR x' w' b' src dst r k = raggR x' w' b' src dst r k := by
  unfold aggR raggR gatR xsR
  rw [mul_add, Finset.mul_sum]
  refine congrArg (· + b' k) ?_
  refine congrArg₂ (· + ·) ?_ (by ring)
  refine Finset.sum_congr rfl fun e _ => ?_
  by_cases h : hit (dst e) r
  · rw [if_pos h, if_pos h]; ring
  · rw [if_neg h, if_neg h, mul_zero]

theorem kagg_eq_ragg (r : Fin 50000) (k : Fin 128) :
    kagg (up2 x') (up2 w') src dst (up1 b') r k = ragg (up2 x') (up2 w') src dst (up1 b') r k := by
  rw [kagg_coe, ragg_coe, aggR_eq]

end Cert.Spec

end
-- ==== Proof.MathOut.lean ====
/-
  The rectified array is real-valued and the same on both sides; on a real array the mean of the squares minus the squared
  mean is the mean of the squared deviations; so the two normalisations are one function.
-/
import proofs.«147240_j47321949667549_2_alg».proof.Proof.MathAgg

noncomputable section

open scoped BigOperators

namespace Cert.Spec

open Idealize.ShloMosaic

/-- The rectifier's slope is a finite number. -/
theorem slope_ne_top : slope ≠ ⊤ := by
  unfold slope; simp [Ideal.ofBits, Ideal.ieee, -EReal.coe_mul]
theorem slope_ne_bot : slope ≠ ⊥ := by
  unfold slope; simp [Ideal.ofBits, Ideal.ieee, -EReal.coe_mul]
def slopeR : ℝ := slope.toReal
theorem slope_coe : slope = ((slopeR : ℝ) : EReal) := (EReal.coe_toReal slope_ne_top slope_ne_bot).symm

theorem lrelu_coe (a : ℝ) : lrelu (a : EReal) = (((if 0 ≤ a then a else slopeR * a) : ℝ) : EReal) := by
  unfold lrelu
  by_cases h : 0 ≤ a
  · rw [if_pos (EReal.coe_nonneg.mpr h), if_pos h]
  · rw [if_neg (fun h' => h (EReal.coe_nonneg.mp h')), if_neg h, slope_coe, EReal.coe_mul]

section
variable (x' : Fin 50000 → Fin 128 → ℝ) (w' : Fin 128 → Fin 128 → ℝ) (b' : Fin 128 → ℝ) (src dst : Fin 640000 → BitVec 32)

/-- The rectified aggregation as a real number. -/
def hR (r : Fin 50000) (k : Fin 128) : ℝ :=
  if 0 ≤ aggR x' w' b' src dst r k then aggR x' w' b' src dst r k else slopeR * aggR x' w' b' src dst r k

theorem kh_coe (r : Fin 50000) (k : Fin 128) :
    kh (up2 x') (up2 w') src dst (up1 b') r k = ((hR x' w' b' src dst r k : ℝ) : EReal) := by
  unfold kh hR
  rw [kagg_coe, lrelu_coe]

theorem kh_eq_rh : kh (up2 x') (up2 w') src dst (up1 b') = rh (up2 x') (up2 w') src dst (up1 b') := by
  funext r k
  unfold kh rh
  rw [kagg_eq_ragg]
end

section
variable (h' : Fin 50000 → Fin 128 → ℝ)

theorem mean_coe (k : Fin 128) : mean (up2 h') k = (((∑ n : Fin 50000, h' n k) * (1 / 50000) : ℝ) : EReal) := by
  unfold mean
  rw [Ideal.div_coe (by norm_num : (50000 : ℝ) ≠ 0), EReal.coe_mul, coe_sum]

theorem kvar_coe (k : Fin 128) :
    kvar (up2 h') k = (((∑ n : Fin 50000, h' n k * h' n k) * (1 / 50000)
      - (∑ n : Fin 50000, h' n k) * (1 / 50000) * ((∑ n : Fin 50000, h' n k) * (1 / 50000)) : ℝ) : EReal) := by
  unfold kvar
  rw [mean_coe, Ideal.div_coe (by norm_num : (50000 : ℝ) ≠ 0)]
  simp only [up2, EReal.coe_sub, EReal.coe_mul, coe_sum]

theorem rvar_coe (k : Fin 128) :
    rvar (up2 h') k = (((∑ n : Fin 50000, (h' n k - (∑ j : Fin 50000, h' j k) * (1 / 50000))
      * (h' n k - (∑ j : Fin 50000, h' j k) * (1 / 50000))) * (1 / 50000) : ℝ) : EReal) := by
  unfold rvar
  rw [mean_coe, Ideal.div_coe (by norm_num : (50000 : ℝ) ≠ 0)]
  simp only [up2, EReal.coe_sub, EReal.coe_mul, coe_sum]

theorem kvar_eq_rvar (k : Fin 128) : kvar (up2 h') k = rvar (up2 h') k := by
  rw [kvar_coe, rvar_coe]
  exact congrArg _ (var_identity (fun n : Fin 50000 => h' n k) 50000 (by rw [Fintype.card_fin]; norm_num) (by norm_num)).symm
end

/-- THE EQUALITY: on real inputs the kernel's formula and the reference's are one function (the scale and shift per
    channel may be any extended reals: they enter both sides alike). -/
theorem kout_eq_rout (x' : Fin 50000 → Fin 128 → ℝ) (w' : Fin 128 → Fin 128 → ℝ) (b' : Fin 128 → ℝ)
    (src dst : Fin 640000 → BitVec 32) (G Be : Fin 128 → EReal) :
    kout (up2 x') (up2 w') src dst (up1 b') G Be = rout (up2 x') (up2 w') src dst (up1 b') G Be := by
  have hh := kh_eq_rh x' w' b' src dst
  have hk : kh (up2 x') (up2 w') src dst (up1 b') = up2 (hR x' w' b' src dst) := by
    funext r k; exact kh_coe x' w' b' src dst r k
  have hv : kvar (up2 (hR x' w' b' src dst)) = rvar (up2 (hR x' w' b' src dst)) :=
    funext fun k => kvar_eq_rvar _ k
  funext n k
  unfold kout rout
  rw [← hh, hk, hv]

end Cert.Spec

end
-- ==== Proof.Finite.lean ====
/-
  From the precondition to real inputs. The precondition says, of each float argument, that every entry's absolute
  value is below the f32 infinity pattern, which denotes the top element ⊤ of the extended reals; the entries are
  tested all at once by a reduction with "and" into a single bit, and the arguments' bits are conjoined. An extended
  real whose absolute value max(a, -a) is below ⊤ is neither ⊤ nor ⊥, so it is a real number. Hence the three float
  arguments the aggregation reads are arrays of real numbers.
-/
import proofs.«147240_j47321949667549_2_alg».proof.Pre_finite_inputs
import proofs.«147240_j47321949667549_2_alg».proof.Proof.MathAgg
import Idealize.ShloMosaic.Lib.ReduceAll
import Idealize.ShloMosaic.Lib.Affine
import Idealize.ShloMosaic.Lib.ValueIdx
import Idealize.ShloMosaic.Lib.IdealHost

noncomputable section
namespace Cert.Finite

open Cert.Spec Idealize.ShloMosaic Idealize.ShloMosaic.ValueIdx

/-- The f32 infinity pattern denotes ⊤. -/
theorem ofBits_inf : Ideal.ofBits .f32 0x7F800000#32 = (⊤ : EReal) := by
  simp [Ideal.ofBits, Ideal.ieee]

/-- An extended real whose absolute value compares below ⊤ is a real number. -/
theorem real_of_abs_lt (a : EReal) (h : Ideal.cmp .olt (max a (-a)) ⊤ = 1#1) : ∃ r : ℝ, a = (r : EReal) := by
  have hlt : max a (-a) < ⊤ := by
    unfold Ideal.cmp at h
    by_contra hn
    simp [hn] at h
  induction a using EReal.rec with
  | bot => simp at hlt
  | top => simp at hlt
  | coe r => exact ⟨r, rfl⟩

/-- Both conjuncts of a one-bit "and" that is 1 are 1. -/
theorem and_bits {s : Shape} (a b : IVec s 1) (i : s.Idx) (h : andi a b i = 1#1) : a i = 1#1 ∧ b i = 1#1 :=
  IntOp.andi_eq_one.1 h

/-- "Every entry's absolute value is below the infinity pattern", reduced to one bit that is 1: every entry is real. -/
theorem real_of_all {s : Shape} {axes : List (Fin s.rank)} (v : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi
        (cmpf .olt (Host.absf v) (broadcastInDim s ![] hb (constant (F := Ideal) ⟨0, ![]⟩ .f32 0x7F800000#32)))
        (constantI ⟨0, ![]⟩ 1 1#1) hr hu ix0 = 1#1) (i : s.Idx) : ∃ r : ℝ, v i = (r : EReal) := by
  haveI : Subsingleton (⟨0, ![]⟩ : Shape).Idx := ⟨fun a b => funext fun d => d.elim0⟩
  have hi := Host.reduce_andi_all _ _ hr hu ix0 e i
  rw [cmpf_apply, broadcastInDim_scalar_apply, constant_apply, ofBits_inf, Ideal.cmpf_def] at hi
  exact real_of_abs_lt (v i) hi

open Cert.Spec Idealize.ShloMosaic in
theorem reals_of_pre [Cert.Pre_finite_inputs.Facts] (x : FVec Ideal Cert.Pre_finite_inputs.S50000x128 .f32) (ei : IVec Cert.Pre_finite_inputs.S2x640000 32) (W : FVec Ideal Cert.Pre_finite_inputs.S128x128 .f32) (b ga be : FVec Ideal Cert.Pre_finite_inputs.S128 .f32) (h : Cert.Pre_finite_inputs.fn (F := Ideal) x ei W b ga be = fun _ => 1#1) : (∃ x' : Fin 50000 → Fin 128 → ℝ, fn2 x = up2 x') ∧ (∃ w' : Fin 128 → Fin 128 → ℝ, fn2 W = up2 w') ∧ (∃ b' : Fin 128 → ℝ, fn1 b = up1 b') := by
  have h0 := congrFun h ix0
  dsimp only [Cert.Pre_finite_inputs.fn, Cert.Pre_finite_inputs.fn_part1] at h0
  obtain ⟨h18, -⟩ := and_bits _ _ _ h0
  obtain ⟨h13, -⟩ := and_bits _ _ _ h18
  obtain ⟨h8, h12⟩ := and_bits _ _ _ h13
  obtain ⟨h3, h7⟩ := and_bits _ _ _ h8
  refine ⟨?_, ?_, ?_⟩
  · have hx : ∀ p q, ∃ r : ℝ, x (ix2 p q) = (r : EReal) := fun p q => real_of_all x _ _ _ h3 (ix2 p q)
    choose x' hx' using hx
    exact ⟨x', funext fun p => funext fun q => hx' p q⟩
  · have hw : ∀ p q, ∃ r : ℝ, W (ix2 p q) = (r : EReal) := fun p q => real_of_all W _ _ _ h7 (ix2 p q)
    choose w' hw' using hw
    exact ⟨w', funext fun p => funext fun q => hw' p q⟩
  · have hbb : ∀ p, ∃ r : ℝ, b (ix1 p) = (r : EReal) := fun p => real_of_all b _ _ _ h12 (ix1 p)
    choose b' hb' using hbb
    exact ⟨b', funext fun p => hb' p⟩

end Cert.Finite
end
-- ==== Proof.lean ====
/-
  A graph convolution with self loops, a leaky rectifier and a normalisation over the nodes: the tiled kernels against the
  plain reference, equal over the extended reals when the float inputs are finite.

  Both programs are read as formulas over literal coordinates (Proof/Spec.lean). The kernel's side: three tiled regions
  (the projection scaled per row; the loop term, bias, rectifier and per-tile column sums; the normalisation) among host
  stretches (the in-degrees by a scatter-add of ones, the gather of the scaled rows along the edges and their scatter-add at
  the destinations, the column statistics from the per-tile sums), each read at an index and chained through the buffer
  contents at the region boundaries (Proof/KHost*.lean, Proof/KReg*.lean, Proof/KRun.lean). The reference's side: its host
  operations composed into one term (Proof/RefTerm.lean), its run ending at that term (Proof/RefRun.lean), the term read at
  an index (Proof/RefRead*.lean). The two formulas agree on real inputs (Proof/Math*.lean): the self loops are the "+ 1" of the
  degree and the dense "+ xs" of the aggregation, the row factor distributes over the edge sum, and the mean of squares minus
  the squared mean is the mean of squared deviations. Finiteness of the inputs (Proof/Finite.lean) is what makes every
  quantity a real number, which both the distribution and the variance identity need.
-/
import proofs.«147240_j47321949667549_2_alg».proof.Defs
import proofs.«147240_j47321949667549_2_alg».proof.Proof.Gen.Kernel
import proofs.«147240_j47321949667549_2_alg».proof.Proof.Gen.Kernel.Frame
import proofs.«147240_j47321949667549_2_alg».proof.Proof.Gen.KernelIdeal
import proofs.«147240_j47321949667549_2_alg».proof.Proof.Gen.KernelIdeal.Frame
import proofs.«147240_j47321949667549_2_alg».proof.Proof.Gen.ReferenceIdeal
import proofs.«147240_j47321949667549_2_alg».proof.Proof.Gen.Pre_finite_inputs
import proofs.«147240_j47321949667549_2_alg».proof.Proof.KRun
import proofs.«147240_j47321949667549_2_alg».proof.Proof.RefRun
import proofs.«147240_j47321949667549_2_alg».proof.Proof.RefRead
import proofs.«147240_j47321949667549_2_alg».proof.Proof.MathOut
import proofs.«147240_j47321949667549_2_alg».proof.Proof.Finite
import Idealize.ShloMosaic.Adequacy
import Idealize.ShloMosaic.Init

noncomputable section

namespace Cert.Proof

open Idealize.ShloMosaic Idealize.SL.Sem Cert.Spec

theorem frame_p : Cert.frame_Kernel := fun m ρ _ => Cert.Kernel.Gen.frame m ρ
theorem frame_pi : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.RVal.run_term (F := Ideal) m ρ)

/-- Both runs end with the result array at the kernel's formula of the argument arrays: the kernel by its run, the reference
    by its run at its composed term, that term read as the reference's formula, and the two formulas equal on the real inputs
    the precondition gives. -/
theorem algebraic : Cert.algebraic_KernelIdeal_ReferenceIdeal := by
  intro m ρ m' ρ' hpre hagree
  refine ⟨_, Cert.KernelIdeal.KVal.run m ρ, ?_⟩
  refine (θ_run Cert.ReferenceIdeal.defs _ _).mono (fun _ h c => ⟨(h c).1.trans ?_, (h c).2⟩)
    (Cert.ReferenceIdeal.RVal.run_term (F := Ideal) m' ρ')
  obtain ⟨h0, h1, h2, h3, h4, h5⟩ := hagree c
  rw [h0, h1, h2, h3, h4, h5, Cert.ReferenceIdeal.RVal.out_eq]
  obtain ⟨⟨x', hx⟩, ⟨w', hw⟩, ⟨b', hb⟩⟩ := Cert.Finite.reals_of_pre _ _ _ _ _ _ (hpre c)
  refine congrArg arr2 ?_
  rw [hx, hw, hb]
  exact (kout_eq_rout x' w' b' _ _ _ _).symm

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
